-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S64 .f32) (main_arg10 : FVec F S64x40 .f32) (main_arg11 : FVec F S40 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x40 .f32 := Host.absf main_arg10
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg11
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x64 .f32) (main_arg9 : FVec F S64 .f32) (main_arg10 : FVec F S64x40 .f32) (main_arg11 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S1600000 .f32) (main_arg4 : FVec F S128x64 .f32) (main_arg5 : FVec F S64 .f32) (main_arg6 : FVec F S64x64 .f32) (main_arg7 : FVec F S64 .f32) (main_arg8 : FVec F S64x64 .f32) (main_arg9 : FVec F S64 .f32) (main_arg10 : FVec F S64x40 .f32) (main_arg11 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x40 : Shape := ⟨2, ![100000, 40]⟩
abbrev S10000x40 : Shape := ⟨2, ![10000, 40]⟩
abbrev S1600000x40 : Shape := ⟨2, ![1600000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 84
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x40, .f32⟩
  | .hbm, ⟨11, _⟩ => ⟨S40, .f32⟩
  | .hbm, ⟨12, _⟩ => ⟨S100000x64, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x1, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S1600000x1, .f32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S1600000x1, .f32⟩
  | .hbm, ⟨59, _⟩ => ⟨S1600000x64, .f32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S100000x64, .f32⟩
  | .hbm, ⟨66, _⟩ => ⟨S100000x40, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x40, .f32⟩
  | .hbm, ⟨76, _⟩ => ⟨S1600000x1, .f32⟩
  | .hbm, ⟨77, _⟩ => ⟨S1600000x40, .f32⟩
  | .hbm, ⟨78, _⟩ => ⟨S1600000x40, .f32⟩
  | .hbm, ⟨79, _⟩ => ⟨S_, .f32⟩
  | .hbm, ⟨80, _⟩ => ⟨S100000x40, .f32⟩
  | .hbm, ⟨81, _⟩ => ⟨S1600000x1, .i32⟩
  | .hbm, ⟨82, _⟩ => ⟨S100000x40, .f32⟩
  | .hbm, ⟨83, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S64x40, .f32⟩
  | .local _ .vmem, ⟨37, _⟩ => ⟨S10000x40, .f32⟩
  | .local _ .vmem, ⟨38, _⟩ => ⟨S10000x40, .f32⟩
  | .local _ .vmem, ⟨39, _⟩ => ⟨S10000x40, .f32⟩
  | .local _ .vmem, ⟨40, _⟩ => ⟨S10000x40, .f32⟩
  | .local _ .vmem, ⟨41, _⟩ => ⟨S40, .f32⟩
  | .local _ .vmem, ⟨42, _⟩ => ⟨S10000x40, .f32⟩
  | .local _ .vmem, ⟨43, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S40 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  shapeCasts_S10000x40_S10000x40 : S10000x40.ShapeCasts S10000x40
  reduces_S10000x40_S10000 : S10000x40.Reduces [1] S10000
  shapeCasts_S10000_S10000x1 : S10000.ShapeCasts S10000x1
  broadcasts_S10000x1_S10000x40 : S10000x1.Broadcasts S10000x40
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x40.size a ≤ S64x40.size a
  hwx6_1 : ∀ i : grid6.Coords, EltTy.bits .f32 = 32 ∨ (Rect.block (s := S64x40) S64x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x40.size a ≤ S100000x40.size a
  hwx6_2 : ∀ i : grid6.Coords, EltTy.bits .f32 = 32 ∨ (Rect.block (s := S100000x40) S10000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x40.size a ≤ S100000x40.size a
  hwx7_0 : ∀ i : grid7.Coords, EltTy.bits .f32 = 32 ∨ (Rect.block (s := S100000x40) S10000x40.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S40.size a ≤ S40.size a
  hwx7_1 : ∀ i : grid7.Coords, EltTy.bits .f32 = 32 ∨ (Rect.block (s := S40) S40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x40.size a ≤ S100000x40.size a
  hwx7_2 : ∀ i : grid7.Coords, EltTy.bits .f32 = 32 ∨ (Rect.block (s := S100000x40) S10000x40.size (cc7_transform_2 i) (hinb7_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S10000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v29) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v43) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v29) S10000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v44) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v44) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v45) S10000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v58) S10000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v59) S10000x40.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x40, .f32⟩
  | .hbm, ⟨11, _⟩ => ⟨S40, .f32⟩
  | .hbm, ⟨12, _⟩ => ⟨S100000x64, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x1, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S1600000x1, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S1600000x1, .f32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x40, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x40, .f32⟩
  | .hbm, ⟨93, _⟩ => ⟨S1600000x1, .f32⟩
  | .hbm, ⟨94, _⟩ => ⟨S1600000x40, .f32⟩
  | .hbm, ⟨95, _⟩ => ⟨S1600000x40, .f32⟩
  | .hbm, ⟨96, _⟩ => ⟨S_, .f32⟩
  | .hbm, ⟨97, _⟩ => ⟨S100000x40, .f32⟩
  | .hbm, ⟨98, _⟩ => ⟨S1600000x1, .i32⟩
  | .hbm, ⟨99, _⟩ => ⟨S100000x40, .f32⟩
  | .hbm, ⟨100, _⟩ => ⟨S1x40, .f32⟩
  | .hbm, ⟨101, _⟩ => ⟨S100000x40, .f32⟩
  | .hbm, ⟨102, _⟩ => ⟨S100000x40, .f32⟩
  | .hbm, ⟨103, _⟩ => ⟨S_, .f32⟩
  | .hbm, ⟨104, _⟩ => ⟨S100000, .f32⟩
  | .hbm, ⟨105, _⟩ => ⟨S_, .f32⟩
  | .hbm, ⟨106, _⟩ => ⟨S100000, .f32⟩
  | .hbm, ⟨107, _⟩ => ⟨S100000, .f32⟩
  | .hbm, ⟨108, _⟩ => ⟨S100000x1, .f32⟩
  | .hbm, ⟨109, _⟩ => ⟨S100000x40, .f32⟩
  | .hbm, ⟨110, _⟩ => ⟨S100000x40, .f32⟩
  | .hbm, ⟨111, _⟩ => ⟨S100000x40, .f32⟩
  | .hbm, ⟨112, _⟩ => ⟨S_, .f32⟩
  | .hbm, ⟨113, _⟩ => ⟨S100000, .f32⟩
  | .hbm, ⟨114, _⟩ => ⟨S100000x1, .f32⟩
  | .hbm, ⟨115, _⟩ => ⟨S100000x1, .f32⟩
  | .hbm, ⟨116, _⟩ => ⟨S100000x40, .f32⟩
  | .hbm, ⟨117, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call2_cst : Ref sig .tc := ⟨.hbm, 79, rfl⟩
abbrev main_call2_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_7 : Ref sig .tc := ⟨.hbm, 84, rfl⟩
abbrev main_v57 : Ref sig .tc := ⟨.hbm, 85, rfl⟩
abbrev main_v58 : Ref sig .tc := ⟨.hbm, 86, rfl⟩
abbrev main_c_8 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_9 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_call3_cst : Ref sig .tc := ⟨.hbm, 103, rfl⟩
abbrev main_call3_v0 : Ref sig .tc := ⟨.hbm, 104, rfl⟩
abbrev main_call3_cst_0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_v6 : Ref sig .tc := ⟨.hbm, 111, rfl⟩
abbrev main_call3_cst_1 : Ref sig .tc := ⟨.hbm, 112, rfl⟩
abbrev main_call3_v7 : Ref sig .tc := ⟨.hbm, 113, rfl⟩
abbrev main_call3_v8 : Ref sig .tc := ⟨.hbm, 114, rfl⟩
abbrev main_call3_v9 : Ref sig .tc := ⟨.hbm, 115, rfl⟩
abbrev main_call3_v10 : Ref sig .tc := ⟨.hbm, 116, rfl⟩
abbrev main_v73 : Ref sig .tc := ⟨.hbm, 117, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its RESULT array named.

  @main is twelve segments: eight kernel regions among four stretches of host operations. Running the segments one after
  the other from the launch memory leaves, at each boundary, a definite content in every buffer: after a region, its
  output array holds what the region's write-backs leave and every other buffer what it held; after a host stretch, each
  buffer holds what the stretch's operations compute from the contents before it. The last boundary's contents of the
  result buffer is therefore a composed function of the launch memory, and this module states the run with the result
  buffer at that content (the twelve arguments at their launch contents, as in the frame).
-/
import proofs.«120379_j40956808135036_1_alg».proof.Proof.Patched.KernelIdeal.Frame

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched: the launch over the twelve segments, the last thread state (every unscoped
    buffer at the last boundary's contents) read against the final state. -/
theorem run_out : θ_run defs (onTc (τ := τ) (main (F := F))) ⟨m, fun _ => 0, ρ⟩ (fun r => ∀ c : Dev nD,
      r.2.mem ((c.tc : Thread nD τ).loc main_v59) = W12 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v59 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Hand

end
-- ==== Proof.LibLayers.lean ====
/-
  The layers of the network as whole-array functions over the extended reals, index by index.

  Rows are nodes. A layer multiplies each node's feature row by a weight matrix (`dense`), the products are gathered along
  the edges, weighted and summed into the target nodes (that part is the same host operations on both sides and is
  never opened), then a bias row is added and the result is cut at zero (`biasRelu`), with the previous layer's output
  added back in the two middle layers (`biasReluRes`); the last layer ends in a row-wise log-softmax (`biasLogSoftmax`):
  with z = a + b, m the row's maximum and s the row's sum of exp (z − m), the entry is (z − m) − log s.
-/
import Idealize.ShloMosaic.Lib.ValueIdx
import Idealize.ShloMosaic.PureOps.Ideal.Laws

noncomputable section

open scoped BigOperators

namespace Cert.Spec

open Idealize.ShloMosaic Idealize.ShloMosaic.ValueIdx

/-- The row of a rank-2 index, below the literal extent. -/
abbrev row {n0 n1 : ℕ} (i : (⟨2, ![n0, n1]⟩ : Shape).Idx) : Fin n0 := ⟨(i 0).val, idx2_lt0 i⟩
/-- The column of a rank-2 index, below the literal extent. -/
abbrev col {n0 n1 : ℕ} (i : (⟨2, ![n0, n1]⟩ : Shape).Idx) : Fin n1 := ⟨(i 1).val, idx2_lt1 i⟩

theorem ix2_row_col {n0 n1 : ℕ} (i : (⟨2, ![n0, n1]⟩ : Shape).Idx) : ix2 (row i) (col i) = i :=
  funext fun a => match a with | ⟨0, _⟩ => rfl | ⟨1, _⟩ => rfl

/-- Each row times the weight matrix: entry (r, c) is the sum over k of h (r, k) · w (k, c). -/
def dense {R K M : ℕ} (h : FVec Ideal ⟨2, ![R, K]⟩ .f32) (w : FVec Ideal ⟨2, ![K, M]⟩ .f32) : FVec Ideal ⟨2, ![R, M]⟩ .f32 :=
  fun i => ∑ k : Fin K, h (ix2 (row i) k) * w (ix2 k (col i))

/-- The bias row added to every row. -/
def biased {R M : ℕ} (a : FVec Ideal ⟨2, ![R, M]⟩ .f32) (b : FVec Ideal ⟨1, ![M]⟩ .f32) : FVec Ideal ⟨2, ![R, M]⟩ .f32 :=
  fun i => a i + b (ix1 (col i))

/-- Bias, then the cut at zero. -/
def biasRelu {R M : ℕ} (a : FVec Ideal ⟨2, ![R, M]⟩ .f32) (b : FVec Ideal ⟨1, ![M]⟩ .f32) : FVec Ideal ⟨2, ![R, M]⟩ .f32 :=
  fun i => max (biased a b i) (Ideal.ofBits .f32 0x00000000#32)

/-- Bias, the cut at zero, and the earlier layer's output added back. -/
def biasReluRes {R M : ℕ} (a : FVec Ideal ⟨2, ![R, M]⟩ .f32) (b : FVec Ideal ⟨1, ![M]⟩ .f32) (r : FVec Ideal ⟨2, ![R, M]⟩ .f32) :
    FVec Ideal ⟨2, ![R, M]⟩ .f32 :=
  fun i => max (biased a b i) (Ideal.ofBits .f32 0x00000000#32) + r i

/-- A row's maximum, folded from −∞. -/
def rowMax {R M : ℕ} (z : FVec Ideal ⟨2, ![R, M]⟩ .f32) (p : Fin R) : EReal :=
  (Finset.univ : Finset (Fin M)).fold max (Ideal.ofBits .f32 0xFF800000#32) (fun k => z (ix2 p k))

/-- The entries with their row's maximum taken off. -/
def centred {R M : ℕ} (z : FVec Ideal ⟨2, ![R, M]⟩ .f32) : FVec Ideal ⟨2, ![R, M]⟩ .f32 :=
  fun i => z i - rowMax z (row i)

/-- Row-wise log-softmax of the biased entries. -/
def biasLogSoftmax {R M : ℕ} (a : FVec Ideal ⟨2, ![R, M]⟩ .f32) (b : FVec Ideal ⟨1, ![M]⟩ .f32) : FVec Ideal ⟨2, ![R, M]⟩ .f32 :=
  fun i => centred (biased a b) i - Ideal.log (∑ k : Fin M, Ideal.exp (centred (biased a b) (ix2 (row i) k)))

/-- The maximum with −∞ is the other operand. -/
theorem max_ninf (x : EReal) : max (Ideal.ofBits .f32 0xFF800000#32) x = x := by
  simp [Ideal.ofBits, Ideal.ieee]

/-- The log-softmax of a row depends on that row and on the bias only: equal rows (of arrays of any heights) and equal biases
    give equal entries. -/
theorem biasLogSoftmax_congr {R R' M : ℕ} (x : FVec Ideal ⟨2, ![R, M]⟩ .f32) (x' : FVec Ideal ⟨2, ![R', M]⟩ .f32) (v v' : FVec Ideal ⟨1, ![M]⟩ .f32)
    (p : Fin R) (p' : Fin R') (q : Fin M) (hrow : ∀ k : Fin M, x (ix2 p k) = x' (ix2 p' k)) (hv : ∀ k : Fin M, v (ix1 k) = v' (ix1 k)) :
    biasLogSoftmax x v (ix2 p q) = biasLogSoftmax x' v' (ix2 p' q) := by
  have hz : ∀ k : Fin M, biased x v (ix2 p k) = biased x' v' (ix2 p' k) := fun k => congrArg₂ (· + ·) (hrow k) (hv k)
  have hm : rowMax (biased x v) p = rowMax (biased x' v') p' := by
    unfold rowMax
    exact congrArg (Finset.fold max (Ideal.ofBits .f32 0xFF800000#32) · Finset.univ) (funext hz)
  have hc : ∀ k : Fin M, centred (biased x v) (ix2 p k) = centred (biased x' v') (ix2 p' k) := fun k => congrArg₂ (· - ·) (hz k) hm
  unfold biasLogSoftmax
  exact congrArg₂ (· - ·) (hc q) (congrArg Ideal.log (Finset.sum_congr rfl fun k _ => congrArg Ideal.exp (hc k)))

end Cert.Spec

end
-- ==== Proof.TileDots.lean ====
/-
  The kernel's three matrix-unit products on one tile of rows, read at an entry over the extended reals: a product of a
  [10000, K] tile with a [K, M] weight matrix, contracting the tile's last axis with the matrix's first into a zero
  accumulator, is at (p, q) the plain sum over k of tile (p, k) times weight (k, q) — the contraction index is the one
  coordinate k, and no order of summation is left in the sum.
-/
import proofs.«120379_j40956808135036_1_alg».proof.Proof.Gen.KernelIdeal
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The [10000, 128] × [128, 64] tile product -/

theorem lhsA_0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhsA_1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhsA_0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhsA_1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The tile's product into a zero accumulator, at (p, q): the sum over k of left (p, k) times right (k, q). -/
theorem tileA_apply {φ₁ φ₂ : FTy} (x : FVec Ideal S10000x128 φ₁) (w : FVec Ideal S128x64 φ₂) (p : Fin 10000) (q : Fin 64) :
    FloatOps.matmul dot_S10000x128_S128x64_S10000x64_1_0_0_1_n_n none x w (constant S10000x64 .f32 0x00000000#32) (ix2 p q) = ∑ k : Fin 128, x (ix2 p k) * w (ix2 k q) := by
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhsA_0 _ _
    | ⟨1, _⟩ => exact (lhsA_1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ## The [10000, 64] × [64, 64] tile product -/

theorem lhsB_0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsB_1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhsB_0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhsB_1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The tile's product into a zero accumulator, at (p, q): the sum over k of left (p, k) times right (k, q). -/
theorem tileB_apply {φ₁ φ₂ : FTy} (x : FVec Ideal S10000x64 φ₁) (w : FVec Ideal S64x64 φ₂) (p : Fin 10000) (q : Fin 64) :
    FloatOps.matmul dot_S10000x64_S64x64_S10000x64_1_0_0_1_n_n none x w (constant S10000x64 .f32 0x00000000#32) (ix2 p q) = ∑ k : Fin 64, x (ix2 p k) * w (ix2 k q) := by
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

/-! ## The [10000, 64] × [64, 40] tile product -/

theorem lhsC_0 (i : S10000x40.Idx) (q : dot_S10000x64_S64x40_S10000x40_1_0_0_1_n_n.contr.Idx) : (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem lhsC_1 (i : S10000x40.Idx) (q : dot_S10000x64_S64x40_S10000x40_1_0_0_1_n_n.contr.Idx) : (dot_S10000x64_S64x40_S10000x40_1_0_0_1_n_n.lhsIdx i q 1).val = (q ⟨0, by decide⟩).val :=
  dot_S10000x64_S64x40_S10000x40_1_0_0_1_n_n.lhsIdx_val_of_single rfl i q
theorem rhsC_0 (i : S10000x40.Idx) (q : dot_S10000x64_S64x40_S10000x40_1_0_0_1_n_n.contr.Idx) : (dot_S10000x64_S64x40_S10000x40_1_0_0_1_n_n.rhsIdx i q 0).val = (q ⟨0, by decide⟩).val :=
  dot_S10000x64_S64x40_S10000x40_1_0_0_1_n_n.rhsIdx_val_of_single rfl i q
theorem rhsC_1 (i : S10000x40.Idx) (q : dot_S10000x64_S64x40_S10000x40_1_0_0_1_n_n.contr.Idx) : (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The tile's product into a zero accumulator, at (p, q): the sum over k of left (p, k) times right (k, q). -/
theorem tileC_apply {φ₁ φ₂ : FTy} (x : FVec Ideal S10000x64 φ₁) (w : FVec Ideal S64x40 φ₂) (p : Fin 10000) (q : Fin 40) :
    FloatOps.matmul dot_S10000x64_S64x40_S10000x40_1_0_0_1_n_n none x w (constant S10000x40 .f32 0x00000000#32) (ix2 p q) = ∑ k : Fin 64, x (ix2 p k) * w (ix2 k q) := by
  rw [Ideal.matmul_constant_zero_apply, ← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 p q) ((contrEquiv1 dot_S10000x64_S64x40_S10000x40_1_0_0_1_n_n 64 rfl rfl).symm k) = ix2 p k := funext fun a => Fin.ext (by
    match a with
    | ⟨0, _⟩ => exact lhsC_0 _ _
    | ⟨1, _⟩ => exact (lhsC_1 _ _).trans hk)
  have er : dot_S10000x64_S64x40_S10000x40_1_0_0_1_n_n.rhsIdx (ix2 p q) ((contrEquiv1 dot_S10000x64_S64x40_S10000x40_1_0_0_1_n_n 64 rfl rfl).symm k) = ix2 k q := funext fun a => Fin.ext (by
    match a with
    | ⟨0, _⟩ => exact (rhsC_0 _ _).trans hk
    | ⟨1, _⟩ => exact rhsC_1 _ _)
  rw [el, er]

end Cert.KernelIdeal.Tile

end
-- ==== Proof.Region0.lean ====
/-
  Kernel region 0: rows times a weight matrix, one tile of 10000 rows per grid point.

  Point t loads rows 10000·t … 10000·t + 9999 of the [100000, 128] array and the whole [128, 64] weight matrix, multiplies them on
  the matrix unit into a zero accumulator, and writes the [10000, 64] product back as rows 10000·t … of the result. An entry
  of a tile's product is the plain sum over k of row entry times weight entry, and row p of tile t is row 10000·t + p of the
  array, so each written block is the block of ONE whole-array function — every row times the matrix — and the ten blocks
  cover the result: after the region the result array is that function of the arrays the region found.
-/
import proofs.«120379_j40956808135036_1_alg».proof.Proof.Patched.KernelIdeal.Frame
import proofs.«120379_j40956808135036_1_alg».proof.Proof.LibLayers
import proofs.«120379_j40956808135036_1_alg».proof.Proof.TileDots
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: the row tile moves with the result's block, the weight matrix stays put. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- Every one of the ten row blocks is some point's. -/
theorem idx_onto : ∀ q : Fin 10, ∃ t : Fin cfg0.N, win0_2.index t = ![q.val, 0] :=
  (by decide +kernel : ∀ q : Fin 10, ∃ t : Fin grid0.N, win0_2.index t = ![q.val, 0])

/-- The body's arithmetic at an entry: the sum over k of tile (p, k) times weight (k, q); the roundings on the way into the
    matrix unit change nothing over the extended reals. -/
theorem pay_apply (x : Vec Ideal S10000x128 .f32) (w : Vec Ideal S128x64 .f32) (p : Fin 10000) (q : Fin 64) :
    k0_pay1 x w (ix2 p q) = ∑ kk : Fin 128, x (ix2 p kk) * w (ix2 kk q) := by
  unfold k0_pay1
  refine (Tile.tileA_apply (truncf .bf16 x bitsLt_bf16_f32) (truncf .bf16 w bitsLt_bf16_f32) p q).trans ?_
  refine Finset.sum_congr rfl fun kk _ => ?_
  rw [truncf_apply, truncf_apply]

/-- Row p of point t's tile is row 10000·(block index) + p of the array. -/
theorem rows_apply (c : Dev nD) (t : Fin cfg0.N) (p : Fin 10000) (kk : Fin 128) (i : S100000x128.Idx)
    (h0 : (i 0).val = win0_2.index t (0 : Fin 2) * 10000 + p.val) (h1 : (i 1).val = kk.val) :
    (iblk0 V c 0 t : Vec Ideal S10000x128 .f32) (ix2 p kk) = V c main_arg0 i := by
  obtain ⟨e0, e1, -, -, -⟩ := idx_facts t
  unfold iblk0
  rw [View.read_apply]
  show V c main_arg0 _ = V c main_arg0 _
  congr 1
  funext a; apply Fin.ext
  match a with
  | ⟨0, _⟩ => show win0_0.index t (0 : Fin 2) * 10000 + 1 * p.val = (i 0).val; rw [e0, h0]; omega
  | ⟨1, _⟩ => show win0_0.index t (1 : Fin 2) * 128 + 1 * kk.val = (i 1).val; rw [e1, h1]; omega

/-- Every point's weight block is the whole weight matrix. -/
theorem weights_apply (c : Dev nD) (t : Fin cfg0.N) (kk : Fin 128) (q : Fin 64) (i : S128x64.Idx)
    (h0 : (i 0).val = kk.val) (h1 : (i 1).val = q.val) :
    (iblk0 V c 1 t : Vec Ideal S128x64 .f32) (ix2 kk q) = V c main_arg4 i := by
  obtain ⟨-, -, e2, e3, -⟩ := idx_facts t
  unfold iblk0
  rw [View.read_apply]
  show V c main_arg4 _ = V c main_arg4 _
  congr 1
  funext a; apply Fin.ext
  match a with
  | ⟨0, _⟩ => show win0_1.index t (0 : Fin 2) * 128 + 1 * kk.val = (i 0).val; rw [e2, h0]; omega
  | ⟨1, _⟩ => show win0_1.index t (1 : Fin 2) * 64 + 1 * q.val = (i 1).val; rw [e3, h1]; omega

/-- What point t writes back is block t of every row of the array times the weight matrix. -/
theorem flushed_eq (c : Dev nD) (t : Fin cfg0.N) :
    (dat0 V c).flushed 2 t = ((cfg0.win 2).blk t).view.read (Elt Ideal)
      (Spec.dense (R := 100000) (K := 128) (M := 64) (V c main_arg0) (V c main_arg4)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  funext j
  obtain ⟨p, q, rfl⟩ : ∃ (p : Fin 10000) (q : Fin 64), j = ix2 p q := ⟨j 0, j 1, eq_ix2 j⟩
  refine (pay_apply (iblk0 V c 0 t) (iblk0 V c 1 t) p q).trans ?_
  obtain ⟨-, -, -, -, e4⟩ := idx_facts t
  rw [View.read_apply]
  unfold Spec.dense
  refine Finset.sum_congr rfl fun kk _ => ?_
  refine congrArg₂ (· * ·) (rows_apply V c t p kk _ ?_ rfl) (weights_apply V c t kk q _ rfl ?_)
  · show win0_2.index t (0 : Fin 2) * 10000 + 1 * p.val = win0_2.index t (0 : Fin 2) * 10000 + p.val
    omega
  · show win0_2.index t (1 : Fin 2) * 64 + 1 * q.val = q.val
    rw [e4]; omega

/-- An index of the result is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- Row r of the result lies in the block of the point whose block index is r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the result array is every row of the array the region found times the weight matrix it found. -/
theorem final (c : Dev nD) : (dat0 V c).arrAt 2 cfg0.N
    = Spec.dense (R := 100000) (K := 128) (M := 64) (V c main_arg0) (V c main_arg4) :=
  (dat0 V c).arrAt_eq_of_cover 2 _ (fun t _ => flushed_eq V c t) (cover)

end Cert.KernelIdeal.Region0

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«120379_j40956808135036_1_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibBiasRows.lean ====
/-
  General lemmas for kernel bodies that work on a tile of rows with a bias row, read at an entry over the extended reals
  (the whole-array functions they are stated against are LibLayers.lean's).

  * `biasRow_apply`: a [b] vector recast as one row and repeated down the rows reads, at (p, q), the vector at q.
  * `biasRelu_apply` / `biasReluRes_apply`: tile plus bias row, cut at zero (and another tile added back), at (p, q).
  * `rowMaxCol_apply`: a tile's maximum along its last axis from −∞, kept as a column and repeated along the rows, reads at
    (p, q) the fold of max over row p.
  * `logSoftmaxRows_apply`: bias, row maximum taken off, exp, row sum, log, taken off — the row-wise log-softmax of the biased
    tile at (p, q).
-/
import Idealize.ShloMosaic.Lib.ValueIdx
import Idealize.ShloMosaic.Lib.ValueLayout
import Idealize.ShloMosaic.Lib.Pipeline.Value
import Idealize.ShloMosaic.PureOps.Ideal.Laws
import proofs.«120379_j40956808135036_1_alg».proof.Proof.LibLayers
import proofs.«120379_j40956808135036_1_alg».proof.Proof.LibColumns

noncomputable section

open scoped BigOperators

namespace Cert.BiasRows

open Idealize.ShloMosaic Idealize.ShloMosaic.ValueIdx

variable {a b : ℕ}

/-- A [b] vector recast as one row and repeated down the rows reads, at (p, q), the vector at q. -/
theorem biasRow_apply (v : FVec Ideal ⟨1, ![b]⟩ .f32) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The tile (recast to its own shape) plus the bias row, at (p, q). -/
theorem biased_apply (x : FVec Ideal ⟨2, ![a, b]⟩ .f32) (v : FVec Ideal ⟨1, ![b]⟩ .f32) (hs : (⟨2, ![a, b]⟩ : Shape).ShapeCasts ⟨2, ![a, b]⟩)
    (hc : (⟨1, ![b]⟩ : Shape).ShapeCasts ⟨2, ![1, b]⟩) (hb : (⟨2, ![1, b]⟩ : Shape).Broadcasts ⟨2, ![a, b]⟩) (p : Fin a) (q : Fin b) :
    addf (shapeCast ⟨2, ![a, b]⟩ x hs) (broadcastTo ⟨2, ![a, b]⟩ (shapeCast ⟨2, ![1, b]⟩ v hc) hb) (ix2 p q) = Spec.biased x v (ix2 p q) :=
  congrArg₂ (· + ·) (congrFun (shapeCast_self x hs) _) (biasRow_apply v hc hb p q)

/-- Tile plus bias row, cut at zero, at (p, q). -/
theorem biasRelu_apply (x : FVec Ideal ⟨2, ![a, b]⟩ .f32) (v : FVec Ideal ⟨1, ![b]⟩ .f32) (hs : (⟨2, ![a, b]⟩ : Shape).ShapeCasts ⟨2, ![a, b]⟩)
    (hc : (⟨1, ![b]⟩ : Shape).ShapeCasts ⟨2, ![1, b]⟩) (hb : (⟨2, ![1, b]⟩ : Shape).Broadcasts ⟨2, ![a, b]⟩) (p : Fin a) (q : Fin b) :
    maximumf (addf (shapeCast ⟨2, ![a, b]⟩ x hs) (broadcastTo ⟨2, ![a, b]⟩ (shapeCast ⟨2, ![1, b]⟩ v hc) hb))
        (broadcast ⟨2, ![a, b]⟩ (Scalar.ofBits (F := Ideal) .f32 0x00000000#32)) (ix2 p q)
      = Spec.biasRelu x v (ix2 p q) :=
  congrArg₂ max (biased_apply x v hs hc hb p q) rfl

/-- Tile plus bias row, cut at zero, plus another tile (recast to its own shape), at (p, q). -/
theorem biasReluRes_apply (x r : FVec Ideal ⟨2, ![a, b]⟩ .f32) (v : FVec Ideal ⟨1, ![b]⟩ .f32) (hs : (⟨2, ![a, b]⟩ : Shape).ShapeCasts ⟨2, ![a, b]⟩)
    (hc : (⟨1, ![b]⟩ : Shape).ShapeCasts ⟨2, ![1, b]⟩) (hb : (⟨2, ![1, b]⟩ : Shape).Broadcasts ⟨2, ![a, b]⟩) (p : Fin a) (q : Fin b) :
    addf (maximumf (addf (shapeCast ⟨2, ![a, b]⟩ x hs) (broadcastTo ⟨2, ![a, b]⟩ (shapeCast ⟨2, ![1, b]⟩ v hc) hb))
        (broadcast ⟨2, ![a, b]⟩ (Scalar.ofBits (F := Ideal) .f32 0x00000000#32))) (shapeCast ⟨2, ![a, b]⟩ r hs) (ix2 p q)
      = Spec.biasReluRes x v r (ix2 p q) :=
  congrArg₂ (· + ·) (biasRelu_apply x v hs hc hb p q) (congrFun (shapeCast_self r hs) _)

/-- A tile's maximum along its last axis from −∞, at p: the fold of max over row p. -/
theorem rowMax_apply (z : FVec Ideal ⟨2, ![a, b]⟩ .f32) (hr : (⟨2, ![a, b]⟩ : Shape).Reduces [1] ⟨1, ![a]⟩) (hφ : FKind.Formats .f32)
    (hmax : (0xFF800000#32 : BitVec FTy.f32.bits) = FKind.maximumf.neutral .f32 hφ) (p : Fin a) :
    multiReduction .maximumf [1] ⟨1, ![a]⟩ z 0xFF800000#32 hr hφ hmax (ix1 p) = Spec.rowMax z p := by
  refine (Ideal.multiReduction_maximumf_single z _ hr hφ hmax (ix1 p)).trans ?_
  unfold Spec.rowMax
  refine congrArg (Finset.fold max (Ideal.ofBits .f32 0xFF800000#32) · Finset.univ) (funext fun k => ?_)
  refine congrArg z (funext fun c => Fin.ext ?_)
  rw [hr.lift_val]
  match c with
  | ⟨0, _⟩ => rfl
  | ⟨1, _⟩ => rfl

/-- That maximum kept as a column and repeated along the rows, at (p, q). -/
theorem rowMaxCol_apply (z : FVec Ideal ⟨2, ![a, b]⟩ .f32) (hr : (⟨2, ![a, b]⟩ : Shape).Reduces [1] ⟨1, ![a]⟩) (hφ : FKind.Formats .f32)
    (hmax : (0xFF800000#32 : BitVec FTy.f32.bits) = FKind.maximumf.neutral .f32 hφ)
    (hcol : (⟨1, ![a]⟩ : Shape).ShapeCasts ⟨2, ![a, 1]⟩) (hbc : (⟨2, ![a, 1]⟩ : Shape).Broadcasts ⟨2, ![a, b]⟩) (p : Fin a) (q : Fin b) :
    broadcastTo ⟨2, ![a, b]⟩ (shapeCast ⟨2, ![a, 1]⟩ (multiReduction .maximumf [1] ⟨1, ![a]⟩ z 0xFF800000#32 hr hφ hmax) hcol) hbc (ix2 p q)
      = Spec.rowMax z p :=
  ((Cert.Columns.broadcastTo_a1_ab_apply _ hbc p q).trans (Cert.DenseRows.shapeCast_a_a1_apply _ hcol p 0)).trans (rowMax_apply z hr hφ hmax p)

/-- Bias, the row's maximum taken off, exp, the row's sum, log, taken off: the row-wise log-softmax of the biased tile. -/
theorem logSoftmaxRows_apply (x : FVec Ideal ⟨2, ![a, b]⟩ .f32) (v : FVec Ideal ⟨1, ![b]⟩ .f32) (hs : (⟨2, ![a, b]⟩ : Shape).ShapeCasts ⟨2, ![a, b]⟩)
    (hc : (⟨1, ![b]⟩ : Shape).ShapeCasts ⟨2, ![1, b]⟩) (hb : (⟨2, ![1, b]⟩ : Shape).Broadcasts ⟨2, ![a, b]⟩)
    (hr : (⟨2, ![a, b]⟩ : Shape).Reduces [1] ⟨1, ![a]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hcol : (⟨1, ![a]⟩ : Shape).ShapeCasts ⟨2, ![a, 1]⟩) (hbc : (⟨2, ![a, 1]⟩ : Shape).Broadcasts ⟨2, ![a, b]⟩) (p : Fin a) (q : Fin b) :
    subf (subf (addf (shapeCast ⟨2, ![a, b]⟩ x hs) (broadcastTo ⟨2, ![a, b]⟩ (shapeCast ⟨2, ![1, b]⟩ v hc) hb))
          (broadcastTo ⟨2, ![a, b]⟩ (shapeCast ⟨2, ![a, 1]⟩ (multiReduction .maximumf [1] ⟨1, ![a]⟩
            (addf (shapeCast ⟨2, ![a, b]⟩ x hs) (broadcastTo ⟨2, ![a, b]⟩ (shapeCast ⟨2, ![1, b]⟩ v hc) hb)) 0xFF800000#32 hr hφ hmax) hcol) hbc))
        (broadcastTo ⟨2, ![a, b]⟩ (log (shapeCast ⟨2, ![a, 1]⟩ (multiReduction .add [1] ⟨1, ![a]⟩
          (exp (subf (addf (shapeCast ⟨2, ![a, b]⟩ x hs) (broadcastTo ⟨2, ![a, b]⟩ (shapeCast ⟨2, ![1, b]⟩ v hc) hb))
            (broadcastTo ⟨2, ![a, b]⟩ (shapeCast ⟨2, ![a, 1]⟩ (multiReduction .maximumf [1] ⟨1, ![a]⟩
              (addf (shapeCast ⟨2, ![a, b]⟩ x hs) (broadcastTo ⟨2, ![a, b]⟩ (shapeCast ⟨2, ![1, b]⟩ v hc) hb)) 0xFF800000#32 hr hφ hmax) hcol) hbc)))
          0x00000000#32 hr hφ hadd) hcol)) hbc) (ix2 p q)
      = Spec.biasLogSoftmax x v (ix2 p q) := by
  have hz : addf (shapeCast ⟨2, ![a, b]⟩ x hs) (broadcastTo ⟨2, ![a, b]⟩ (shapeCast ⟨2, ![1, b]⟩ v hc) hb) = Spec.biased x v :=
    funext fun j => by rw [eq_ix2 j]; exact biased_apply x v hs hc hb (j 0) (j 1)
  rw [hz]
  have hcen : subf (Spec.biased x v) (broadcastTo ⟨2, ![a, b]⟩ (shapeCast ⟨2, ![a, 1]⟩ (multiReduction .maximumf [1] ⟨1, ![a]⟩
      (Spec.biased x v) 0xFF800000#32 hr hφ hmax) hcol) hbc) = Spec.centred (Spec.biased x v) :=
    funext fun j => by
      rw [eq_ix2 j]
      exact congrArg (Spec.biased x v (ix2 (j 0) (j 1)) - ·) (rowMaxCol_apply (Spec.biased x v) hr hφ hmax hcol hbc (j 0) (j 1))
  rw [hcen]
  unfold Spec.biasLogSoftmax
  refine congrArg (Spec.centred (Spec.biased x v) (ix2 p q) - ·) ?_
  refine (Cert.Columns.broadcastTo_a1_ab_apply _ hbc p q).trans ?_
  show Ideal.log (shapeCast ⟨2, ![a, 1]⟩ (multiReduction .add [1] ⟨1, ![a]⟩ (exp (Spec.centred (Spec.biased x v))) 0x00000000#32 hr hφ hadd) hcol (ix2 p (0 : Fin 1))) = _
  refine congrArg Ideal.log ?_
  exact Cert.Columns.keepdimsSum_apply _ _ hr hφ hadd hcol p 0

end Cert.BiasRows

end
-- ==== Proof.Region1.lean ====
/-
  Kernel region 1: bias added, cut at zero, one tile of 10000 rows per grid point.

  Point t loads rows 10000·t … 10000·t + 9999 of the [100000, 64] array and the whole [64] bias, and writes the result
  back as rows 10000·t … of the output. An entry of the written tile depends on the same entry of the loaded tile and on the bias at its column, so each written block is the block of ONE whole-array function, and the ten
  blocks cover the output: after the region the output array is that function of the arrays the region found.
-/
import proofs.«120379_j40956808135036_1_alg».proof.Proof.Patched.KernelIdeal.Frame
import proofs.«120379_j40956808135036_1_alg».proof.Proof.LibLayers
import proofs.«120379_j40956808135036_1_alg».proof.Proof.LibBiasRows
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The index maps over the grid: the row tiles move with the output's block, the bias stays put. -/
theorem idx_facts : ∀ t : Fin cfg1.N, win1_0.index t (0 : Fin 2) = win1_2.index t (0 : Fin 2) ∧ win1_0.index t (1 : Fin 2) = 0 ∧ win1_1.index t (0 : Fin 1) = 0
    ∧ win1_2.index t (1 : Fin 2) = 0 ∧ win1_2.index t (0 : Fin 2) ≤ 9 :=
  (by decide +kernel : ∀ t : Fin grid1.N, _)

/-- Every one of the ten row blocks is some point's. -/
theorem idx_onto : ∀ q : Fin 10, ∃ t : Fin cfg1.N, win1_2.index t = ![q.val, 0] :=
  (by decide +kernel : ∀ q : Fin 10, ∃ t : Fin grid1.N, win1_2.index t = ![q.val, 0])

/-- The body's arithmetic at an entry. -/
theorem pay_apply (v : FVec Ideal S64 .f32) (x : FVec Ideal S10000x64 .f32) (p : Fin 10000) (q : Fin 64) :
    k1_pay1 v x (ix2 p q) = Spec.biasRelu x v (ix2 p q) := by
  unfold k1_pay1
  exact BiasRows.biasRelu_apply x v _ _ _ p q

/-- Row p of point t's tile is row 10000·(block index) + p of the array. -/
theorem rows_apply (c : Dev nD) (t : Fin cfg1.N) (p : Fin 10000) (q : Fin 64) (i : S100000x64.Idx)
    (h0 : (i 0).val = win1_2.index t (0 : Fin 2) * 10000 + p.val) (h1 : (i 1).val = q.val) :
    (iblk1 V c 0 t : Vec Ideal S10000x64 .f32) (ix2 p q) = V c main_v13 i := by
  obtain ⟨e0, e1, -, -, -⟩ := idx_facts t
  unfold iblk1
  rw [View.read_apply]
  show V c main_v13 _ = V c main_v13 _
  congr 1
  funext a; apply Fin.ext
  match a with
  | ⟨0, _⟩ => show win1_0.index t (0 : Fin 2) * 10000 + 1 * p.val = (i 0).val; rw [e0, h0]; omega
  | ⟨1, _⟩ => show win1_0.index t (1 : Fin 2) * 64 + 1 * q.val = (i 1).val; rw [e1, h1]; omega

/-- Every point's bias block is the whole bias. -/
theorem bias_apply (c : Dev nD) (t : Fin cfg1.N) (q : Fin 64) :
    (iblk1 V c 1 t : Vec Ideal S64 .f32) (ix1 q) = V c main_arg5 (ix1 q) := by
  obtain ⟨-, -, e2, -, -⟩ := idx_facts t
  unfold iblk1
  rw [View.read_apply]
  show V c main_arg5 _ = V c main_arg5 _
  congr 1
  funext a; apply Fin.ext
  match a with
  | ⟨0, _⟩ => show win1_1.index t (0 : Fin 1) * 64 + 1 * q.val = q.val; rw [e2]; omega

/-- What point t writes back is block t of the whole-array function of the arrays the region found. -/
theorem flushed_eq (c : Dev nD) (t : Fin cfg1.N) :
    (dat1 V c).flushed 2 t = ((cfg1.win 2).blk t).view.read (Elt Ideal)
      (Spec.biasRelu (R := 100000) (M := 64) (V c main_v13) (V c main_arg5)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64) hz1]
  funext j
  obtain ⟨p, q, rfl⟩ : ∃ (p : Fin 10000) (q : Fin 64), j = ix2 p q := ⟨j 0, j 1, eq_ix2 j⟩
  refine (pay_apply (iblk1 V c 1 t) (iblk1 V c 0 t) p q).trans ?_
  obtain ⟨-, -, -, e3, -⟩ := idx_facts t
  rw [View.read_apply]
  unfold Spec.biasRelu Spec.biased
  refine congrArg₂ max (congrArg₂ (· + ·) (rows_apply V c t p q _ ?_ ?_) ((bias_apply V c t q).trans (congrArg (V c main_arg5) ?_))) rfl
  · show win1_2.index t (0 : Fin 2) * 10000 + 1 * p.val = win1_2.index t (0 : Fin 2) * 10000 + p.val
    omega
  · show win1_2.index t (1 : Fin 2) * 64 + 1 * q.val = q.val
    rw [e3]; omega
  · funext a; apply Fin.ext
    match a with
    | ⟨0, _⟩ => show q.val = win1_2.index t (1 : Fin 2) * 64 + 1 * q.val; rw [e3]; omega

/-- An index of the output is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v14).slice (win1_2.rect t)).set ↔ _
  rw [View.set_slice_whole, Rect.mem_set_unit]
  exact Iff.rfl

/-- Row r of the output lies in the block of the point whose block index is r / 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region the output array is the whole-array function of the arrays the region found. -/
theorem final (c : Dev nD) : (dat1 V c).arrAt 2 cfg1.N
    = Spec.biasRelu (R := 100000) (M := 64) (V c main_v13) (V c main_arg5) :=
  (dat1 V c).arrAt_eq_of_cover 2 _ (fun t _ => flushed_eq V c t) (cover)

end Cert.KernelIdeal.Region1

end
-- ==== Proof.Region2.lean ====
/-
  Kernel region 2: rows times a weight matrix, one tile of 10000 rows per grid point.

  Point t loads rows 10000·t … 10000·t + 9999 of the [100000, 64] array and the whole [64, 64] weight matrix, multiplies them on
  the matrix unit into a zero accumulator, and writes the [10000, 64] product back as rows 10000·t … of the result. An entry
  of a tile's product is the plain sum over k of row entry times weight entry, and row p of tile t is row 10000·t + p of the
  array, so each written block is the block of ONE whole-array function — every row times the matrix — and the ten blocks
  cover the result: after the region the result array is that function of the arrays the region found.
-/
import proofs.«120379_j40956808135036_1_alg».proof.Proof.Patched.KernelIdeal.Frame
import proofs.«120379_j40956808135036_1_alg».proof.Proof.LibLayers
import proofs.«120379_j40956808135036_1_alg».proof.Proof.TileDots
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: the row tile moves with the result's block, the weight matrix stays put. -/
theorem idx_facts : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 :=
  (by decide +kernel : ∀ t : Fin grid2.N, _)

/-- Every one of the ten row blocks is some point's. -/
theorem idx_onto : ∀ q : Fin 10, ∃ t : Fin cfg2.N, win2_2.index t = ![q.val, 0] :=
  (by decide +kernel : ∀ q : Fin 10, ∃ t : Fin grid2.N, win2_2.index t = ![q.val, 0])

/-- The body's arithmetic at an entry: the sum over k of tile (p, k) times weight (k, q); the roundings on the way into the
    matrix unit change nothing over the extended reals. -/
theorem pay_apply (x : Vec Ideal S10000x64 .f32) (w : Vec Ideal S64x64 .f32) (p : Fin 10000) (q : Fin 64) :
    k2_pay1 x w (ix2 p q) = ∑ kk : Fin 64, x (ix2 p kk) * w (ix2 kk q) := by
  unfold k2_pay1
  refine (Tile.tileB_apply (truncf .bf16 (shapeCast S10000x64 x shapeCasts_S10000x64_S10000x64) bitsLt_bf16_f32) (truncf .bf16 w bitsLt_bf16_f32) p q).trans ?_
  refine Finset.sum_congr rfl fun kk _ => ?_
  rw [truncf_apply, truncf_apply, shapeCast_self]

/-- Row p of point t's tile is row 10000·(block index) + p of the array. -/
theorem rows_apply (c : Dev nD) (t : Fin cfg2.N) (p : Fin 10000) (kk : Fin 64) (i : S100000x64.Idx)
    (h0 : (i 0).val = win2_2.index t (0 : Fin 2) * 10000 + p.val) (h1 : (i 1).val = kk.val) :
    (iblk2 V c 0 t : Vec Ideal S10000x64 .f32) (ix2 p kk) = V c main_v14 i := by
  obtain ⟨e0, e1, -, -, -⟩ := idx_facts t
  unfold iblk2
  rw [View.read_apply]
  show V c main_v14 _ = V c main_v14 _
  congr 1
  funext a; apply Fin.ext
  match a with
  | ⟨0, _⟩ => show win2_0.index t (0 : Fin 2) * 10000 + 1 * p.val = (i 0).val; rw [e0, h0]; omega
  | ⟨1, _⟩ => show win2_0.index t (1 : Fin 2) * 64 + 1 * kk.val = (i 1).val; rw [e1, h1]; omega

/-- Every point's weight block is the whole weight matrix. -/
theorem weights_apply (c : Dev nD) (t : Fin cfg2.N) (kk : Fin 64) (q : Fin 64) (i : S64x64.Idx)
    (h0 : (i 0).val = kk.val) (h1 : (i 1).val = q.val) :
    (iblk2 V c 1 t : Vec Ideal S64x64 .f32) (ix2 kk q) = V c main_arg6 i := by
  obtain ⟨-, -, e2, e3, -⟩ := idx_facts t
  unfold iblk2
  rw [View.read_apply]
  show V c main_arg6 _ = V c main_arg6 _
  congr 1
  funext a; apply Fin.ext
  match a with
  | ⟨0, _⟩ => show win2_1.index t (0 : Fin 2) * 64 + 1 * kk.val = (i 0).val; rw [e2, h0]; omega
  | ⟨1, _⟩ => show win2_1.index t (1 : Fin 2) * 64 + 1 * q.val = (i 1).val; rw [e3, h1]; omega

/-- What point t writes back is block t of every row of the array times the weight matrix. -/
theorem flushed_eq (c : Dev nD) (t : Fin cfg2.N) :
    (dat2 V c).flushed 2 t = ((cfg2.win 2).blk t).view.read (Elt Ideal)
      (Spec.dense (R := 100000) (K := 64) (M := 64) (V c main_v14) (V c main_arg6)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  refine (pay_apply (iblk2 V c 0 t) (iblk2 V c 1 t) p q).trans ?_
  obtain ⟨-, -, -, -, e4⟩ := idx_facts t
  rw [View.read_apply]
  unfold Spec.dense
  refine Finset.sum_congr rfl fun kk _ => ?_
  refine congrArg₂ (· * ·) (rows_apply V c t p kk _ ?_ rfl) (weights_apply V c t kk q _ rfl ?_)
  · show win2_2.index t (0 : Fin 2) * 10000 + 1 * p.val = win2_2.index t (0 : Fin 2) * 10000 + p.val
    omega
  · show win2_2.index t (1 : Fin 2) * 64 + 1 * q.val = q.val
    rw [e4]; omega

/-- An index of the result is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v15).slice (win2_2.rect t)).set ↔ _
  rw [View.set_slice_whole, Rect.mem_set_unit]
  exact Iff.rfl

/-- Row r of the result lies in the block of the point whose block index is r / 10000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region the result array is every row of the array the region found times the weight matrix it found. -/
theorem final (c : Dev nD) : (dat2 V c).arrAt 2 cfg2.N
    = Spec.dense (R := 100000) (K := 64) (M := 64) (V c main_v14) (V c main_arg6) :=
  (dat2 V c).arrAt_eq_of_cover 2 _ (fun t _ => flushed_eq V c t) (cover)

end Cert.KernelIdeal.Region2

end
-- ==== Proof.Region3.lean ====
/-
  Kernel region 3: bias added, cut at zero, the earlier layer's output added back, one tile of 10000 rows per grid point.

  Point t loads rows 10000·t … 10000·t + 9999 of the [100000, 64] array and of the earlier layer's output and the whole [64] bias, and writes the result
  back as rows 10000·t … of the output. An entry of the written tile depends on the same entry of the loaded tiles and on the bias at its column, so each written block is the block of ONE whole-array function, and the ten
  blocks cover the output: after the region the output array is that function of the arrays the region found.
-/
import proofs.«120379_j40956808135036_1_alg».proof.Proof.Patched.KernelIdeal.Frame
import proofs.«120379_j40956808135036_1_alg».proof.Proof.LibLayers
import proofs.«120379_j40956808135036_1_alg».proof.Proof.LibBiasRows
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The index maps over the grid: the row tiles move with the output's block, the bias stays put. -/
theorem idx_facts : ∀ t : Fin cfg3.N, win3_0.index t (0 : Fin 2) = win3_3.index t (0 : Fin 2) ∧ win3_0.index t (1 : Fin 2) = 0 ∧ win3_1.index t (0 : Fin 1) = 0
    ∧ win3_3.index t (1 : Fin 2) = 0 ∧ win3_3.index t (0 : Fin 2) ≤ 9 ∧ win3_2.index t (0 : Fin 2) = win3_3.index t (0 : Fin 2) ∧ win3_2.index t (1 : Fin 2) = 0 :=
  (by decide +kernel : ∀ t : Fin grid3.N, _)

/-- Every one of the ten row blocks is some point's. -/
theorem idx_onto : ∀ q : Fin 10, ∃ t : Fin cfg3.N, win3_3.index t = ![q.val, 0] :=
  (by decide +kernel : ∀ q : Fin 10, ∃ t : Fin grid3.N, win3_3.index t = ![q.val, 0])

/-- The body's arithmetic at an entry. -/
theorem pay_apply (v : FVec Ideal S64 .f32) (x r : FVec Ideal S10000x64 .f32) (p : Fin 10000) (q : Fin 64) :
    k3_pay1 v x r (ix2 p q) = Spec.biasReluRes x v r (ix2 p q) := by
  unfold k3_pay1
  exact BiasRows.biasReluRes_apply x r v _ _ _ p q

/-- Row p of point t's tile is row 10000·(block index) + p of the array. -/
theorem rows_apply (c : Dev nD) (t : Fin cfg3.N) (p : Fin 10000) (q : Fin 64) (i : S100000x64.Idx)
    (h0 : (i 0).val = win3_3.index t (0 : Fin 2) * 10000 + p.val) (h1 : (i 1).val = q.val) :
    (iblk3 V c 0 t : Vec Ideal S10000x64 .f32) (ix2 p q) = V c main_v28 i := by
  obtain ⟨e0, e1, -, -, -, -, -⟩ := idx_facts t
  unfold iblk3
  rw [View.read_apply]
  show V c main_v28 _ = V c main_v28 _
  congr 1
  funext a; apply Fin.ext
  match a with
  | ⟨0, _⟩ => show win3_0.index t (0 : Fin 2) * 10000 + 1 * p.val = (i 0).val; rw [e0, h0]; omega
  | ⟨1, _⟩ => show win3_0.index t (1 : Fin 2) * 64 + 1 * q.val = (i 1).val; rw [e1, h1]; omega

/-- Every point's bias block is the whole bias. -/
theorem bias_apply (c : Dev nD) (t : Fin cfg3.N) (q : Fin 64) :
    (iblk3 V c 1 t : Vec Ideal S64 .f32) (ix1 q) = V c main_arg7 (ix1 q) := by
  obtain ⟨-, -, e2, -, -, -, -⟩ := idx_facts t
  unfold iblk3
  rw [View.read_apply]
  show V c main_arg7 _ = V c main_arg7 _
  congr 1
  funext a; apply Fin.ext
  match a with
  | ⟨0, _⟩ => show win3_1.index t (0 : Fin 1) * 64 + 1 * q.val = q.val; rw [e2]; omega

/-- Row p of point t's tile of the earlier layer's output is row 10000·(block index) + p of that array. -/
theorem res_apply (c : Dev nD) (t : Fin cfg3.N) (p : Fin 10000) (q : Fin 64) (i : S100000x64.Idx)
    (h0 : (i 0).val = win3_3.index t (0 : Fin 2) * 10000 + p.val) (h1 : (i 1).val = q.val) :
    (iblk3 V c 2 t : Vec Ideal S10000x64 .f32) (ix2 p q) = V c main_v14 i := by
  obtain ⟨-, -, -, -, -, e5, e6⟩ := idx_facts t
  unfold iblk3
  rw [View.read_apply]
  show V c main_v14 _ = V c main_v14 _
  congr 1
  funext a; apply Fin.ext
  match a with
  | ⟨0, _⟩ => show win3_2.index t (0 : Fin 2) * 10000 + 1 * p.val = (i 0).val; rw [e5, h0]; omega
  | ⟨1, _⟩ => show win3_2.index t (1 : Fin 2) * 64 + 1 * q.val = (i 1).val; rw [e6, h1]; omega

/-- What point t writes back is block t of the whole-array function of the arrays the region found. -/
theorem flushed_eq (c : Dev nD) (t : Fin cfg3.N) :
    (dat3 V c).flushed 3 t = ((cfg3.win 3).blk t).view.read (Elt Ideal)
      (Spec.biasReluRes (R := 100000) (M := 64) (V c main_v28) (V c main_arg7) (V c main_v14)) := by
  show (cfg3.win 3).cut (grid3.coords t) ((dat3 V c).after 3 t) = _
  rw [after3_3]
  unfold out3_3
  rw [View.canon_unit_zero hz]
  simp only [View.ld_unit_zero (S := S10000x64) hz, View.ld_unit_zero (S := S64) hz1]
  funext j
  obtain ⟨p, q, rfl⟩ : ∃ (p : Fin 10000) (q : Fin 64), j = ix2 p q := ⟨j 0, j 1, eq_ix2 j⟩
  refine (pay_apply (iblk3 V c 1 t) (iblk3 V c 0 t) (iblk3 V c 2 t) p q).trans ?_
  obtain ⟨-, -, -, e3, -, -, -⟩ := idx_facts t
  rw [View.read_apply]
  unfold Spec.biasReluRes Spec.biased
  refine congrArg₂ (· + ·) (congrArg₂ max (congrArg₂ (· + ·) (rows_apply V c t p q _ ?_ ?_) ((bias_apply V c t q).trans (congrArg (V c main_arg7) ?_))) rfl) (res_apply V c t p q _ ?_ ?_)
  · show win3_3.index t (0 : Fin 2) * 10000 + 1 * p.val = win3_3.index t (0 : Fin 2) * 10000 + p.val
    omega
  · show win3_3.index t (1 : Fin 2) * 64 + 1 * q.val = q.val
    rw [e3]; omega
  · funext a; apply Fin.ext
    match a with
    | ⟨0, _⟩ => show q.val = win3_3.index t (1 : Fin 2) * 64 + 1 * q.val; rw [e3]; omega
  · show win3_3.index t (0 : Fin 2) * 10000 + 1 * p.val = win3_3.index t (0 : Fin 2) * 10000 + p.val
    omega
  · show win3_3.index t (1 : Fin 2) * 64 + 1 * q.val = q.val
    rw [e3]; omega

/-- An index of the output is in point t's block iff each coordinate is in the block's range on its axis. -/
theorem mem_blk (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v29).slice (win3_3.rect t)).set ↔ _
  rw [View.set_slice_whole, Rect.mem_set_unit]
  exact Iff.rfl

/-- Row r of the output lies in the block of the point whose block index is r / 10000. -/
theorem cover (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := idx_onto ⟨(i 0).val / 10000, by omega⟩
  have q0 : win3_3.index t (0 : Fin 2) = (i 0).val / 10000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- After the region the output array is the whole-array function of the arrays the region found. -/
theorem final (c : Dev nD) : (dat3 V c).arrAt 3 cfg3.N
    = Spec.biasReluRes (R := 100000) (M := 64) (V c main_v28) (V c main_arg7) (V c main_v14) :=
  (dat3 V c).arrAt_eq_of_cover 3 _ (fun t _ => flushed_eq V c t) (cover)

end Cert.KernelIdeal.Region3

end
-- ==== Proof.Region4.lean ====
/-
  Kernel region 4: rows times a weight matrix, one tile of 10000 rows per grid point.

  Point t loads rows 10000·t … 10000·t + 9999 of the [100000, 64] array and the whole [64, 64] weight matrix, multiplies them on
  the matrix unit into a zero accumulator, and writes the [10000, 64] product back as rows 10000·t … of the result. An entry
  of a tile's product is the plain sum over k of row entry times weight entry, and row p of tile t is row 10000·t + p of the
  array, so each written block is the block of ONE whole-array function — every row times the matrix — and the ten blocks
  cover the result: after the region the result array is that function of the arrays the region found.
-/
import proofs.«120379_j40956808135036_1_alg».proof.Proof.Patched.KernelIdeal.Frame
import proofs.«120379_j40956808135036_1_alg».proof.Proof.LibLayers
import proofs.«120379_j40956808135036_1_alg».proof.Proof.TileDots
import Idealize.ShloMosaic.Lib.Pipeline.Value
import Idealize.ShloMosaic.Lib.ValueIdx

set_option maxRecDepth 16384

noncomputable section

open scoped BigOperators

namespace Cert.KernelIdeal.Region4

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: the row tile moves with the result's block, the weight matrix stays put. -/
theorem idx_facts : ∀ t : Fin cfg4.N, win4_0.index t (0 : Fin 2) = win4_2.index t (0 : Fin 2) ∧ win4_0.index t (1 : Fin 2) = 0
    ∧ win4_1.index t (0 : Fin 2) = 0 ∧ win4_1.index t (1 : Fin 2) = 0 ∧ win4_2.index t (1 : Fin 2) = 0 :=
  (by decide +kernel : ∀ t : Fin grid4.N, _)

/-- Every one of the ten row blocks is some point's. -/
theorem idx_onto : ∀ q : Fin 10, ∃ t : Fin cfg4.N, win4_2.index t = ![q.val, 0] :=
  (by decide +kernel : ∀ q : Fin 10, ∃ t : Fin grid4.N, win4_2.index t = ![q.val, 0])

/-- The body's arithmetic at an entry: the sum over k of tile (p, k) times weight (k, q); the roundings on the way into the
    matrix unit change nothing over the extended reals. -/
theorem pay_apply (x : Vec Ideal S10000x64 .f32) (w : Vec Ideal S64x64 .f32) (p : Fin 10000) (q : Fin 64) :
    k4_pay1 x w (ix2 p q) = ∑ kk : Fin 64, x (ix2 p kk) * w (ix2 kk q) := by
  unfold k4_pay1
  refine (Tile.tileB_apply (truncf .bf16 (shapeCast S10000x64 x shapeCasts_S10000x64_S10000x64) bitsLt_bf16_f32) (truncf .bf16 w bitsLt_bf16_f32) p q).trans ?_
  refine Finset.sum_congr rfl fun kk _ => ?_
  rw [truncf_apply, truncf_apply, shapeCast_self]

/-- Row p of point t's tile is row 10000·(block index) + p of the array. -/
theorem rows_apply (c : Dev nD) (t : Fin cfg4.N) (p : Fin 10000) (kk : Fin 64) (i : S100000x64.Idx)
    (h0 : (i 0).val = win4_2.index t (0 : Fin 2) * 10000 + p.val) (h1 : (i 1).val = kk.val) :
    (iblk4 V c 0 t : Vec Ideal S10000x64 .f32) (ix2 p kk) = V c main_v29 i := by
  obtain ⟨e0, e1, -, -, -⟩ := idx_facts t
  unfold iblk4
  rw [View.read_apply]
  show V c main_v29 _ = V c main_v29 _
  congr 1
  funext a; apply Fin.ext
  match a with
  | ⟨0, _⟩ => show win4_0.index t (0 : Fin 2) * 10000 + 1 * p.val = (i 0).val; rw [e0, h0]; omega
  | ⟨1, _⟩ => show win4_0.index t (1 : Fin 2) * 64 + 1 * kk.val = (i 1).val; rw [e1, h1]; omega

/-- Every point's weight block is the whole weight matrix. -/
theorem weights_apply (c : Dev nD) (t : Fin cfg4.N) (kk : Fin 64) (q : Fin 64) (i : S64x64.Idx)
    (h0 : (i 0).val = kk.val) (h1 : (i 1).val = q.val) :
    (iblk4 V c 1 t : Vec Ideal S64x64 .f32) (ix2 kk q) = V c main_arg8 i := by
  obtain ⟨-, -, e2, e3, -⟩ := idx_facts t
  unfold iblk4
  rw [View.read_apply]
  show V c main_arg8 _ = V c main_arg8 _
  congr 1
  funext a; apply Fin.ext
  match a with
  | ⟨0, _⟩ => show win4_1.index t (0 : Fin 2) * 64 + 1 * kk.val = (i 0).val; rw [e2, h0]; omega
  | ⟨1, _⟩ => show win4_1.index t (1 : Fin 2) * 64 + 1 * q.val = (i 1).val; rw [e3, h1]; omega

/-- What point t writes back is block t of every row of the array times the weight matrix. -/
theorem flushed_eq (c : Dev nD) (t : Fin cfg4.N) :
    (dat4 V c).flushed 2 t = ((cfg4.win 2).blk t).view.read (Elt Ideal)
      (Spec.dense (R := 100000) (K := 64) (M := 64) (V c main_v29) (V c main_arg8)) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  refine (pay_apply (iblk4 V c 0 t) (iblk4 V c 1 t) p q).trans ?_
  obtain ⟨-, -, -, -, e4⟩ := idx_facts t
  rw [View.read_apply]
  unfold Spec.dense
  refine Finset.sum_congr rfl fun kk _ => ?_
  refine congrArg₂ (· * ·) (rows_apply V c t p kk _ ?_ rfl) (weights_apply V c t kk q _ rfl ?_)
  · show win4_2.index t (0 : Fin 2) * 10000 + 1 * p.val = win4_2.index t (0 : Fin 2) * 10000 + p.val
    omega
  · show win4_2.index t (1 : Fin 2) * 64 + 1 * q.val = q.val
    rw [e4]; omega

/-- An index of the result is in point t's block iff each coordinate is in the block's range on its axis. -/
theorem mem_blk (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v30).slice (win4_2.rect t)).set ↔ _
  rw [View.set_slice_whole, Rect.mem_set_unit]
  exact Iff.rfl

/-- Row r of the result lies in the block of the point whose block index is r / 10000. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- After the region the result array is every row of the array the region found times the weight matrix it found. -/
theorem final (c : Dev nD) : (dat4 V c).arrAt 2 cfg4.N
    = Spec.dense (R := 100000) (K := 64) (M := 64) (V c main_v29) (V c main_arg8) :=
  (dat4 V c).arrAt_eq_of_cover 2 _ (fun t _ => flushed_eq V c t) (cover)

end Cert.KernelIdeal.Region4

end
-- ==== Proof.Region5.lean ====
/-
  Kernel region 5: bias added, cut at zero, the earlier layer's output added back, one tile of 10000 rows per grid point.

  Point t loads rows 10000·t … 10000·t + 9999 of the [100000, 64] array and of the earlier layer's output and the whole [64] bias, and writes the result
  back as rows 10000·t … of the output. An entry of the written tile depends on the same entry of the loaded tiles and on the bias at its column, so each written block is the block of ONE whole-array function, and the ten
  blocks cover the output: after the region the output array is that function of the arrays the region found.
-/
import proofs.«120379_j40956808135036_1_alg».proof.Proof.Patched.KernelIdeal.Frame
import proofs.«120379_j40956808135036_1_alg».proof.Proof.LibLayers
import proofs.«120379_j40956808135036_1_alg».proof.Proof.LibBiasRows
import Idealize.ShloMosaic.Lib.Pipeline.Value
import Idealize.ShloMosaic.Lib.ValueIdx

set_option maxRecDepth 16384

noncomputable section

open scoped BigOperators

namespace Cert.KernelIdeal.Region5

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The index maps over the grid: the row tiles move with the output's block, the bias stays put. -/
theorem idx_facts : ∀ t : Fin cfg5.N, win5_0.index t (0 : Fin 2) = win5_3.index t (0 : Fin 2) ∧ win5_0.index t (1 : Fin 2) = 0 ∧ win5_1.index t (0 : Fin 1) = 0
    ∧ win5_3.index t (1 : Fin 2) = 0 ∧ win5_3.index t (0 : Fin 2) ≤ 9 ∧ win5_2.index t (0 : Fin 2) = win5_3.index t (0 : Fin 2) ∧ win5_2.index t (1 : Fin 2) = 0 :=
  (by decide +kernel : ∀ t : Fin grid5.N, _)

/-- Every one of the ten row blocks is some point's. -/
theorem idx_onto : ∀ q : Fin 10, ∃ t : Fin cfg5.N, win5_3.index t = ![q.val, 0] :=
  (by decide +kernel : ∀ q : Fin 10, ∃ t : Fin grid5.N, win5_3.index t = ![q.val, 0])

/-- The body's arithmetic at an entry. -/
theorem pay_apply (v : FVec Ideal S64 .f32) (x r : FVec Ideal S10000x64 .f32) (p : Fin 10000) (q : Fin 64) :
    k5_pay1 v x r (ix2 p q) = Spec.biasReluRes x v r (ix2 p q) := by
  unfold k5_pay1
  exact BiasRows.biasReluRes_apply x r v _ _ _ p q

/-- Row p of point t's tile is row 10000·(block index) + p of the array. -/
theorem rows_apply (c : Dev nD) (t : Fin cfg5.N) (p : Fin 10000) (q : Fin 64) (i : S100000x64.Idx)
    (h0 : (i 0).val = win5_3.index t (0 : Fin 2) * 10000 + p.val) (h1 : (i 1).val = q.val) :
    (iblk5 V c 0 t : Vec Ideal S10000x64 .f32) (ix2 p q) = V c main_v43 i := by
  obtain ⟨e0, e1, -, -, -, -, -⟩ := idx_facts t
  unfold iblk5
  rw [View.read_apply]
  show V c main_v43 _ = V c main_v43 _
  congr 1
  funext a; apply Fin.ext
  match a with
  | ⟨0, _⟩ => show win5_0.index t (0 : Fin 2) * 10000 + 1 * p.val = (i 0).val; rw [e0, h0]; omega
  | ⟨1, _⟩ => show win5_0.index t (1 : Fin 2) * 64 + 1 * q.val = (i 1).val; rw [e1, h1]; omega

/-- Every point's bias block is the whole bias. -/
theorem bias_apply (c : Dev nD) (t : Fin cfg5.N) (q : Fin 64) :
    (iblk5 V c 1 t : Vec Ideal S64 .f32) (ix1 q) = V c main_arg9 (ix1 q) := by
  obtain ⟨-, -, e2, -, -, -, -⟩ := idx_facts t
  unfold iblk5
  rw [View.read_apply]
  show V c main_arg9 _ = V c main_arg9 _
  congr 1
  funext a; apply Fin.ext
  match a with
  | ⟨0, _⟩ => show win5_1.index t (0 : Fin 1) * 64 + 1 * q.val = q.val; rw [e2]; omega

/-- Row p of point t's tile of the earlier layer's output is row 10000·(block index) + p of that array. -/
theorem res_apply (c : Dev nD) (t : Fin cfg5.N) (p : Fin 10000) (q : Fin 64) (i : S100000x64.Idx)
    (h0 : (i 0).val = win5_3.index t (0 : Fin 2) * 10000 + p.val) (h1 : (i 1).val = q.val) :
    (iblk5 V c 2 t : Vec Ideal S10000x64 .f32) (ix2 p q) = V c main_v29 i := by
  obtain ⟨-, -, -, -, -, e5, e6⟩ := idx_facts t
  unfold iblk5
  rw [View.read_apply]
  show V c main_v29 _ = V c main_v29 _
  congr 1
  funext a; apply Fin.ext
  match a with
  | ⟨0, _⟩ => show win5_2.index t (0 : Fin 2) * 10000 + 1 * p.val = (i 0).val; rw [e5, h0]; omega
  | ⟨1, _⟩ => show win5_2.index t (1 : Fin 2) * 64 + 1 * q.val = (i 1).val; rw [e6, h1]; omega

/-- What point t writes back is block t of the whole-array function of the arrays the region found. -/
theorem flushed_eq (c : Dev nD) (t : Fin cfg5.N) :
    (dat5 V c).flushed 3 t = ((cfg5.win 3).blk t).view.read (Elt Ideal)
      (Spec.biasReluRes (R := 100000) (M := 64) (V c main_v43) (V c main_arg9) (V c main_v29)) := by
  show (cfg5.win 3).cut (grid5.coords t) ((dat5 V c).after 3 t) = _
  rw [after5_3]
  unfold out5_3
  rw [View.canon_unit_zero hz]
  simp only [View.ld_unit_zero (S := S10000x64) hz, View.ld_unit_zero (S := S64) hz1]
  funext j
  obtain ⟨p, q, rfl⟩ : ∃ (p : Fin 10000) (q : Fin 64), j = ix2 p q := ⟨j 0, j 1, eq_ix2 j⟩
  refine (pay_apply (iblk5 V c 1 t) (iblk5 V c 0 t) (iblk5 V c 2 t) p q).trans ?_
  obtain ⟨-, -, -, e3, -, -, -⟩ := idx_facts t
  rw [View.read_apply]
  unfold Spec.biasReluRes Spec.biased
  refine congrArg₂ (· + ·) (congrArg₂ max (congrArg₂ (· + ·) (rows_apply V c t p q _ ?_ ?_) ((bias_apply V c t q).trans (congrArg (V c main_arg9) ?_))) rfl) (res_apply V c t p q _ ?_ ?_)
  · show win5_3.index t (0 : Fin 2) * 10000 + 1 * p.val = win5_3.index t (0 : Fin 2) * 10000 + p.val
    omega
  · show win5_3.index t (1 : Fin 2) * 64 + 1 * q.val = q.val
    rw [e3]; omega
  · funext a; apply Fin.ext
    match a with
    | ⟨0, _⟩ => show q.val = win5_3.index t (1 : Fin 2) * 64 + 1 * q.val; rw [e3]; omega
  · show win5_3.index t (0 : Fin 2) * 10000 + 1 * p.val = win5_3.index t (0 : Fin 2) * 10000 + p.val
    omega
  · show win5_3.index t (1 : Fin 2) * 64 + 1 * q.val = q.val
    rw [e3]; omega

/-- An index of the output is in point t's block iff each coordinate is in the block's range on its axis. -/
theorem mem_blk (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v44).slice (win5_3.rect t)).set ↔ _
  rw [View.set_slice_whole, Rect.mem_set_unit]
  exact Iff.rfl

/-- Row r of the output lies in the block of the point whose block index is r / 10000. -/
theorem cover (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  obtain ⟨t, ht⟩ := idx_onto ⟨(i 0).val / 10000, by omega⟩
  have q0 : win5_3.index t (0 : Fin 2) = (i 0).val / 10000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 64 ≤ (i 1).val ∧ (i 1).val < win5_3.index t (1 : Fin 2) * 64 + 64; omega

/-- After the region the output array is the whole-array function of the arrays the region found. -/
theorem final (c : Dev nD) : (dat5 V c).arrAt 3 cfg5.N
    = Spec.biasReluRes (R := 100000) (M := 64) (V c main_v43) (V c main_arg9) (V c main_v29) :=
  (dat5 V c).arrAt_eq_of_cover 3 _ (fun t _ => flushed_eq V c t) (cover)

end Cert.KernelIdeal.Region5

end
-- ==== Proof.Region6.lean ====
/-
  Kernel region 6: rows times a weight matrix, one tile of 10000 rows per grid point.

  Point t loads rows 10000·t … 10000·t + 9999 of the [100000, 64] array and the whole [64, 40] weight matrix, multiplies them on
  the matrix unit into a zero accumulator, and writes the [10000, 40] product back as rows 10000·t … of the result. An entry
  of a tile's product is the plain sum over k of row entry times weight entry, and row p of tile t is row 10000·t + p of the
  array, so each written block is the block of ONE whole-array function — every row times the matrix — and the ten blocks
  cover the result: after the region the result array is that function of the arrays the region found.
-/
import proofs.«120379_j40956808135036_1_alg».proof.Proof.Patched.KernelIdeal.Frame
import proofs.«120379_j40956808135036_1_alg».proof.Proof.LibLayers
import proofs.«120379_j40956808135036_1_alg».proof.Proof.TileDots
import Idealize.ShloMosaic.Lib.Pipeline.Value
import Idealize.ShloMosaic.Lib.ValueIdx

set_option maxRecDepth 16384

noncomputable section

open scoped BigOperators

namespace Cert.KernelIdeal.Region6

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: the row tile moves with the result's block, the weight matrix stays put. -/
theorem idx_facts : ∀ t : Fin cfg6.N, win6_0.index t (0 : Fin 2) = win6_2.index t (0 : Fin 2) ∧ win6_0.index t (1 : Fin 2) = 0
    ∧ win6_1.index t (0 : Fin 2) = 0 ∧ win6_1.index t (1 : Fin 2) = 0 ∧ win6_2.index t (1 : Fin 2) = 0 :=
  (by decide +kernel : ∀ t : Fin grid6.N, _)

/-- Every one of the ten row blocks is some point's. -/
theorem idx_onto : ∀ q : Fin 10, ∃ t : Fin cfg6.N, win6_2.index t = ![q.val, 0] :=
  (by decide +kernel : ∀ q : Fin 10, ∃ t : Fin grid6.N, win6_2.index t = ![q.val, 0])

/-- The body's arithmetic at an entry: the sum over k of tile (p, k) times weight (k, q); the roundings on the way into the
    matrix unit change nothing over the extended reals. -/
theorem pay_apply (x : Vec Ideal S10000x64 .f32) (w : Vec Ideal S64x40 .f32) (p : Fin 10000) (q : Fin 40) :
    k6_pay1 x w (ix2 p q) = ∑ kk : Fin 64, x (ix2 p kk) * w (ix2 kk q) := by
  unfold k6_pay1
  refine (Tile.tileC_apply (truncf .bf16 (shapeCast S10000x64 x shapeCasts_S10000x64_S10000x64) bitsLt_bf16_f32) (truncf .bf16 w bitsLt_bf16_f32) p q).trans ?_
  refine Finset.sum_congr rfl fun kk _ => ?_
  rw [truncf_apply, truncf_apply, shapeCast_self]

/-- Row p of point t's tile is row 10000·(block index) + p of the array. -/
theorem rows_apply (c : Dev nD) (t : Fin cfg6.N) (p : Fin 10000) (kk : Fin 64) (i : S100000x64.Idx)
    (h0 : (i 0).val = win6_2.index t (0 : Fin 2) * 10000 + p.val) (h1 : (i 1).val = kk.val) :
    (iblk6 V c 0 t : Vec Ideal S10000x64 .f32) (ix2 p kk) = V c main_v44 i := by
  obtain ⟨e0, e1, -, -, -⟩ := idx_facts t
  unfold iblk6
  rw [View.read_apply]
  show V c main_v44 _ = V c main_v44 _
  congr 1
  funext a; apply Fin.ext
  match a with
  | ⟨0, _⟩ => show win6_0.index t (0 : Fin 2) * 10000 + 1 * p.val = (i 0).val; rw [e0, h0]; omega
  | ⟨1, _⟩ => show win6_0.index t (1 : Fin 2) * 64 + 1 * kk.val = (i 1).val; rw [e1, h1]; omega

/-- Every point's weight block is the whole weight matrix. -/
theorem weights_apply (c : Dev nD) (t : Fin cfg6.N) (kk : Fin 64) (q : Fin 40) (i : S64x40.Idx)
    (h0 : (i 0).val = kk.val) (h1 : (i 1).val = q.val) :
    (iblk6 V c 1 t : Vec Ideal S64x40 .f32) (ix2 kk q) = V c main_arg10 i := by
  obtain ⟨-, -, e2, e3, -⟩ := idx_facts t
  unfold iblk6
  rw [View.read_apply]
  show V c main_arg10 _ = V c main_arg10 _
  congr 1
  funext a; apply Fin.ext
  match a with
  | ⟨0, _⟩ => show win6_1.index t (0 : Fin 2) * 64 + 1 * kk.val = (i 0).val; rw [e2, h0]; omega
  | ⟨1, _⟩ => show win6_1.index t (1 : Fin 2) * 40 + 1 * q.val = (i 1).val; rw [e3, h1]; omega

/-- What point t writes back is block t of every row of the array times the weight matrix. -/
theorem flushed_eq (c : Dev nD) (t : Fin cfg6.N) :
    (dat6 V c).flushed 2 t = ((cfg6.win 2).blk t).view.read (Elt Ideal)
      (Spec.dense (R := 100000) (K := 64) (M := 40) (V c main_v44) (V c main_arg10)) := by
  show (cfg6.win 2).cut (grid6.coords t) ((dat6 V c).after 2 t) = _
  rw [after6_2]
  unfold out6_2
  rw [View.canon_unit_zero hz]
  simp only [View.ld_unit_zero (S := S10000x64) hz, View.ld_unit_zero (S := S64x40) hz]
  funext j
  obtain ⟨p, q, rfl⟩ : ∃ (p : Fin 10000) (q : Fin 40), j = ix2 p q := ⟨j 0, j 1, eq_ix2 j⟩
  refine (pay_apply (iblk6 V c 0 t) (iblk6 V c 1 t) p q).trans ?_
  obtain ⟨-, -, -, -, e4⟩ := idx_facts t
  rw [View.read_apply]
  unfold Spec.dense
  refine Finset.sum_congr rfl fun kk _ => ?_
  refine congrArg₂ (· * ·) (rows_apply V c t p kk _ ?_ rfl) (weights_apply V c t kk q _ rfl ?_)
  · show win6_2.index t (0 : Fin 2) * 10000 + 1 * p.val = win6_2.index t (0 : Fin 2) * 10000 + p.val
    omega
  · show win6_2.index t (1 : Fin 2) * 40 + 1 * q.val = q.val
    rw [e4]; omega

/-- An index of the result is in point t's block iff each coordinate is in the block's range on its axis. -/
theorem mem_blk (t : Fin cfg6.N) (i : S100000x40.Idx) :
    i ∈ ((cfg6.win 2).blk t).view.set ↔ ∀ a : Fin 2, win6_2.index t a * S10000x40.size a ≤ (i a).val ∧ (i a).val < win6_2.index t a * S10000x40.size a + S10000x40.size a := by
  show i ∈ ((View.whole main_v45).slice (win6_2.rect t)).set ↔ _
  rw [View.set_slice_whole, Rect.mem_set_unit]
  exact Iff.rfl

/-- Row r of the result lies in the block of the point whose block index is r / 10000. -/
theorem cover (i : S100000x40.Idx) : ∃ t : Fin cfg6.N, (cfg6.win 2).flush t = true ∧ i ∈ ((cfg6.win 2).blk t).view.set := by
  have hi0 : (i 0).val < 100000 := (i 0).isLt
  have hi1 : (i 1).val < 40 := (i 1).isLt
  obtain ⟨t, ht⟩ := idx_onto ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 40 ≤ (i 1).val ∧ (i 1).val < win6_2.index t (1 : Fin 2) * 40 + 40; omega

/-- After the region the result array is every row of the array the region found times the weight matrix it found. -/
theorem final (c : Dev nD) : (dat6 V c).arrAt 2 cfg6.N
    = Spec.dense (R := 100000) (K := 64) (M := 40) (V c main_v44) (V c main_arg10) :=
  (dat6 V c).arrAt_eq_of_cover 2 _ (fun t _ => flushed_eq V c t) (cover)

end Cert.KernelIdeal.Region6

end
-- ==== Proof.Region7.lean ====
/-
  Kernel region 7: bias added, then the row-wise log-softmax, one tile of 10000 rows per grid point.

  Point t loads rows 10000·t … 10000·t + 9999 of the [100000, 40] array and the whole [40] bias, and writes the result
  back as rows 10000·t … of the output. An entry of the written tile depends on its whole row of the loaded tile (the row's maximum and the row's sum), and a row of the tile is a row of the array, whole, so each written block is the block of ONE whole-array function, and the ten
  blocks cover the output: after the region the output array is that function of the arrays the region found.
-/
import proofs.«120379_j40956808135036_1_alg».proof.Proof.Patched.KernelIdeal.Frame
import proofs.«120379_j40956808135036_1_alg».proof.Proof.LibLayers
import proofs.«120379_j40956808135036_1_alg».proof.Proof.LibBiasRows
import Idealize.ShloMosaic.Lib.Pipeline.Value
import Idealize.ShloMosaic.Lib.ValueIdx

set_option maxRecDepth 16384

noncomputable section

open scoped BigOperators

namespace Cert.KernelIdeal.Region7

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The index maps over the grid: the row tiles move with the output's block, the bias stays put. -/
theorem idx_facts : ∀ t : Fin cfg7.N, win7_0.index t (0 : Fin 2) = win7_2.index t (0 : Fin 2) ∧ win7_0.index t (1 : Fin 2) = 0 ∧ win7_1.index t (0 : Fin 1) = 0
    ∧ win7_2.index t (1 : Fin 2) = 0 ∧ win7_2.index t (0 : Fin 2) ≤ 9 :=
  (by decide +kernel : ∀ t : Fin grid7.N, _)

/-- Every one of the ten row blocks is some point's. -/
theorem idx_onto : ∀ q : Fin 10, ∃ t : Fin cfg7.N, win7_2.index t = ![q.val, 0] :=
  (by decide +kernel : ∀ q : Fin 10, ∃ t : Fin grid7.N, win7_2.index t = ![q.val, 0])

/-- The body's arithmetic at an entry. -/
theorem pay_apply (v : FVec Ideal S40 .f32) (x : FVec Ideal S10000x40 .f32) (p : Fin 10000) (q : Fin 40) :
    k7_pay1 v x (ix2 p q) = Spec.biasLogSoftmax x v (ix2 p q) := by
  unfold k7_pay1
  exact BiasRows.logSoftmaxRows_apply x v _ _ _ _ _ _ _ _ _ p q

/-- Row p of point t's tile is row 10000·(block index) + p of the array. -/
theorem rows_apply (c : Dev nD) (t : Fin cfg7.N) (p : Fin 10000) (q : Fin 40) (i : S100000x40.Idx)
    (h0 : (i 0).val = win7_2.index t (0 : Fin 2) * 10000 + p.val) (h1 : (i 1).val = q.val) :
    (iblk7 V c 0 t : Vec Ideal S10000x40 .f32) (ix2 p q) = V c main_v58 i := by
  obtain ⟨e0, e1, -, -, -⟩ := idx_facts t
  unfold iblk7
  rw [View.read_apply]
  show V c main_v58 _ = V c main_v58 _
  congr 1
  funext a; apply Fin.ext
  match a with
  | ⟨0, _⟩ => show win7_0.index t (0 : Fin 2) * 10000 + 1 * p.val = (i 0).val; rw [e0, h0]; omega
  | ⟨1, _⟩ => show win7_0.index t (1 : Fin 2) * 40 + 1 * q.val = (i 1).val; rw [e1, h1]; omega

/-- Every point's bias block is the whole bias. -/
theorem bias_apply (c : Dev nD) (t : Fin cfg7.N) (q : Fin 40) :
    (iblk7 V c 1 t : Vec Ideal S40 .f32) (ix1 q) = V c main_arg11 (ix1 q) := by
  obtain ⟨-, -, e2, -, -⟩ := idx_facts t
  unfold iblk7
  rw [View.read_apply]
  show V c main_arg11 _ = V c main_arg11 _
  congr 1
  funext a; apply Fin.ext
  match a with
  | ⟨0, _⟩ => show win7_1.index t (0 : Fin 1) * 40 + 1 * q.val = q.val; rw [e2]; omega

/-- What point t writes back is block t of the whole-array function of the arrays the region found. -/
theorem flushed_eq (c : Dev nD) (t : Fin cfg7.N) :
    (dat7 V c).flushed 2 t = ((cfg7.win 2).blk t).view.read (Elt Ideal)
      (Spec.biasLogSoftmax (R := 100000) (M := 40) (V c main_v58) (V c main_arg11)) := by
  show (cfg7.win 2).cut (grid7.coords t) ((dat7 V c).after 2 t) = _
  rw [after7_2]
  unfold out7_2
  rw [View.canon_unit_zero hz]
  simp only [View.ld_unit_zero (S := S10000x40) hz, View.ld_unit_zero (S := S40) hz1]
  funext j
  obtain ⟨p, q, rfl⟩ : ∃ (p : Fin 10000) (q : Fin 40), j = ix2 p q := ⟨j 0, j 1, eq_ix2 j⟩
  refine (pay_apply (iblk7 V c 1 t) (iblk7 V c 0 t) p q).trans ?_
  obtain ⟨-, -, -, e3, e4⟩ := idx_facts t
  have hp : win7_2.index t (0 : Fin 2) * 10000 + p.val < 100000 := by have := p.isLt; omega
  have hemb : ((cfg7.win 2).blk t).view.emb (ix2 p q) = ix2 (⟨win7_2.index t (0 : Fin 2) * 10000 + p.val, hp⟩ : Fin 100000) q :=
    funext fun a => Fin.ext (by
      match a with
      | ⟨0, _⟩ => show win7_2.index t (0 : Fin 2) * 10000 + 1 * p.val = win7_2.index t (0 : Fin 2) * 10000 + p.val; omega
      | ⟨1, _⟩ => show win7_2.index t (1 : Fin 2) * 40 + 1 * q.val = q.val; rw [e3]; omega)
  rw [View.read_apply, hemb]
  exact Spec.biasLogSoftmax_congr _ _ _ _ p _ q (fun kk => rows_apply V c t p kk _ rfl rfl) (fun kk => bias_apply V c t kk)

/-- An index of the output is in point t's block iff each coordinate is in the block's range on its axis. -/
theorem mem_blk (t : Fin cfg7.N) (i : S100000x40.Idx) :
    i ∈ ((cfg7.win 2).blk t).view.set ↔ ∀ a : Fin 2, win7_2.index t a * S10000x40.size a ≤ (i a).val ∧ (i a).val < win7_2.index t a * S10000x40.size a + S10000x40.size a := by
  show i ∈ ((View.whole main_v59).slice (win7_2.rect t)).set ↔ _
  rw [View.set_slice_whole, Rect.mem_set_unit]
  exact Iff.rfl

/-- Row r of the output lies in the block of the point whose block index is r / 10000. -/
theorem cover (i : S100000x40.Idx) : ∃ t : Fin cfg7.N, (cfg7.win 2).flush t = true ∧ i ∈ ((cfg7.win 2).blk t).view.set := by
  have hi0 : (i 0).val < 100000 := (i 0).isLt
  have hi1 : (i 1).val < 40 := (i 1).isLt
  obtain ⟨t, ht⟩ := idx_onto ⟨(i 0).val / 10000, by omega⟩
  have q0 : win7_2.index t (0 : Fin 2) = (i 0).val / 10000 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 40 ≤ (i 1).val ∧ (i 1).val < win7_2.index t (1 : Fin 2) * 40 + 40; omega

/-- After the region the output array is the whole-array function of the arrays the region found. -/
theorem final (c : Dev nD) : (dat7 V c).arrAt 2 cfg7.N
    = Spec.biasLogSoftmax (R := 100000) (M := 40) (V c main_v58) (V c main_arg11) :=
  (dat7 V c).arrAt_eq_of_cover 2 _ (fun t _ => flushed_eq V c t) (cover)

end Cert.KernelIdeal.Region7

end
-- ==== Proof.Network.lean ====
/-
  The whole network as ONE function of the twelve arguments, over the extended reals.

  Four graph-convolution layers. Each multiplies every node's feature row by the layer's weight matrix, aggregates the
  products along the edges (`agg64`, `agg40`: the host's gather, weighting and scatter-add, kept closed), adds the layer's
  bias and cuts at zero; the two middle layers add their input back; the last layer ends in a row-wise log-softmax instead of
  the cut. Both programs are shown equal to this function: the kernel program region by region, the reference operation by
  operation.
-/
import proofs.«120379_j40956808135036_1_alg».proof.ReferenceIdeal
import proofs.«120379_j40956808135036_1_alg».proof.Proof.Gen.ReferenceIdeal
import proofs.«120379_j40956808135036_1_alg».proof.Proof.LibLayers

noncomputable section

namespace Cert.ReferenceIdeal.Hand

open Cert.ReferenceIdeal Cert.ReferenceIdeal.Gen Idealize.ShloMosaic Idealize.ShloMosaic.TcCoe Idealize.SL.Sem

/-- The edge aggregation at width 64: row src(e) of the node array for every edge e (a negative index counted from the end), times the
    edge's weight, summed into row tgt(e) of a zero array. These are the host's own operations, the same on both sides; nothing
    below opens them. -/
def agg64 (s : (⟨S100000x64, .f32⟩ : BufTy).Contents (Elt Ideal)) (src tgt : (⟨S1600000, .i32⟩ : BufTy).Contents (Elt Ideal))
    (w : (⟨S1600000, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 tgt)
    (mulf (Host.gather gather_S100000x64_S1600000x1_S1600000x64_1_0_n_n_0_1_164 s
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1 (broadcastInDim S1600000x1 ![0] bcast_S1600000_S1600000x1_0 w)))

/-- The edge aggregation at width 40: row src(e) of the node array for every edge e (a negative index counted from the end), times the
    edge's weight, summed into row tgt(e) of a zero array. These are the host's own operations, the same on both sides; nothing
    below opens them. -/
def agg40 (s : (⟨S100000x40, .f32⟩ : BufTy).Contents (Elt Ideal)) (src tgt : (⟨S1600000, .i32⟩ : BufTy).Contents (Elt Ideal))
    (w : (⟨S1600000, .f32⟩ : BufTy).Contents (Elt Ideal)) : (⟨S100000x40, .f32⟩ : BufTy).Contents (Elt Ideal) :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 tgt)
    (mulf (Host.gather gather_S100000x40_S1600000x1_S1600000x40_1_0_n_n_0_1_140 s
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x40 ![0, 1] bcast_S1600000x1_S1600000x40_0_1 (broadcastInDim S1600000x1 ![0] bcast_S1600000_S1600000x1_0 w)))

/-- The first layer's output. -/
def layer1 (x : (⟨S100000x128, .f32⟩ : BufTy).Contents (Elt Ideal)) (src tgt : (⟨S1600000, .i32⟩ : BufTy).Contents (Elt Ideal))
    (w : (⟨S1600000, .f32⟩ : BufTy).Contents (Elt Ideal)) (W0 : (⟨S128x64, .f32⟩ : BufTy).Contents (Elt Ideal)) (b0 : (⟨S64, .f32⟩ : BufTy).Contents (Elt Ideal)) :
    (⟨S100000x64, .f32⟩ : BufTy).Contents (Elt Ideal) :=
  Spec.biasRelu (R := 100000) (M := 64) (agg64 (Spec.dense (R := 100000) (K := 128) (M := 64) x W0) src tgt w) b0

/-- A middle layer: its input through the layer, plus its input. -/
def middle (h : (⟨S100000x64, .f32⟩ : BufTy).Contents (Elt Ideal)) (src tgt : (⟨S1600000, .i32⟩ : BufTy).Contents (Elt Ideal))
    (w : (⟨S1600000, .f32⟩ : BufTy).Contents (Elt Ideal)) (W : (⟨S64x64, .f32⟩ : BufTy).Contents (Elt Ideal)) (b : (⟨S64, .f32⟩ : BufTy).Contents (Elt Ideal)) :
    (⟨S100000x64, .f32⟩ : BufTy).Contents (Elt Ideal) :=
  Spec.biasReluRes (R := 100000) (M := 64) (agg64 (Spec.dense (R := 100000) (K := 64) (M := 64) h W) src tgt w) b h

/-- The last layer: through the layer, then the row-wise log-softmax. -/
def last (h : (⟨S100000x64, .f32⟩ : BufTy).Contents (Elt Ideal)) (src tgt : (⟨S1600000, .i32⟩ : BufTy).Contents (Elt Ideal))
    (w : (⟨S1600000, .f32⟩ : BufTy).Contents (Elt Ideal)) (W : (⟨S64x40, .f32⟩ : BufTy).Contents (Elt Ideal)) (b : (⟨S40, .f32⟩ : BufTy).Contents (Elt Ideal)) :
    (⟨S100000x40, .f32⟩ : BufTy).Contents (Elt Ideal) :=
  Spec.biasLogSoftmax (R := 100000) (M := 40) (agg40 (Spec.dense (R := 100000) (K := 64) (M := 40) h W) src tgt w) b

/-- The network: four layers. -/
def network (x : (⟨S100000x128, .f32⟩ : BufTy).Contents (Elt Ideal)) (src tgt : (⟨S1600000, .i32⟩ : BufTy).Contents (Elt Ideal))
    (w : (⟨S1600000, .f32⟩ : BufTy).Contents (Elt Ideal)) (W0 : (⟨S128x64, .f32⟩ : BufTy).Contents (Elt Ideal)) (b0 : (⟨S64, .f32⟩ : BufTy).Contents (Elt Ideal))
    (W1 : (⟨S64x64, .f32⟩ : BufTy).Contents (Elt Ideal)) (b1 : (⟨S64, .f32⟩ : BufTy).Contents (Elt Ideal))
    (W2 : (⟨S64x64, .f32⟩ : BufTy).Contents (Elt Ideal)) (b2 : (⟨S64, .f32⟩ : BufTy).Contents (Elt Ideal))
    (W3 : (⟨S64x40, .f32⟩ : BufTy).Contents (Elt Ideal)) (b3 : (⟨S40, .f32⟩ : BufTy).Contents (Elt Ideal)) :
    (⟨S100000x40, .f32⟩ : BufTy).Contents (Elt Ideal) :=
  last (middle (middle (layer1 x src tgt w W0 b0) src tgt w W1 b1) src tgt w W2 b2) src tgt w W3 b3

end Cert.ReferenceIdeal.Hand

end
-- ==== Proof.KernelChain.lean ====
/-
  The idealized kernel program's result as the network function of its arguments.

  Walking @main's twelve segments from the launch memory: a kernel region leaves in its output array the whole-array
  function proved for it (rows times weights; bias and cut; bias, cut and the earlier output; the log-softmax) of the arrays
  it found, and leaves every other buffer alone; a stretch of host operations leaves in its last buffer the edge aggregation
  of the product array before it, and writes none of the arguments and none of the earlier outputs still to be read. The
  arguments therefore reach every region and every stretch as launched, and the contents of the result buffer at the last
  boundary compose to the network function of the twelve arguments.
-/
import proofs.«120379_j40956808135036_1_alg».proof.Proof.Patched.KernelIdeal.Frame
import proofs.«120379_j40956808135036_1_alg».proof.Proof.Region0
import proofs.«120379_j40956808135036_1_alg».proof.Proof.Region1
import proofs.«120379_j40956808135036_1_alg».proof.Proof.Region2
import proofs.«120379_j40956808135036_1_alg».proof.Proof.Region3
import proofs.«120379_j40956808135036_1_alg».proof.Proof.Region4
import proofs.«120379_j40956808135036_1_alg».proof.Proof.Region5
import proofs.«120379_j40956808135036_1_alg».proof.Proof.Region6
import proofs.«120379_j40956808135036_1_alg».proof.Proof.Region7
import proofs.«120379_j40956808135036_1_alg».proof.Proof.Network
import Idealize.ShloMosaic.Lib.StableHlo.Run

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem Idealize.ShloMosaic.StableHlo

/-- The edge aggregation at width 64: row src(e) of the node array for every edge e (a negative index counted from the end), times the
    edge's weight, summed into row tgt(e) of a zero array. These are the host's own operations, the same on both sides; nothing
    below opens them. -/
def agg64 (s : (⟨S100000x64, .f32⟩ : BufTy).Contents (Elt Ideal)) (src tgt : (⟨S1600000, .i32⟩ : BufTy).Contents (Elt Ideal))
    (w : (⟨S1600000, .f32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 tgt)
    (mulf (Host.gather gather_S100000x64_S1600000x1_S1600000x64_1_0_n_n_0_1_164 s
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1 (broadcastInDim S1600000x1 ![0] bcast_S1600000_S1600000x1_0 w)))

/-- The edge aggregation at width 40: row src(e) of the node array for every edge e (a negative index counted from the end), times the
    edge's weight, summed into row tgt(e) of a zero array. These are the host's own operations, the same on both sides; nothing
    below opens them. -/
def agg40 (s : (⟨S100000x40, .f32⟩ : BufTy).Contents (Elt Ideal)) (src tgt : (⟨S1600000, .i32⟩ : BufTy).Contents (Elt Ideal))
    (w : (⟨S1600000, .f32⟩ : BufTy).Contents (Elt Ideal)) : (⟨S100000x40, .f32⟩ : BufTy).Contents (Elt Ideal) :=
  Host.scatterAdd scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 tgt)
    (mulf (Host.gather gather_S100000x40_S1600000x1_S1600000x40_1_0_n_n_0_1_140 s
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x40 ![0, 1] bcast_S1600000x1_S1600000x40_0_1 (broadcastInDim S1600000x1 ![0] bcast_S1600000_S1600000x1_0 w)))

/-- The two programs' aggregations are one function: the same operations over the same shapes. -/
theorem agg64_eq (s : (⟨S100000x64, .f32⟩ : BufTy).Contents (Elt Ideal)) (src tgt : (⟨S1600000, .i32⟩ : BufTy).Contents (Elt Ideal))
    (w : (⟨S1600000, .f32⟩ : BufTy).Contents (Elt Ideal)) : agg64 s src tgt w = Cert.ReferenceIdeal.Hand.agg64 s src tgt w := rfl
theorem agg40_eq (s : (⟨S100000x40, .f32⟩ : BufTy).Contents (Elt Ideal)) (src tgt : (⟨S1600000, .i32⟩ : BufTy).Contents (Elt Ideal))
    (w : (⟨S1600000, .f32⟩ : BufTy).Contents (Elt Ideal)) : agg40 s src tgt w = Cert.ReferenceIdeal.Hand.agg40 s src tgt w := rfl

variable (m : (ℓ : Loc nD τ sig) → Buf (Elt Ideal) ℓ) (ρ : Dev nD → PrngReg)

/-- A buffer no operation of a host stretch writes holds after the stretch what it held before. -/
macro "host_skip" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The arguments reach every boundary where they are read as launched -/

theorem arg1_W1 (c : Dev nD) : W1 m ρ c (Proc.devRef .tc main_arg1) = m ((c : Thread nD τ).loc main_arg1) :=
  (W1_of_ne m ρ c main_arg1 (by decide)).trans rfl
theorem arg1_W2 (c : Dev nD) : W2 m ρ c (Proc.devRef .tc main_arg1) = m ((c : Thread nD τ).loc main_arg1) :=
  (show StableHlo.after hostOps1 (W1 m ρ c) (Proc.devRef .tc main_arg1) = W1 m ρ c (Proc.devRef .tc main_arg1) by host_skip hostOps1).trans (arg1_W1 m ρ c)
theorem arg1_W3 (c : Dev nD) : W3 m ρ c (Proc.devRef .tc main_arg1) = m ((c : Thread nD τ).loc main_arg1) :=
  (W3_of_ne m ρ c main_arg1 (by decide)).trans (arg1_W2 m ρ c)
theorem arg1_W4 (c : Dev nD) : W4 m ρ c (Proc.devRef .tc main_arg1) = m ((c : Thread nD τ).loc main_arg1) :=
  (W4_of_ne m ρ c main_arg1 (by decide)).trans (arg1_W3 m ρ c)
theorem arg1_W5 (c : Dev nD) : W5 m ρ c (Proc.devRef .tc main_arg1) = m ((c : Thread nD τ).loc main_arg1) :=
  (show StableHlo.after hostOps3 (W4 m ρ c) (Proc.devRef .tc main_arg1) = W4 m ρ c (Proc.devRef .tc main_arg1) by host_skip hostOps3).trans (arg1_W4 m ρ c)
theorem arg1_W6 (c : Dev nD) : W6 m ρ c (Proc.devRef .tc main_arg1) = m ((c : Thread nD τ).loc main_arg1) :=
  (W6_of_ne m ρ c main_arg1 (by decide)).trans (arg1_W5 m ρ c)
theorem arg1_W7 (c : Dev nD) : W7 m ρ c (Proc.devRef .tc main_arg1) = m ((c : Thread nD τ).loc main_arg1) :=
  (W7_of_ne m ρ c main_arg1 (by decide)).trans (arg1_W6 m ρ c)
theorem arg1_W8 (c : Dev nD) : W8 m ρ c (Proc.devRef .tc main_arg1) = m ((c : Thread nD τ).loc main_arg1) :=
  (show StableHlo.after hostOps5 (W7 m ρ c) (Proc.devRef .tc main_arg1) = W7 m ρ c (Proc.devRef .tc main_arg1) by host_skip hostOps5).trans (arg1_W7 m ρ c)
theorem arg1_W9 (c : Dev nD) : W9 m ρ c (Proc.devRef .tc main_arg1) = m ((c : Thread nD τ).loc main_arg1) :=
  (W9_of_ne m ρ c main_arg1 (by decide)).trans (arg1_W8 m ρ c)
theorem arg1_W10 (c : Dev nD) : W10 m ρ c (Proc.devRef .tc main_arg1) = m ((c : Thread nD τ).loc main_arg1) :=
  (W10_of_ne m ρ c main_arg1 (by decide)).trans (arg1_W9 m ρ c)

theorem arg2_W1 (c : Dev nD) : W1 m ρ c (Proc.devRef .tc main_arg2) = m ((c : Thread nD τ).loc main_arg2) :=
  (W1_of_ne m ρ c main_arg2 (by decide)).trans rfl
theorem arg2_W2 (c : Dev nD) : W2 m ρ c (Proc.devRef .tc main_arg2) = m ((c : Thread nD τ).loc main_arg2) :=
  (show StableHlo.after hostOps1 (W1 m ρ c) (Proc.devRef .tc main_arg2) = W1 m ρ c (Proc.devRef .tc main_arg2) by host_skip hostOps1).trans (arg2_W1 m ρ c)
theorem arg2_W3 (c : Dev nD) : W3 m ρ c (Proc.devRef .tc main_arg2) = m ((c : Thread nD τ).loc main_arg2) :=
  (W3_of_ne m ρ c main_arg2 (by decide)).trans (arg2_W2 m ρ c)
theorem arg2_W4 (c : Dev nD) : W4 m ρ c (Proc.devRef .tc main_arg2) = m ((c : Thread nD τ).loc main_arg2) :=
  (W4_of_ne m ρ c main_arg2 (by decide)).trans (arg2_W3 m ρ c)
theorem arg2_W5 (c : Dev nD) : W5 m ρ c (Proc.devRef .tc main_arg2) = m ((c : Thread nD τ).loc main_arg2) :=
  (show StableHlo.after hostOps3 (W4 m ρ c) (Proc.devRef .tc main_arg2) = W4 m ρ c (Proc.devRef .tc main_arg2) by host_skip hostOps3).trans (arg2_W4 m ρ c)
theorem arg2_W6 (c : Dev nD) : W6 m ρ c (Proc.devRef .tc main_arg2) = m ((c : Thread nD τ).loc main_arg2) :=
  (W6_of_ne m ρ c main_arg2 (by decide)).trans (arg2_W5 m ρ c)
theorem arg2_W7 (c : Dev nD) : W7 m ρ c (Proc.devRef .tc main_arg2) = m ((c : Thread nD τ).loc main_arg2) :=
  (W7_of_ne m ρ c main_arg2 (by decide)).trans (arg2_W6 m ρ c)
theorem arg2_W8 (c : Dev nD) : W8 m ρ c (Proc.devRef .tc main_arg2) = m ((c : Thread nD τ).loc main_arg2) :=
  (show StableHlo.after hostOps5 (W7 m ρ c) (Proc.devRef .tc main_arg2) = W7 m ρ c (Proc.devRef .tc main_arg2) by host_skip hostOps5).trans (arg2_W7 m ρ c)
theorem arg2_W9 (c : Dev nD) : W9 m ρ c (Proc.devRef .tc main_arg2) = m ((c : Thread nD τ).loc main_arg2) :=
  (W9_of_ne m ρ c main_arg2 (by decide)).trans (arg2_W8 m ρ c)
theorem arg2_W10 (c : Dev nD) : W10 m ρ c (Proc.devRef .tc main_arg2) = m ((c : Thread nD τ).loc main_arg2) :=
  (W10_of_ne m ρ c main_arg2 (by decide)).trans (arg2_W9 m ρ c)

theorem arg3_W1 (c : Dev nD) : W1 m ρ c (Proc.devRef .tc main_arg3) = m ((c : Thread nD τ).loc main_arg3) :=
  (W1_of_ne m ρ c main_arg3 (by decide)).trans rfl
theorem arg3_W2 (c : Dev nD) : W2 m ρ c (Proc.devRef .tc main_arg3) = m ((c : Thread nD τ).loc main_arg3) :=
  (show StableHlo.after hostOps1 (W1 m ρ c) (Proc.devRef .tc main_arg3) = W1 m ρ c (Proc.devRef .tc main_arg3) by host_skip hostOps1).trans (arg3_W1 m ρ c)
theorem arg3_W3 (c : Dev nD) : W3 m ρ c (Proc.devRef .tc main_arg3) = m ((c : Thread nD τ).loc main_arg3) :=
  (W3_of_ne m ρ c main_arg3 (by decide)).trans (arg3_W2 m ρ c)
theorem arg3_W4 (c : Dev nD) : W4 m ρ c (Proc.devRef .tc main_arg3) = m ((c : Thread nD τ).loc main_arg3) :=
  (W4_of_ne m ρ c main_arg3 (by decide)).trans (arg3_W3 m ρ c)
theorem arg3_W5 (c : Dev nD) : W5 m ρ c (Proc.devRef .tc main_arg3) = m ((c : Thread nD τ).loc main_arg3) :=
  (show StableHlo.after hostOps3 (W4 m ρ c) (Proc.devRef .tc main_arg3) = W4 m ρ c (Proc.devRef .tc main_arg3) by host_skip hostOps3).trans (arg3_W4 m ρ c)
theorem arg3_W6 (c : Dev nD) : W6 m ρ c (Proc.devRef .tc main_arg3) = m ((c : Thread nD τ).loc main_arg3) :=
  (W6_of_ne m ρ c main_arg3 (by decide)).trans (arg3_W5 m ρ c)
theorem arg3_W7 (c : Dev nD) : W7 m ρ c (Proc.devRef .tc main_arg3) = m ((c : Thread nD τ).loc main_arg3) :=
  (W7_of_ne m ρ c main_arg3 (by decide)).trans (arg3_W6 m ρ c)
theorem arg3_W8 (c : Dev nD) : W8 m ρ c (Proc.devRef .tc main_arg3) = m ((c : Thread nD τ).loc main_arg3) :=
  (show StableHlo.after hostOps5 (W7 m ρ c) (Proc.devRef .tc main_arg3) = W7 m ρ c (Proc.devRef .tc main_arg3) by host_skip hostOps5).trans (arg3_W7 m ρ c)
theorem arg3_W9 (c : Dev nD) : W9 m ρ c (Proc.devRef .tc main_arg3) = m ((c : Thread nD τ).loc main_arg3) :=
  (W9_of_ne m ρ c main_arg3 (by decide)).trans (arg3_W8 m ρ c)
theorem arg3_W10 (c : Dev nD) : W10 m ρ c (Proc.devRef .tc main_arg3) = m ((c : Thread nD τ).loc main_arg3) :=
  (W10_of_ne m ρ c main_arg3 (by decide)).trans (arg3_W9 m ρ c)

theorem arg5_W1 (c : Dev nD) : W1 m ρ c (Proc.devRef .tc main_arg5) = m ((c : Thread nD τ).loc main_arg5) :=
  (W1_of_ne m ρ c main_arg5 (by decide)).trans rfl
theorem arg5_W2 (c : Dev nD) : W2 m ρ c (Proc.devRef .tc main_arg5) = m ((c : Thread nD τ).loc main_arg5) :=
  (show StableHlo.after hostOps1 (W1 m ρ c) (Proc.devRef .tc main_arg5) = W1 m ρ c (Proc.devRef .tc main_arg5) by host_skip hostOps1).trans (arg5_W1 m ρ c)

theorem arg6_W1 (c : Dev nD) : W1 m ρ c (Proc.devRef .tc main_arg6) = m ((c : Thread nD τ).loc main_arg6) :=
  (W1_of_ne m ρ c main_arg6 (by decide)).trans rfl
theorem arg6_W2 (c : Dev nD) : W2 m ρ c (Proc.devRef .tc main_arg6) = m ((c : Thread nD τ).loc main_arg6) :=
  (show StableHlo.after hostOps1 (W1 m ρ c) (Proc.devRef .tc main_arg6) = W1 m ρ c (Proc.devRef .tc main_arg6) by host_skip hostOps1).trans (arg6_W1 m ρ c)
theorem arg6_W3 (c : Dev nD) : W3 m ρ c (Proc.devRef .tc main_arg6) = m ((c : Thread nD τ).loc main_arg6) :=
  (W3_of_ne m ρ c main_arg6 (by decide)).trans (arg6_W2 m ρ c)

theorem arg7_W1 (c : Dev nD) : W1 m ρ c (Proc.devRef .tc main_arg7) = m ((c : Thread nD τ).loc main_arg7) :=
  (W1_of_ne m ρ c main_arg7 (by decide)).trans rfl
theorem arg7_W2 (c : Dev nD) : W2 m ρ c (Proc.devRef .tc main_arg7) = m ((c : Thread nD τ).loc main_arg7) :=
  (show StableHlo.after hostOps1 (W1 m ρ c) (Proc.devRef .tc main_arg7) = W1 m ρ c (Proc.devRef .tc main_arg7) by host_skip hostOps1).trans (arg7_W1 m ρ c)
theorem arg7_W3 (c : Dev nD) : W3 m ρ c (Proc.devRef .tc main_arg7) = m ((c : Thread nD τ).loc main_arg7) :=
  (W3_of_ne m ρ c main_arg7 (by decide)).trans (arg7_W2 m ρ c)
theorem arg7_W4 (c : Dev nD) : W4 m ρ c (Proc.devRef .tc main_arg7) = m ((c : Thread nD τ).loc main_arg7) :=
  (W4_of_ne m ρ c main_arg7 (by decide)).trans (arg7_W3 m ρ c)
theorem arg7_W5 (c : Dev nD) : W5 m ρ c (Proc.devRef .tc main_arg7) = m ((c : Thread nD τ).loc main_arg7) :=
  (show StableHlo.after hostOps3 (W4 m ρ c) (Proc.devRef .tc main_arg7) = W4 m ρ c (Proc.devRef .tc main_arg7) by host_skip hostOps3).trans (arg7_W4 m ρ c)

theorem arg8_W1 (c : Dev nD) : W1 m ρ c (Proc.devRef .tc main_arg8) = m ((c : Thread nD τ).loc main_arg8) :=
  (W1_of_ne m ρ c main_arg8 (by decide)).trans rfl
theorem arg8_W2 (c : Dev nD) : W2 m ρ c (Proc.devRef .tc main_arg8) = m ((c : Thread nD τ).loc main_arg8) :=
  (show StableHlo.after hostOps1 (W1 m ρ c) (Proc.devRef .tc main_arg8) = W1 m ρ c (Proc.devRef .tc main_arg8) by host_skip hostOps1).trans (arg8_W1 m ρ c)
theorem arg8_W3 (c : Dev nD) : W3 m ρ c (Proc.devRef .tc main_arg8) = m ((c : Thread nD τ).loc main_arg8) :=
  (W3_of_ne m ρ c main_arg8 (by decide)).trans (arg8_W2 m ρ c)
theorem arg8_W4 (c : Dev nD) : W4 m ρ c (Proc.devRef .tc main_arg8) = m ((c : Thread nD τ).loc main_arg8) :=
  (W4_of_ne m ρ c main_arg8 (by decide)).trans (arg8_W3 m ρ c)
theorem arg8_W5 (c : Dev nD) : W5 m ρ c (Proc.devRef .tc main_arg8) = m ((c : Thread nD τ).loc main_arg8) :=
  (show StableHlo.after hostOps3 (W4 m ρ c) (Proc.devRef .tc main_arg8) = W4 m ρ c (Proc.devRef .tc main_arg8) by host_skip hostOps3).trans (arg8_W4 m ρ c)
theorem arg8_W6 (c : Dev nD) : W6 m ρ c (Proc.devRef .tc main_arg8) = m ((c : Thread nD τ).loc main_arg8) :=
  (W6_of_ne m ρ c main_arg8 (by decide)).trans (arg8_W5 m ρ c)

theorem arg9_W1 (c : Dev nD) : W1 m ρ c (Proc.devRef .tc main_arg9) = m ((c : Thread nD τ).loc main_arg9) :=
  (W1_of_ne m ρ c main_arg9 (by decide)).trans rfl
theorem arg9_W2 (c : Dev nD) : W2 m ρ c (Proc.devRef .tc main_arg9) = m ((c : Thread nD τ).loc main_arg9) :=
  (show StableHlo.after hostOps1 (W1 m ρ c) (Proc.devRef .tc main_arg9) = W1 m ρ c (Proc.devRef .tc main_arg9) by host_skip hostOps1).trans (arg9_W1 m ρ c)
theorem arg9_W3 (c : Dev nD) : W3 m ρ c (Proc.devRef .tc main_arg9) = m ((c : Thread nD τ).loc main_arg9) :=
  (W3_of_ne m ρ c main_arg9 (by decide)).trans (arg9_W2 m ρ c)
theorem arg9_W4 (c : Dev nD) : W4 m ρ c (Proc.devRef .tc main_arg9) = m ((c : Thread nD τ).loc main_arg9) :=
  (W4_of_ne m ρ c main_arg9 (by decide)).trans (arg9_W3 m ρ c)
theorem arg9_W5 (c : Dev nD) : W5 m ρ c (Proc.devRef .tc main_arg9) = m ((c : Thread nD τ).loc main_arg9) :=
  (show StableHlo.after hostOps3 (W4 m ρ c) (Proc.devRef .tc main_arg9) = W4 m ρ c (Proc.devRef .tc main_arg9) by host_skip hostOps3).trans (arg9_W4 m ρ c)
theorem arg9_W6 (c : Dev nD) : W6 m ρ c (Proc.devRef .tc main_arg9) = m ((c : Thread nD τ).loc main_arg9) :=
  (W6_of_ne m ρ c main_arg9 (by decide)).trans (arg9_W5 m ρ c)
theorem arg9_W7 (c : Dev nD) : W7 m ρ c (Proc.devRef .tc main_arg9) = m ((c : Thread nD τ).loc main_arg9) :=
  (W7_of_ne m ρ c main_arg9 (by decide)).trans (arg9_W6 m ρ c)
theorem arg9_W8 (c : Dev nD) : W8 m ρ c (Proc.devRef .tc main_arg9) = m ((c : Thread nD τ).loc main_arg9) :=
  (show StableHlo.after hostOps5 (W7 m ρ c) (Proc.devRef .tc main_arg9) = W7 m ρ c (Proc.devRef .tc main_arg9) by host_skip hostOps5).trans (arg9_W7 m ρ c)

theorem arg10_W1 (c : Dev nD) : W1 m ρ c (Proc.devRef .tc main_arg10) = m ((c : Thread nD τ).loc main_arg10) :=
  (W1_of_ne m ρ c main_arg10 (by decide)).trans rfl
theorem arg10_W2 (c : Dev nD) : W2 m ρ c (Proc.devRef .tc main_arg10) = m ((c : Thread nD τ).loc main_arg10) :=
  (show StableHlo.after hostOps1 (W1 m ρ c) (Proc.devRef .tc main_arg10) = W1 m ρ c (Proc.devRef .tc main_arg10) by host_skip hostOps1).trans (arg10_W1 m ρ c)
theorem arg10_W3 (c : Dev nD) : W3 m ρ c (Proc.devRef .tc main_arg10) = m ((c : Thread nD τ).loc main_arg10) :=
  (W3_of_ne m ρ c main_arg10 (by decide)).trans (arg10_W2 m ρ c)
theorem arg10_W4 (c : Dev nD) : W4 m ρ c (Proc.devRef .tc main_arg10) = m ((c : Thread nD τ).loc main_arg10) :=
  (W4_of_ne m ρ c main_arg10 (by decide)).trans (arg10_W3 m ρ c)
theorem arg10_W5 (c : Dev nD) : W5 m ρ c (Proc.devRef .tc main_arg10) = m ((c : Thread nD τ).loc main_arg10) :=
  (show StableHlo.after hostOps3 (W4 m ρ c) (Proc.devRef .tc main_arg10) = W4 m ρ c (Proc.devRef .tc main_arg10) by host_skip hostOps3).trans (arg10_W4 m ρ c)
theorem arg10_W6 (c : Dev nD) : W6 m ρ c (Proc.devRef .tc main_arg10) = m ((c : Thread nD τ).loc main_arg10) :=
  (W6_of_ne m ρ c main_arg10 (by decide)).trans (arg10_W5 m ρ c)
theorem arg10_W7 (c : Dev nD) : W7 m ρ c (Proc.devRef .tc main_arg10) = m ((c : Thread nD τ).loc main_arg10) :=
  (W7_of_ne m ρ c main_arg10 (by decide)).trans (arg10_W6 m ρ c)
theorem arg10_W8 (c : Dev nD) : W8 m ρ c (Proc.devRef .tc main_arg10) = m ((c : Thread nD τ).loc main_arg10) :=
  (show StableHlo.after hostOps5 (W7 m ρ c) (Proc.devRef .tc main_arg10) = W7 m ρ c (Proc.devRef .tc main_arg10) by host_skip hostOps5).trans (arg10_W7 m ρ c)
theorem arg10_W9 (c : Dev nD) : W9 m ρ c (Proc.devRef .tc main_arg10) = m ((c : Thread nD τ).loc main_arg10) :=
  (W9_of_ne m ρ c main_arg10 (by decide)).trans (arg10_W8 m ρ c)

theorem arg11_W1 (c : Dev nD) : W1 m ρ c (Proc.devRef .tc main_arg11) = m ((c : Thread nD τ).loc main_arg11) :=
  (W1_of_ne m ρ c main_arg11 (by decide)).trans rfl
theorem arg11_W2 (c : Dev nD) : W2 m ρ c (Proc.devRef .tc main_arg11) = m ((c : Thread nD τ).loc main_arg11) :=
  (show StableHlo.after hostOps1 (W1 m ρ c) (Proc.devRef .tc main_arg11) = W1 m ρ c (Proc.devRef .tc main_arg11) by host_skip hostOps1).trans (arg11_W1 m ρ c)
theorem arg11_W3 (c : Dev nD) : W3 m ρ c (Proc.devRef .tc main_arg11) = m ((c : Thread nD τ).loc main_arg11) :=
  (W3_of_ne m ρ c main_arg11 (by decide)).trans (arg11_W2 m ρ c)
theorem arg11_W4 (c : Dev nD) : W4 m ρ c (Proc.devRef .tc main_arg11) = m ((c : Thread nD τ).loc main_arg11) :=
  (W4_of_ne m ρ c main_arg11 (by decide)).trans (arg11_W3 m ρ c)
theorem arg11_W5 (c : Dev nD) : W5 m ρ c (Proc.devRef .tc main_arg11) = m ((c : Thread nD τ).loc main_arg11) :=
  (show StableHlo.after hostOps3 (W4 m ρ c) (Proc.devRef .tc main_arg11) = W4 m ρ c (Proc.devRef .tc main_arg11) by host_skip hostOps3).trans (arg11_W4 m ρ c)
theorem arg11_W6 (c : Dev nD) : W6 m ρ c (Proc.devRef .tc main_arg11) = m ((c : Thread nD τ).loc main_arg11) :=
  (W6_of_ne m ρ c main_arg11 (by decide)).trans (arg11_W5 m ρ c)
theorem arg11_W7 (c : Dev nD) : W7 m ρ c (Proc.devRef .tc main_arg11) = m ((c : Thread nD τ).loc main_arg11) :=
  (W7_of_ne m ρ c main_arg11 (by decide)).trans (arg11_W6 m ρ c)
theorem arg11_W8 (c : Dev nD) : W8 m ρ c (Proc.devRef .tc main_arg11) = m ((c : Thread nD τ).loc main_arg11) :=
  (show StableHlo.after hostOps5 (W7 m ρ c) (Proc.devRef .tc main_arg11) = W7 m ρ c (Proc.devRef .tc main_arg11) by host_skip hostOps5).trans (arg11_W7 m ρ c)
theorem arg11_W9 (c : Dev nD) : W9 m ρ c (Proc.devRef .tc main_arg11) = m ((c : Thread nD τ).loc main_arg11) :=
  (W9_of_ne m ρ c main_arg11 (by decide)).trans (arg11_W8 m ρ c)
theorem arg11_W10 (c : Dev nD) : W10 m ρ c (Proc.devRef .tc main_arg11) = m ((c : Thread nD τ).loc main_arg11) :=
  (W10_of_ne m ρ c main_arg11 (by decide)).trans (arg11_W9 m ρ c)
theorem arg11_W11 (c : Dev nD) : W11 m ρ c (Proc.devRef .tc main_arg11) = m ((c : Thread nD τ).loc main_arg11) :=
  (show StableHlo.after hostOps7 (W10 m ρ c) (Proc.devRef .tc main_arg11) = W10 m ρ c (Proc.devRef .tc main_arg11) by host_skip hostOps7).trans (arg11_W10 m ρ c)

/-! ## The earlier outputs the two middle layers add back reach their regions -/

theorem v14_W4 (c : Dev nD) : W4 m ρ c (Proc.devRef .tc main_v14) = W3 m ρ c (Proc.devRef .tc main_v14) :=
  (W4_arr m ρ c 0).trans (((dat2 (V3 m ρ) c).arrAt_in 0 rfl _).trans (A_eq2 (V3 m ρ) c 0))
theorem v14_W5 (c : Dev nD) : W5 m ρ c (Proc.devRef .tc main_v14) = W3 m ρ c (Proc.devRef .tc main_v14) :=
  (show StableHlo.after hostOps3 (W4 m ρ c) (Proc.devRef .tc main_v14) = W4 m ρ c (Proc.devRef .tc main_v14) by host_skip hostOps3).trans (v14_W4 m ρ c)
theorem v29_W7 (c : Dev nD) : W7 m ρ c (Proc.devRef .tc main_v29) = W6 m ρ c (Proc.devRef .tc main_v29) :=
  (W7_arr m ρ c 0).trans (((dat4 (V6 m ρ) c).arrAt_in 0 rfl _).trans (A_eq4 (V6 m ρ) c 0))
theorem v29_W8 (c : Dev nD) : W8 m ρ c (Proc.devRef .tc main_v29) = W6 m ρ c (Proc.devRef .tc main_v29) :=
  (show StableHlo.after hostOps5 (W7 m ρ c) (Proc.devRef .tc main_v29) = W7 m ρ c (Proc.devRef .tc main_v29) by host_skip hostOps5).trans (v29_W7 m ρ c)

/-! ## What each segment leaves -/

theorem v0_W1 (c : Dev nD) : W1 m ρ c (Proc.devRef .tc main_v0)
    = Spec.dense (R := 100000) (K := 128) (M := 64) (m ((c : Thread nD τ).loc main_arg0)) (m ((c : Thread nD τ).loc main_arg4)) :=
  (W1_arr m ρ c 2).trans (Region0.final (V0 m ρ) c)

set_option maxHeartbeats 2000000 in
theorem v13_W2 (c : Dev nD) : W2 m ρ c (Proc.devRef .tc main_v13)
    = agg64 (W1 m ρ c (Proc.devRef .tc main_v0)) (W1 m ρ c (Proc.devRef .tc main_arg1)) (W1 m ρ c (Proc.devRef .tc main_arg2)) (W1 m ρ c (Proc.devRef .tc main_arg3)) := by
  show StableHlo.after hostOps1 (W1 m ρ c) (Proc.devRef .tc main_v13) = _
  after_results_simp <;> rfl

theorem v14_W3 (c : Dev nD) : W3 m ρ c (Proc.devRef .tc main_v14)
    = Spec.biasRelu (R := 100000) (M := 64) (W2 m ρ c (Proc.devRef .tc main_v13)) (W2 m ρ c (Proc.devRef .tc main_arg5)) :=
  (W3_arr m ρ c 2).trans (Region1.final (V2 m ρ) c)

theorem v15_W4 (c : Dev nD) : W4 m ρ c (Proc.devRef .tc main_v15)
    = Spec.dense (R := 100000) (K := 64) (M := 64) (W3 m ρ c (Proc.devRef .tc main_v14)) (W3 m ρ c (Proc.devRef .tc main_arg6)) :=
  (W4_arr m ρ c 2).trans (Region2.final (V3 m ρ) c)

set_option maxHeartbeats 2000000 in
theorem v28_W5 (c : Dev nD) : W5 m ρ c (Proc.devRef .tc main_v28)
    = agg64 (W4 m ρ c (Proc.devRef .tc main_v15)) (W4 m ρ c (Proc.devRef .tc main_arg1)) (W4 m ρ c (Proc.devRef .tc main_arg2)) (W4 m ρ c (Proc.devRef .tc main_arg3)) := by
  show StableHlo.after hostOps3 (W4 m ρ c) (Proc.devRef .tc main_v28) = _
  after_results_simp <;> rfl

theorem v29_W6 (c : Dev nD) : W6 m ρ c (Proc.devRef .tc main_v29)
    = Spec.biasReluRes (R := 100000) (M := 64) (W5 m ρ c (Proc.devRef .tc main_v28)) (W5 m ρ c (Proc.devRef .tc main_arg7)) (W5 m ρ c (Proc.devRef .tc main_v14)) :=
  (W6_arr m ρ c 3).trans (Region3.final (V5 m ρ) c)

theorem v30_W7 (c : Dev nD) : W7 m ρ c (Proc.devRef .tc main_v30)
    = Spec.dense (R := 100000) (K := 64) (M := 64) (W6 m ρ c (Proc.devRef .tc main_v29)) (W6 m ρ c (Proc.devRef .tc main_arg8)) :=
  (W7_arr m ρ c 2).trans (Region4.final (V6 m ρ) c)

set_option maxHeartbeats 2000000 in
theorem v43_W8 (c : Dev nD) : W8 m ρ c (Proc.devRef .tc main_v43)
    = agg64 (W7 m ρ c (Proc.devRef .tc main_v30)) (W7 m ρ c (Proc.devRef .tc main_arg1)) (W7 m ρ c (Proc.devRef .tc main_arg2)) (W7 m ρ c (Proc.devRef .tc main_arg3)) := by
  show StableHlo.after hostOps5 (W7 m ρ c) (Proc.devRef .tc main_v43) = _
  after_results_simp <;> rfl

theorem v44_W9 (c : Dev nD) : W9 m ρ c (Proc.devRef .tc main_v44)
    = Spec.biasReluRes (R := 100000) (M := 64) (W8 m ρ c (Proc.devRef .tc main_v43)) (W8 m ρ c (Proc.devRef .tc main_arg9)) (W8 m ρ c (Proc.devRef .tc main_v29)) :=
  (W9_arr m ρ c 3).trans (Region5.final (V8 m ρ) c)

theorem v45_W10 (c : Dev nD) : W10 m ρ c (Proc.devRef .tc main_v45)
    = Spec.dense (R := 100000) (K := 64) (M := 40) (W9 m ρ c (Proc.devRef .tc main_v44)) (W9 m ρ c (Proc.devRef .tc main_arg10)) :=
  (W10_arr m ρ c 2).trans (Region6.final (V9 m ρ) c)

set_option maxHeartbeats 2000000 in
theorem v58_W11 (c : Dev nD) : W11 m ρ c (Proc.devRef .tc main_v58)
    = agg40 (W10 m ρ c (Proc.devRef .tc main_v45)) (W10 m ρ c (Proc.devRef .tc main_arg1)) (W10 m ρ c (Proc.devRef .tc main_arg2)) (W10 m ρ c (Proc.devRef .tc main_arg3)) := by
  show StableHlo.after hostOps7 (W10 m ρ c) (Proc.devRef .tc main_v58) = _
  after_results_simp <;> rfl

theorem v59_W12 (c : Dev nD) : W12 m ρ c (Proc.devRef .tc main_v59)
    = Spec.biasLogSoftmax (R := 100000) (M := 40) (W11 m ρ c (Proc.devRef .tc main_v58)) (W11 m ρ c (Proc.devRef .tc main_arg11)) :=
  (W12_arr m ρ c 2).trans (Region7.final (V11 m ρ) c)

/-! ## The layers' outputs, and the result -/

/-- The first layer's output array. -/
theorem h1_eq (c : Dev nD) : W3 m ρ c (Proc.devRef .tc main_v14)
    = Cert.ReferenceIdeal.Hand.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [v14_W3, v13_W2, v0_W1, arg1_W1, arg2_W1, arg3_W1, arg5_W2, agg64_eq]
  rfl

/-- The second layer's output array. -/
theorem h2_eq (c : Dev nD) : W6 m ρ c (Proc.devRef .tc main_v29)
    = Cert.ReferenceIdeal.Hand.middle (Cert.ReferenceIdeal.Hand.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
        (m ((c : Thread nD τ).loc main_arg1)) (m ((c : Thread nD τ).loc main_arg2)) (m ((c : Thread nD τ).loc main_arg3)) (m ((c : Thread nD τ).loc main_arg6)) (m ((c : Thread nD τ).loc main_arg7)) := by
  rw [v29_W6, v28_W5, v15_W4, v14_W5, h1_eq, arg1_W4, arg2_W4, arg3_W4, arg6_W3, arg7_W5, agg64_eq]
  rfl

/-- The third layer's output array. -/
theorem h3_eq (c : Dev nD) : W9 m ρ c (Proc.devRef .tc main_v44)
    = Cert.ReferenceIdeal.Hand.middle (Cert.ReferenceIdeal.Hand.middle (Cert.ReferenceIdeal.Hand.layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
        (m ((c : Thread nD τ).loc main_arg1)) (m ((c : Thread nD τ).loc main_arg2)) (m ((c : Thread nD τ).loc main_arg3)) (m ((c : Thread nD τ).loc main_arg6)) (m ((c : Thread nD τ).loc main_arg7))) (m ((c : Thread nD τ).loc main_arg1)) (m ((c : Thread nD τ).loc main_arg2)) (m ((c : Thread nD τ).loc main_arg3)) (m ((c : Thread nD τ).loc main_arg8)) (m ((c : Thread nD τ).loc main_arg9)) := by
  rw [v44_W9, v43_W8, v30_W7, v29_W8, h2_eq, arg1_W7, arg2_W7, arg3_W7, arg8_W6, arg9_W8, agg64_eq]
  rfl

/-- The result buffer at the last boundary holds the network function of the launch contents of the twelve arguments. -/
theorem out_eq (c : Dev nD) : W12 m ρ c (Proc.devRef .tc main_v59)
    = Cert.ReferenceIdeal.Hand.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [v59_W12, v58_W11, v45_W10, h3_eq, arg1_W10, arg2_W10, arg3_W10, arg10_W9, arg11_W11, agg40_eq]
  rfl

end Cert.KernelIdeal.Chain

end
-- ==== Proof.RefCasts.lean ====
/-
  The buffers of the reference's called functions (relu, log_softmax) hold values of the buffers' own literal types: reading a
  value through a typed reference to such a buffer, or writing one, is the identity.
-/
import proofs.«120379_j40956808135036_1_alg».proof.Proof.Patched.ReferenceIdeal.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem toBuf_main_call0_cst (v : (⟨S_, .f32⟩ : BufTy).Contents (Elt F)) : (TRef.of (sig := sig) (T := ⟨S_, .f32⟩) main_call0_cst).toBuf v = v := rfl
theorem ofBuf_main_call0_cst (v : (⟨S_, .f32⟩ : BufTy).Contents (Elt F)) : (TRef.of (sig := sig) (T := ⟨S_, .f32⟩) main_call0_cst).ofBuf v = v := rfl
theorem toBuf_main_call0_v0 (v : (⟨S100000x64, .f32⟩ : BufTy).Contents (Elt F)) : (TRef.of (sig := sig) (T := ⟨S100000x64, .f32⟩) main_call0_v0).toBuf v = v := rfl
theorem ofBuf_main_call0_v0 (v : (⟨S100000x64, .f32⟩ : BufTy).Contents (Elt F)) : (TRef.of (sig := sig) (T := ⟨S100000x64, .f32⟩) main_call0_v0).ofBuf v = v := rfl
theorem toBuf_main_v16 (v : (⟨S100000x64, .f32⟩ : BufTy).Contents (Elt F)) : (TRef.of (sig := sig) (T := ⟨S100000x64, .f32⟩) main_v16).toBuf v = v := rfl
theorem ofBuf_main_v16 (v : (⟨S100000x64, .f32⟩ : BufTy).Contents (Elt F)) : (TRef.of (sig := sig) (T := ⟨S100000x64, .f32⟩) main_v16).ofBuf v = v := rfl
theorem toBuf_main_v17 (v : (⟨S100000x64, .f32⟩ : BufTy).Contents (Elt F)) : (TRef.of (sig := sig) (T := ⟨S100000x64, .f32⟩) main_v17).toBuf v = v := rfl
theorem ofBuf_main_v17 (v : (⟨S100000x64, .f32⟩ : BufTy).Contents (Elt F)) : (TRef.of (sig := sig) (T := ⟨S100000x64, .f32⟩) main_v17).ofBuf v = v := rfl
theorem toBuf_main_call1_cst (v : (⟨S_, .f32⟩ : BufTy).Contents (Elt F)) : (TRef.of (sig := sig) (T := ⟨S_, .f32⟩) main_call1_cst).toBuf v = v := rfl
theorem ofBuf_main_call1_cst (v : (⟨S_, .f32⟩ : BufTy).Contents (Elt F)) : (TRef.of (sig := sig) (T := ⟨S_, .f32⟩) main_call1_cst).ofBuf v = v := rfl
theorem toBuf_main_call1_v0 (v : (⟨S100000x64, .f32⟩ : BufTy).Contents (Elt F)) : (TRef.of (sig := sig) (T := ⟨S100000x64, .f32⟩) main_call1_v0).toBuf v = v := rfl
theorem ofBuf_main_call1_v0 (v : (⟨S100000x64, .f32⟩ : BufTy).Contents (Elt F)) : (TRef.of (sig := sig) (T := ⟨S100000x64, .f32⟩) main_call1_v0).ofBuf v = v := rfl
theorem toBuf_main_v34 (v : (⟨S100000x64, .f32⟩ : BufTy).Contents (Elt F)) : (TRef.of (sig := sig) (T := ⟨S100000x64, .f32⟩) main_v34).toBuf v = v := rfl
theorem ofBuf_main_v34 (v : (⟨S100000x64, .f32⟩ : BufTy).Contents (Elt F)) : (TRef.of (sig := sig) (T := ⟨S100000x64, .f32⟩) main_v34).ofBuf v = v := rfl
theorem toBuf_main_v35 (v : (⟨S100000x64, .f32⟩ : BufTy).Contents (Elt F)) : (TRef.of (sig := sig) (T := ⟨S100000x64, .f32⟩) main_v35).toBuf v = v := rfl
theorem ofBuf_main_v35 (v : (⟨S100000x64, .f32⟩ : BufTy).Contents (Elt F)) : (TRef.of (sig := sig) (T := ⟨S100000x64, .f32⟩) main_v35).ofBuf v = v := rfl
theorem toBuf_main_call2_cst (v : (⟨S_, .f32⟩ : BufTy).Contents (Elt F)) : (TRef.of (sig := sig) (T := ⟨S_, .f32⟩) main_call2_cst).toBuf v = v := rfl
theorem ofBuf_main_call2_cst (v : (⟨S_, .f32⟩ : BufTy).Contents (Elt F)) : (TRef.of (sig := sig) (T := ⟨S_, .f32⟩) main_call2_cst).ofBuf v = v := rfl
theorem toBuf_main_call2_v0 (v : (⟨S100000x64, .f32⟩ : BufTy).Contents (Elt F)) : (TRef.of (sig := sig) (T := ⟨S100000x64, .f32⟩) main_call2_v0).toBuf v = v := rfl
theorem ofBuf_main_call2_v0 (v : (⟨S100000x64, .f32⟩ : BufTy).Contents (Elt F)) : (TRef.of (sig := sig) (T := ⟨S100000x64, .f32⟩) main_call2_v0).ofBuf v = v := rfl
theorem toBuf_main_v53 (v : (⟨S100000x64, .f32⟩ : BufTy).Contents (Elt F)) : (TRef.of (sig := sig) (T := ⟨S100000x64, .f32⟩) main_v53).toBuf v = v := rfl
theorem ofBuf_main_v53 (v : (⟨S100000x64, .f32⟩ : BufTy).Contents (Elt F)) : (TRef.of (sig := sig) (T := ⟨S100000x64, .f32⟩) main_v53).ofBuf v = v := rfl
theorem toBuf_main_v54 (v : (⟨S100000x64, .f32⟩ : BufTy).Contents (Elt F)) : (TRef.of (sig := sig) (T := ⟨S100000x64, .f32⟩) main_v54).toBuf v = v := rfl
theorem ofBuf_main_v54 (v : (⟨S100000x64, .f32⟩ : BufTy).Contents (Elt F)) : (TRef.of (sig := sig) (T := ⟨S100000x64, .f32⟩) main_v54).ofBuf v = v := rfl
theorem toBuf_main_v72 (v : (⟨S100000x40, .f32⟩ : BufTy).Contents (Elt F)) : (TRef.of (sig := sig) (T := ⟨S100000x40, .f32⟩) main_v72).toBuf v = v := rfl
theorem ofBuf_main_v72 (v : (⟨S100000x40, .f32⟩ : BufTy).Contents (Elt F)) : (TRef.of (sig := sig) (T := ⟨S100000x40, .f32⟩) main_v72).ofBuf v = v := rfl
theorem toBuf_main_call3_cst (v : (⟨S_, .f32⟩ : BufTy).Contents (Elt F)) : (TRef.of (sig := sig) (T := ⟨S_, .f32⟩) main_call3_cst).toBuf v = v := rfl
theorem ofBuf_main_call3_cst (v : (⟨S_, .f32⟩ : BufTy).Contents (Elt F)) : (TRef.of (sig := sig) (T := ⟨S_, .f32⟩) main_call3_cst).ofBuf v = v := rfl
theorem toBuf_main_call3_v0 (v : (⟨S100000, .f32⟩ : BufTy).Contents (Elt F)) : (TRef.of (sig := sig) (T := ⟨S100000, .f32⟩) main_call3_v0).toBuf v = v := rfl
theorem ofBuf_main_call3_v0 (v : (⟨S100000, .f32⟩ : BufTy).Contents (Elt F)) : (TRef.of (sig := sig) (T := ⟨S100000, .f32⟩) main_call3_v0).ofBuf v = v := rfl
theorem toBuf_main_call3_cst_0 (v : (⟨S_, .f32⟩ : BufTy).Contents (Elt F)) : (TRef.of (sig := sig) (T := ⟨S_, .f32⟩) main_call3_cst_0).toBuf v = v := rfl
theorem ofBuf_main_call3_cst_0 (v : (⟨S_, .f32⟩ : BufTy).Contents (Elt F)) : (TRef.of (sig := sig) (T := ⟨S_, .f32⟩) main_call3_cst_0).ofBuf v = v := rfl
theorem toBuf_main_call3_v1 (v : (⟨S100000, .f32⟩ : BufTy).Contents (Elt F)) : (TRef.of (sig := sig) (T := ⟨S100000, .f32⟩) main_call3_v1).toBuf v = v := rfl
theorem ofBuf_main_call3_v1 (v : (⟨S100000, .f32⟩ : BufTy).Contents (Elt F)) : (TRef.of (sig := sig) (T := ⟨S100000, .f32⟩) main_call3_v1).ofBuf v = v := rfl
theorem toBuf_main_call3_v2 (v : (⟨S100000, .f32⟩ : BufTy).Contents (Elt F)) : (TRef.of (sig := sig) (T := ⟨S100000, .f32⟩) main_call3_v2).toBuf v = v := rfl
theorem ofBuf_main_call3_v2 (v : (⟨S100000, .f32⟩ : BufTy).Contents (Elt F)) : (TRef.of (sig := sig) (T := ⟨S100000, .f32⟩) main_call3_v2).ofBuf v = v := rfl
theorem toBuf_main_call3_v3 (v : (⟨S100000x1, .f32⟩ : BufTy).Contents (Elt F)) : (TRef.of (sig := sig) (T := ⟨S100000x1, .f32⟩) main_call3_v3).toBuf v = v := rfl
theorem ofBuf_main_call3_v3 (v : (⟨S100000x1, .f32⟩ : BufTy).Contents (Elt F)) : (TRef.of (sig := sig) (T := ⟨S100000x1, .f32⟩) main_call3_v3).ofBuf v = v := rfl
theorem toBuf_main_call3_v4 (v : (⟨S100000x40, .f32⟩ : BufTy).Contents (Elt F)) : (TRef.of (sig := sig) (T := ⟨S100000x40, .f32⟩) main_call3_v4).toBuf v = v := rfl
theorem ofBuf_main_call3_v4 (v : (⟨S100000x40, .f32⟩ : BufTy).Contents (Elt F)) : (TRef.of (sig := sig) (T := ⟨S100000x40, .f32⟩) main_call3_v4).ofBuf v = v := rfl
theorem toBuf_main_call3_v5 (v : (⟨S100000x40, .f32⟩ : BufTy).Contents (Elt F)) : (TRef.of (sig := sig) (T := ⟨S100000x40, .f32⟩) main_call3_v5).toBuf v = v := rfl
theorem ofBuf_main_call3_v5 (v : (⟨S100000x40, .f32⟩ : BufTy).Contents (Elt F)) : (TRef.of (sig := sig) (T := ⟨S100000x40, .f32⟩) main_call3_v5).ofBuf v = v := rfl
theorem toBuf_main_call3_v6 (v : (⟨S100000x40, .f32⟩ : BufTy).Contents (Elt F)) : (TRef.of (sig := sig) (T := ⟨S100000x40, .f32⟩) main_call3_v6).toBuf v = v := rfl
theorem ofBuf_main_call3_v6 (v : (⟨S100000x40, .f32⟩ : BufTy).Contents (Elt F)) : (TRef.of (sig := sig) (T := ⟨S100000x40, .f32⟩) main_call3_v6).ofBuf v = v := rfl
theorem toBuf_main_call3_cst_1 (v : (⟨S_, .f32⟩ : BufTy).Contents (Elt F)) : (TRef.of (sig := sig) (T := ⟨S_, .f32⟩) main_call3_cst_1).toBuf v = v := rfl
theorem ofBuf_main_call3_cst_1 (v : (⟨S_, .f32⟩ : BufTy).Contents (Elt F)) : (TRef.of (sig := sig) (T := ⟨S_, .f32⟩) main_call3_cst_1).ofBuf v = v := rfl
theorem toBuf_main_call3_v7 (v : (⟨S100000, .f32⟩ : BufTy).Contents (Elt F)) : (TRef.of (sig := sig) (T := ⟨S100000, .f32⟩) main_call3_v7).toBuf v = v := rfl
theorem ofBuf_main_call3_v7 (v : (⟨S100000, .f32⟩ : BufTy).Contents (Elt F)) : (TRef.of (sig := sig) (T := ⟨S100000, .f32⟩) main_call3_v7).ofBuf v = v := rfl
theorem toBuf_main_call3_v8 (v : (⟨S100000x1, .f32⟩ : BufTy).Contents (Elt F)) : (TRef.of (sig := sig) (T := ⟨S100000x1, .f32⟩) main_call3_v8).toBuf v = v := rfl
theorem ofBuf_main_call3_v8 (v : (⟨S100000x1, .f32⟩ : BufTy).Contents (Elt F)) : (TRef.of (sig := sig) (T := ⟨S100000x1, .f32⟩) main_call3_v8).ofBuf v = v := rfl
theorem toBuf_main_call3_v9 (v : (⟨S100000x1, .f32⟩ : BufTy).Contents (Elt F)) : (TRef.of (sig := sig) (T := ⟨S100000x1, .f32⟩) main_call3_v9).toBuf v = v := rfl
theorem ofBuf_main_call3_v9 (v : (⟨S100000x1, .f32⟩ : BufTy).Contents (Elt F)) : (TRef.of (sig := sig) (T := ⟨S100000x1, .f32⟩) main_call3_v9).ofBuf v = v := rfl
theorem toBuf_main_call3_v10 (v : (⟨S100000x40, .f32⟩ : BufTy).Contents (Elt F)) : (TRef.of (sig := sig) (T := ⟨S100000x40, .f32⟩) main_call3_v10).toBuf v = v := rfl
theorem ofBuf_main_call3_v10 (v : (⟨S100000x40, .f32⟩ : BufTy).Contents (Elt F)) : (TRef.of (sig := sig) (T := ⟨S100000x40, .f32⟩) main_call3_v10).ofBuf v = v := rfl
theorem toBuf_main_v73 (v : (⟨S100000x40, .f32⟩ : BufTy).Contents (Elt F)) : (TRef.of (sig := sig) (T := ⟨S100000x40, .f32⟩) main_v73).toBuf v = v := rfl
theorem ofBuf_main_v73 (v : (⟨S100000x40, .f32⟩ : BufTy).Contents (Elt F)) : (TRef.of (sig := sig) (T := ⟨S100000x40, .f32⟩) main_v73).ofBuf v = v := rfl

/-! The same for a value typed as a float vector. -/

theorem toBufV_main_call0_cst (v : FVec F S_ .f32) : TRef.toBuf (Val := Elt F) (TRef.of (sig := sig) (T := ⟨S_, .f32⟩) main_call0_cst) v = v := rfl
theorem ofBufV_main_call0_cst (v : FVec F S_ .f32) : TRef.ofBuf (Val := Elt F) (TRef.of (sig := sig) (T := ⟨S_, .f32⟩) main_call0_cst) v = v := rfl
theorem toBufV_main_call0_v0 (v : FVec F S100000x64 .f32) : TRef.toBuf (Val := Elt F) (TRef.of (sig := sig) (T := ⟨S100000x64, .f32⟩) main_call0_v0) v = v := rfl
theorem ofBufV_main_call0_v0 (v : FVec F S100000x64 .f32) : TRef.ofBuf (Val := Elt F) (TRef.of (sig := sig) (T := ⟨S100000x64, .f32⟩) main_call0_v0) v = v := rfl
theorem toBufV_main_v16 (v : FVec F S100000x64 .f32) : TRef.toBuf (Val := Elt F) (TRef.of (sig := sig) (T := ⟨S100000x64, .f32⟩) main_v16) v = v := rfl
theorem ofBufV_main_v16 (v : FVec F S100000x64 .f32) : TRef.ofBuf (Val := Elt F) (TRef.of (sig := sig) (T := ⟨S100000x64, .f32⟩) main_v16) v = v := rfl
theorem toBufV_main_v17 (v : FVec F S100000x64 .f32) : TRef.toBuf (Val := Elt F) (TRef.of (sig := sig) (T := ⟨S100000x64, .f32⟩) main_v17) v = v := rfl
theorem ofBufV_main_v17 (v : FVec F S100000x64 .f32) : TRef.ofBuf (Val := Elt F) (TRef.of (sig := sig) (T := ⟨S100000x64, .f32⟩) main_v17) v = v := rfl
theorem toBufV_main_call1_cst (v : FVec F S_ .f32) : TRef.toBuf (Val := Elt F) (TRef.of (sig := sig) (T := ⟨S_, .f32⟩) main_call1_cst) v = v := rfl
theorem ofBufV_main_call1_cst (v : FVec F S_ .f32) : TRef.ofBuf (Val := Elt F) (TRef.of (sig := sig) (T := ⟨S_, .f32⟩) main_call1_cst) v = v := rfl
theorem toBufV_main_call1_v0 (v : FVec F S100000x64 .f32) : TRef.toBuf (Val := Elt F) (TRef.of (sig := sig) (T := ⟨S100000x64, .f32⟩) main_call1_v0) v = v := rfl
theorem ofBufV_main_call1_v0 (v : FVec F S100000x64 .f32) : TRef.ofBuf (Val := Elt F) (TRef.of (sig := sig) (T := ⟨S100000x64, .f32⟩) main_call1_v0) v = v := rfl
theorem toBufV_main_v34 (v : FVec F S100000x64 .f32) : TRef.toBuf (Val := Elt F) (TRef.of (sig := sig) (T := ⟨S100000x64, .f32⟩) main_v34) v = v := rfl
theorem ofBufV_main_v34 (v : FVec F S100000x64 .f32) : TRef.ofBuf (Val := Elt F) (TRef.of (sig := sig) (T := ⟨S100000x64, .f32⟩) main_v34) v = v := rfl
theorem toBufV_main_v35 (v : FVec F S100000x64 .f32) : TRef.toBuf (Val := Elt F) (TRef.of (sig := sig) (T := ⟨S100000x64, .f32⟩) main_v35) v = v := rfl
theorem ofBufV_main_v35 (v : FVec F S100000x64 .f32) : TRef.ofBuf (Val := Elt F) (TRef.of (sig := sig) (T := ⟨S100000x64, .f32⟩) main_v35) v = v := rfl
theorem toBufV_main_call2_cst (v : FVec F S_ .f32) : TRef.toBuf (Val := Elt F) (TRef.of (sig := sig) (T := ⟨S_, .f32⟩) main_call2_cst) v = v := rfl
theorem ofBufV_main_call2_cst (v : FVec F S_ .f32) : TRef.ofBuf (Val := Elt F) (TRef.of (sig := sig) (T := ⟨S_, .f32⟩) main_call2_cst) v = v := rfl
theorem toBufV_main_call2_v0 (v : FVec F S100000x64 .f32) : TRef.toBuf (Val := Elt F) (TRef.of (sig := sig) (T := ⟨S100000x64, .f32⟩) main_call2_v0) v = v := rfl
theorem ofBufV_main_call2_v0 (v : FVec F S100000x64 .f32) : TRef.ofBuf (Val := Elt F) (TRef.of (sig := sig) (T := ⟨S100000x64, .f32⟩) main_call2_v0) v = v := rfl
theorem toBufV_main_v53 (v : FVec F S100000x64 .f32) : TRef.toBuf (Val := Elt F) (TRef.of (sig := sig) (T := ⟨S100000x64, .f32⟩) main_v53) v = v := rfl
theorem ofBufV_main_v53 (v : FVec F S100000x64 .f32) : TRef.ofBuf (Val := Elt F) (TRef.of (sig := sig) (T := ⟨S100000x64, .f32⟩) main_v53) v = v := rfl
theorem toBufV_main_v54 (v : FVec F S100000x64 .f32) : TRef.toBuf (Val := Elt F) (TRef.of (sig := sig) (T := ⟨S100000x64, .f32⟩) main_v54) v = v := rfl
theorem ofBufV_main_v54 (v : FVec F S100000x64 .f32) : TRef.ofBuf (Val := Elt F) (TRef.of (sig := sig) (T := ⟨S100000x64, .f32⟩) main_v54) v = v := rfl
theorem toBufV_main_v72 (v : FVec F S100000x40 .f32) : TRef.toBuf (Val := Elt F) (TRef.of (sig := sig) (T := ⟨S100000x40, .f32⟩) main_v72) v = v := rfl
theorem ofBufV_main_v72 (v : FVec F S100000x40 .f32) : TRef.ofBuf (Val := Elt F) (TRef.of (sig := sig) (T := ⟨S100000x40, .f32⟩) main_v72) v = v := rfl
theorem toBufV_main_call3_cst (v : FVec F S_ .f32) : TRef.toBuf (Val := Elt F) (TRef.of (sig := sig) (T := ⟨S_, .f32⟩) main_call3_cst) v = v := rfl
theorem ofBufV_main_call3_cst (v : FVec F S_ .f32) : TRef.ofBuf (Val := Elt F) (TRef.of (sig := sig) (T := ⟨S_, .f32⟩) main_call3_cst) v = v := rfl
theorem toBufV_main_call3_v0 (v : FVec F S100000 .f32) : TRef.toBuf (Val := Elt F) (TRef.of (sig := sig) (T := ⟨S100000, .f32⟩) main_call3_v0) v = v := rfl
theorem ofBufV_main_call3_v0 (v : FVec F S100000 .f32) : TRef.ofBuf (Val := Elt F) (TRef.of (sig := sig) (T := ⟨S100000, .f32⟩) main_call3_v0) v = v := rfl
theorem toBufV_main_call3_cst_0 (v : FVec F S_ .f32) : TRef.toBuf (Val := Elt F) (TRef.of (sig := sig) (T := ⟨S_, .f32⟩) main_call3_cst_0) v = v := rfl
theorem ofBufV_main_call3_cst_0 (v : FVec F S_ .f32) : TRef.ofBuf (Val := Elt F) (TRef.of (sig := sig) (T := ⟨S_, .f32⟩) main_call3_cst_0) v = v := rfl
theorem toBufV_main_call3_v1 (v : FVec F S100000 .f32) : TRef.toBuf (Val := Elt F) (TRef.of (sig := sig) (T := ⟨S100000, .f32⟩) main_call3_v1) v = v := rfl
theorem ofBufV_main_call3_v1 (v : FVec F S100000 .f32) : TRef.ofBuf (Val := Elt F) (TRef.of (sig := sig) (T := ⟨S100000, .f32⟩) main_call3_v1) v = v := rfl
theorem toBufV_main_call3_v2 (v : FVec F S100000 .f32) : TRef.toBuf (Val := Elt F) (TRef.of (sig := sig) (T := ⟨S100000, .f32⟩) main_call3_v2) v = v := rfl
theorem ofBufV_main_call3_v2 (v : FVec F S100000 .f32) : TRef.ofBuf (Val := Elt F) (TRef.of (sig := sig) (T := ⟨S100000, .f32⟩) main_call3_v2) v = v := rfl
theorem toBufV_main_call3_v3 (v : FVec F S100000x1 .f32) : TRef.toBuf (Val := Elt F) (TRef.of (sig := sig) (T := ⟨S100000x1, .f32⟩) main_call3_v3) v = v := rfl
theorem ofBufV_main_call3_v3 (v : FVec F S100000x1 .f32) : TRef.ofBuf (Val := Elt F) (TRef.of (sig := sig) (T := ⟨S100000x1, .f32⟩) main_call3_v3) v = v := rfl
theorem toBufV_main_call3_v4 (v : FVec F S100000x40 .f32) : TRef.toBuf (Val := Elt F) (TRef.of (sig := sig) (T := ⟨S100000x40, .f32⟩) main_call3_v4) v = v := rfl
theorem ofBufV_main_call3_v4 (v : FVec F S100000x40 .f32) : TRef.ofBuf (Val := Elt F) (TRef.of (sig := sig) (T := ⟨S100000x40, .f32⟩) main_call3_v4) v = v := rfl
theorem toBufV_main_call3_v5 (v : FVec F S100000x40 .f32) : TRef.toBuf (Val := Elt F) (TRef.of (sig := sig) (T := ⟨S100000x40, .f32⟩) main_call3_v5) v = v := rfl
theorem ofBufV_main_call3_v5 (v : FVec F S100000x40 .f32) : TRef.ofBuf (Val := Elt F) (TRef.of (sig := sig) (T := ⟨S100000x40, .f32⟩) main_call3_v5) v = v := rfl
theorem toBufV_main_call3_v6 (v : FVec F S100000x40 .f32) : TRef.toBuf (Val := Elt F) (TRef.of (sig := sig) (T := ⟨S100000x40, .f32⟩) main_call3_v6) v = v := rfl
theorem ofBufV_main_call3_v6 (v : FVec F S100000x40 .f32) : TRef.ofBuf (Val := Elt F) (TRef.of (sig := sig) (T := ⟨S100000x40, .f32⟩) main_call3_v6) v = v := rfl
theorem toBufV_main_call3_cst_1 (v : FVec F S_ .f32) : TRef.toBuf (Val := Elt F) (TRef.of (sig := sig) (T := ⟨S_, .f32⟩) main_call3_cst_1) v = v := rfl
theorem ofBufV_main_call3_cst_1 (v : FVec F S_ .f32) : TRef.ofBuf (Val := Elt F) (TRef.of (sig := sig) (T := ⟨S_, .f32⟩) main_call3_cst_1) v = v := rfl
theorem toBufV_main_call3_v7 (v : FVec F S100000 .f32) : TRef.toBuf (Val := Elt F) (TRef.of (sig := sig) (T := ⟨S100000, .f32⟩) main_call3_v7) v = v := rfl
theorem ofBufV_main_call3_v7 (v : FVec F S100000 .f32) : TRef.ofBuf (Val := Elt F) (TRef.of (sig := sig) (T := ⟨S100000, .f32⟩) main_call3_v7) v = v := rfl
theorem toBufV_main_call3_v8 (v : FVec F S100000x1 .f32) : TRef.toBuf (Val := Elt F) (TRef.of (sig := sig) (T := ⟨S100000x1, .f32⟩) main_call3_v8) v = v := rfl
theorem ofBufV_main_call3_v8 (v : FVec F S100000x1 .f32) : TRef.ofBuf (Val := Elt F) (TRef.of (sig := sig) (T := ⟨S100000x1, .f32⟩) main_call3_v8) v = v := rfl
theorem toBufV_main_call3_v9 (v : FVec F S100000x1 .f32) : TRef.toBuf (Val := Elt F) (TRef.of (sig := sig) (T := ⟨S100000x1, .f32⟩) main_call3_v9) v = v := rfl
theorem ofBufV_main_call3_v9 (v : FVec F S100000x1 .f32) : TRef.ofBuf (Val := Elt F) (TRef.of (sig := sig) (T := ⟨S100000x1, .f32⟩) main_call3_v9) v = v := rfl
theorem toBufV_main_call3_v10 (v : FVec F S100000x40 .f32) : TRef.toBuf (Val := Elt F) (TRef.of (sig := sig) (T := ⟨S100000x40, .f32⟩) main_call3_v10) v = v := rfl
theorem ofBufV_main_call3_v10 (v : FVec F S100000x40 .f32) : TRef.ofBuf (Val := Elt F) (TRef.of (sig := sig) (T := ⟨S100000x40, .f32⟩) main_call3_v10) v = v := rfl
theorem toBufV_main_v73 (v : FVec F S100000x40 .f32) : TRef.toBuf (Val := Elt F) (TRef.of (sig := sig) (T := ⟨S100000x40, .f32⟩) main_v73) v = v := rfl
theorem ofBufV_main_v73 (v : FVec F S100000x40 .f32) : TRef.ofBuf (Val := Elt F) (TRef.of (sig := sig) (T := ⟨S100000x40, .f32⟩) main_v73) v = v := rfl

end Cert.ReferenceIdeal.Hand

end
-- ==== Proof.RefRun.lean ====
/-
  The idealized reference's run with its result named.

  @main is a straight line of host operations, so every weakly fair execution terminates with each buffer at the fold of
  the operations over the launch memory, and no operation writes an argument. The fold at the result buffer is read one
  layer's stretch of operations at a time: after each stretch the layer's output buffer holds the layer's stage of the
  arguments, and the arguments (and the earlier outputs still to be read) are as they were.
-/
import proofs.«120379_j40956808135036_1_alg».proof.Proof.Patched.ReferenceIdeal.Read
import proofs.«120379_j40956808135036_1_alg».proof.Proof.RefCasts

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Folding a line of operations in two stretches. -/
theorem after_append (l1 l2 : List (HloOp τ sig (Elt Ideal))) (V : Valuation τ sig (Elt Ideal)) :
    after (l1 ++ l2) V = after l2 (after l1 V) := by
  induction l1 generalizing V with
  | nil => rfl
  | cons op l ih => exact ih _

/-- The four layers' stretches of @main's 106 operations. -/
def L1 : List (HloOp τ sig (Elt Ideal)) := (ops (F := Ideal)).take 23
def L2 : List (HloOp τ sig (Elt Ideal)) := ((ops (F := Ideal)).drop 23).take 24
def L3 : List (HloOp τ sig (Elt Ideal)) := ((ops (F := Ideal)).drop 47).take 24
def L4 : List (HloOp τ sig (Elt Ideal)) := (ops (F := Ideal)).drop 71

theorem ops_split : (ops (F := Ideal)) = L1 ++ (L2 ++ (L3 ++ L4)) := by
  unfold L1 L2 L3 L4
  simp only [ops, List.take_succ_cons, List.take_zero, List.drop_succ_cons, List.drop_zero, List.cons_append, List.nil_append]

variable (m : (ℓ : Loc nD τ sig) → Buf (Elt Ideal) ℓ) (ρ : Dev nD → PrngReg)

/-- The buffers after each layer's stretch. -/
def U1 (c : Dev nD) : Valuation τ sig (Elt Ideal) := after L1 (launchContents m c)
def U2 (c : Dev nD) : Valuation τ sig (Elt Ideal) := after L2 (U1 m c)
def U3 (c : Dev nD) : Valuation τ sig (Elt Ideal) := after L3 (U2 m c)

/-! ## The arguments after each stretch -/

set_option maxHeartbeats 2000000 in
theorem u1_arg1 (c : Dev nD) : U1 m c (Proc.devRef .tc main_arg1) = m ((c.tc : Thread nD τ).loc main_arg1) := by
  show after L1 (launchContents m c) (Proc.devRef .tc main_arg1) = _
  unfold L1
  simp only [ops, List.take_succ_cons, List.take_zero, List.drop_succ_cons, List.drop_zero]
  after_results_simp <;> rfl
set_option maxHeartbeats 2000000 in
theorem u1_arg2 (c : Dev nD) : U1 m c (Proc.devRef .tc main_arg2) = m ((c.tc : Thread nD τ).loc main_arg2) := by
  show after L1 (launchContents m c) (Proc.devRef .tc main_arg2) = _
  unfold L1
  simp only [ops, List.take_succ_cons, List.take_zero, List.drop_succ_cons, List.drop_zero]
  after_results_simp <;> rfl
set_option maxHeartbeats 2000000 in
theorem u1_arg3 (c : Dev nD) : U1 m c (Proc.devRef .tc main_arg3) = m ((c.tc : Thread nD τ).loc main_arg3) := by
  show after L1 (launchContents m c) (Proc.devRef .tc main_arg3) = _
  unfold L1
  simp only [ops, List.take_succ_cons, List.take_zero, List.drop_succ_cons, List.drop_zero]
  after_results_simp <;> rfl
set_option maxHeartbeats 2000000 in
theorem u1_arg6 (c : Dev nD) : U1 m c (Proc.devRef .tc main_arg6) = m ((c.tc : Thread nD τ).loc main_arg6) := by
  show after L1 (launchContents m c) (Proc.devRef .tc main_arg6) = _
  unfold L1
  simp only [ops, List.take_succ_cons, List.take_zero, List.drop_succ_cons, List.drop_zero]
  after_results_simp <;> rfl
set_option maxHeartbeats 2000000 in
theorem u1_arg7 (c : Dev nD) : U1 m c (Proc.devRef .tc main_arg7) = m ((c.tc : Thread nD τ).loc main_arg7) := by
  show after L1 (launchContents m c) (Proc.devRef .tc main_arg7) = _
  unfold L1
  simp only [ops, List.take_succ_cons, List.take_zero, List.drop_succ_cons, List.drop_zero]
  after_results_simp <;> rfl
set_option maxHeartbeats 2000000 in
theorem u1_arg8 (c : Dev nD) : U1 m c (Proc.devRef .tc main_arg8) = m ((c.tc : Thread nD τ).loc main_arg8) := by
  show after L1 (launchContents m c) (Proc.devRef .tc main_arg8) = _
  unfold L1
  simp only [ops, List.take_succ_cons, List.take_zero, List.drop_succ_cons, List.drop_zero]
  after_results_simp <;> rfl
set_option maxHeartbeats 2000000 in
theorem u1_arg9 (c : Dev nD) : U1 m c (Proc.devRef .tc main_arg9) = m ((c.tc : Thread nD τ).loc main_arg9) := by
  show after L1 (launchContents m c) (Proc.devRef .tc main_arg9) = _
  unfold L1
  simp only [ops, List.take_succ_cons, List.take_zero, List.drop_succ_cons, List.drop_zero]
  after_results_simp <;> rfl
set_option maxHeartbeats 2000000 in
theorem u1_arg10 (c : Dev nD) : U1 m c (Proc.devRef .tc main_arg10) = m ((c.tc : Thread nD τ).loc main_arg10) := by
  show after L1 (launchContents m c) (Proc.devRef .tc main_arg10) = _
  unfold L1
  simp only [ops, List.take_succ_cons, List.take_zero, List.drop_succ_cons, List.drop_zero]
  after_results_simp <;> rfl
set_option maxHeartbeats 2000000 in
theorem u1_arg11 (c : Dev nD) : U1 m c (Proc.devRef .tc main_arg11) = m ((c.tc : Thread nD τ).loc main_arg11) := by
  show after L1 (launchContents m c) (Proc.devRef .tc main_arg11) = _
  unfold L1
  simp only [ops, List.take_succ_cons, List.take_zero, List.drop_succ_cons, List.drop_zero]
  after_results_simp <;> rfl
set_option maxHeartbeats 2000000 in
theorem u2_arg1 (c : Dev nD) : U2 m c (Proc.devRef .tc main_arg1) = m ((c.tc : Thread nD τ).loc main_arg1) := by
  show after L2 (U1 m c) (Proc.devRef .tc main_arg1) = _
  unfold L2
  simp only [ops, List.take_succ_cons, List.take_zero, List.drop_succ_cons, List.drop_zero]
  after_results_simp
  exact u1_arg1 m c
set_option maxHeartbeats 2000000 in
theorem u2_arg2 (c : Dev nD) : U2 m c (Proc.devRef .tc main_arg2) = m ((c.tc : Thread nD τ).loc main_arg2) := by
  show after L2 (U1 m c) (Proc.devRef .tc main_arg2) = _
  unfold L2
  simp only [ops, List.take_succ_cons, List.take_zero, List.drop_succ_cons, List.drop_zero]
  after_results_simp
  exact u1_arg2 m c
set_option maxHeartbeats 2000000 in
theorem u2_arg3 (c : Dev nD) : U2 m c (Proc.devRef .tc main_arg3) = m ((c.tc : Thread nD τ).loc main_arg3) := by
  show after L2 (U1 m c) (Proc.devRef .tc main_arg3) = _
  unfold L2
  simp only [ops, List.take_succ_cons, List.take_zero, List.drop_succ_cons, List.drop_zero]
  after_results_simp
  exact u1_arg3 m c
set_option maxHeartbeats 2000000 in
theorem u2_arg8 (c : Dev nD) : U2 m c (Proc.devRef .tc main_arg8) = m ((c.tc : Thread nD τ).loc main_arg8) := by
  show after L2 (U1 m c) (Proc.devRef .tc main_arg8) = _
  unfold L2
  simp only [ops, List.take_succ_cons, List.take_zero, List.drop_succ_cons, List.drop_zero]
  after_results_simp
  exact u1_arg8 m c
set_option maxHeartbeats 2000000 in
theorem u2_arg9 (c : Dev nD) : U2 m c (Proc.devRef .tc main_arg9) = m ((c.tc : Thread nD τ).loc main_arg9) := by
  show after L2 (U1 m c) (Proc.devRef .tc main_arg9) = _
  unfold L2
  simp only [ops, List.take_succ_cons, List.take_zero, List.drop_succ_cons, List.drop_zero]
  after_results_simp
  exact u1_arg9 m c
set_option maxHeartbeats 2000000 in
theorem u2_arg10 (c : Dev nD) : U2 m c (Proc.devRef .tc main_arg10) = m ((c.tc : Thread nD τ).loc main_arg10) := by
  show after L2 (U1 m c) (Proc.devRef .tc main_arg10) = _
  unfold L2
  simp only [ops, List.take_succ_cons, List.take_zero, List.drop_succ_cons, List.drop_zero]
  after_results_simp
  exact u1_arg10 m c
set_option maxHeartbeats 2000000 in
theorem u2_arg11 (c : Dev nD) : U2 m c (Proc.devRef .tc main_arg11) = m ((c.tc : Thread nD τ).loc main_arg11) := by
  show after L2 (U1 m c) (Proc.devRef .tc main_arg11) = _
  unfold L2
  simp only [ops, List.take_succ_cons, List.take_zero, List.drop_succ_cons, List.drop_zero]
  after_results_simp
  exact u1_arg11 m c
set_option maxHeartbeats 2000000 in
theorem u3_arg1 (c : Dev nD) : U3 m c (Proc.devRef .tc main_arg1) = m ((c.tc : Thread nD τ).loc main_arg1) := by
  show after L3 (U2 m c) (Proc.devRef .tc main_arg1) = _
  unfold L3
  simp only [ops, List.take_succ_cons, List.take_zero, List.drop_succ_cons, List.drop_zero]
  after_results_simp
  exact u2_arg1 m c
set_option maxHeartbeats 2000000 in
theorem u3_arg2 (c : Dev nD) : U3 m c (Proc.devRef .tc main_arg2) = m ((c.tc : Thread nD τ).loc main_arg2) := by
  show after L3 (U2 m c) (Proc.devRef .tc main_arg2) = _
  unfold L3
  simp only [ops, List.take_succ_cons, List.take_zero, List.drop_succ_cons, List.drop_zero]
  after_results_simp
  exact u2_arg2 m c
set_option maxHeartbeats 2000000 in
theorem u3_arg3 (c : Dev nD) : U3 m c (Proc.devRef .tc main_arg3) = m ((c.tc : Thread nD τ).loc main_arg3) := by
  show after L3 (U2 m c) (Proc.devRef .tc main_arg3) = _
  unfold L3
  simp only [ops, List.take_succ_cons, List.take_zero, List.drop_succ_cons, List.drop_zero]
  after_results_simp
  exact u2_arg3 m c
set_option maxHeartbeats 2000000 in
theorem u3_arg10 (c : Dev nD) : U3 m c (Proc.devRef .tc main_arg10) = m ((c.tc : Thread nD τ).loc main_arg10) := by
  show after L3 (U2 m c) (Proc.devRef .tc main_arg10) = _
  unfold L3
  simp only [ops, List.take_succ_cons, List.take_zero, List.drop_succ_cons, List.drop_zero]
  after_results_simp
  exact u2_arg10 m c
set_option maxHeartbeats 2000000 in
theorem u3_arg11 (c : Dev nD) : U3 m c (Proc.devRef .tc main_arg11) = m ((c.tc : Thread nD τ).loc main_arg11) := by
  show after L3 (U2 m c) (Proc.devRef .tc main_arg11) = _
  unfold L3
  simp only [ops, List.take_succ_cons, List.take_zero, List.drop_succ_cons, List.drop_zero]
  after_results_simp
  exact u2_arg11 m c

/-! ## The layers' outputs -/

set_option maxHeartbeats 4000000 in
theorem u1_v17 (c : Dev nD) : U1 m c (Proc.devRef .tc main_v17) = val_main_v17 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after L1 (launchContents m c) (Proc.devRef .tc main_v17) = _
  unfold L1
  simp only [ops, List.take_succ_cons, List.take_zero, List.drop_succ_cons, List.drop_zero]
  after_results_simp
  simp only [toBuf_main_v17, ofBuf_main_v17, toBuf_main_v16, ofBuf_main_v16, toBuf_main_call0_v0, ofBuf_main_call0_v0, toBuf_main_call0_cst, ofBuf_main_call0_cst]
  rw [toBufV_main_v17, ofBufV_main_v16, toBufV_main_call0_cst]
  unfold val_main_v17 val_main_v16 val_main_v15 val_main_v14 val_main_v13 val_main_v12 val_main_v11 val_main_cst val_main_v10 val_main_v9 val_main_v8 val_main_v7 val_main_v6 val_main_v5 val_main_v4 val_main_v3 val_main_c_0 val_main_v2 val_main_v1 val_main_c val_main_v0 val_main_call0_v0 val_main_call0_cst
  first | with_reducible rfl | fail "the two terms differ"

set_option maxHeartbeats 4000000 in
theorem u2_v36 (c : Dev nD) : U2 m c (Proc.devRef .tc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after L2 (U1 m c) (Proc.devRef .tc main_v36) = _
  unfold L2
  simp only [ops, List.take_succ_cons, List.take_zero, List.drop_succ_cons, List.drop_zero]
  after_results_simp
  simp only [toBuf_main_v35, ofBuf_main_v35, toBuf_main_v34, ofBuf_main_v34, toBuf_main_call1_v0, ofBuf_main_call1_v0, toBuf_main_call1_cst, ofBuf_main_call1_cst]
  rw [toBufV_main_v35, ofBufV_main_v34, toBufV_main_call1_cst]
  rw [u1_v17, u1_arg1, u1_arg2, u1_arg3, u1_arg6, u1_arg7]
  unfold val_main_v36 val_main_v35 val_main_v34 val_main_v33 val_main_v32 val_main_v31 val_main_v30 val_main_v29 val_main_cst_3 val_main_v28 val_main_v27 val_main_v26 val_main_v25 val_main_v24 val_main_v23 val_main_v22 val_main_v21 val_main_c_2 val_main_v20 val_main_v19 val_main_c_1 val_main_v18 val_main_call1_v0 val_main_call1_cst
  first | with_reducible rfl | fail "the two terms differ"

set_option maxHeartbeats 4000000 in
theorem u3_v55 (c : Dev nD) : U3 m c (Proc.devRef .tc main_v55) = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show after L3 (U2 m c) (Proc.devRef .tc main_v55) = _
  unfold L3
  simp only [ops, List.take_succ_cons, List.take_zero, List.drop_succ_cons, List.drop_zero]
  after_results_simp
  simp only [toBuf_main_v54, ofBuf_main_v54, toBuf_main_v53, ofBuf_main_v53, toBuf_main_call2_v0, ofBuf_main_call2_v0, toBuf_main_call2_cst, ofBuf_main_call2_cst]
  rw [toBufV_main_v54, ofBufV_main_v53, toBufV_main_call2_cst]
  rw [u2_v36, u2_arg1, u2_arg2, u2_arg3, u2_arg8, u2_arg9]
  unfold val_main_v55 val_main_v54 val_main_v53 val_main_v52 val_main_v51 val_main_v50 val_main_v49 val_main_v48 val_main_cst_6 val_main_v47 val_main_v46 val_main_v45 val_main_v44 val_main_v43 val_main_v42 val_main_v41 val_main_v40 val_main_c_5 val_main_v39 val_main_v38 val_main_c_4 val_main_v37 val_main_call2_v0 val_main_call2_cst
  first | with_reducible rfl | fail "the two terms differ"

set_option maxHeartbeats 4000000 in
theorem u4_v73 (c : Dev nD) : after L4 (U3 m c) (Proc.devRef .tc main_v73) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold L4
  simp only [ops, List.take_succ_cons, List.take_zero, List.drop_succ_cons, List.drop_zero]
  after_results_simp
  repeat rw [ofBuf_main_v73]
  repeat rw [toBuf_main_v73]
  repeat rw [ofBuf_main_v72]
  repeat rw [toBuf_main_v72]
  repeat rw [ofBuf_main_call3_cst]
  repeat rw [toBuf_main_call3_cst]
  repeat rw [ofBuf_main_call3_v0]
  repeat rw [toBuf_main_call3_v0]
  repeat rw [ofBuf_main_call3_cst_0]
  repeat rw [toBuf_main_call3_cst_0]
  repeat rw [ofBuf_main_call3_v1]
  repeat rw [toBuf_main_call3_v1]
  repeat rw [ofBuf_main_call3_v2]
  repeat rw [toBuf_main_call3_v2]
  repeat rw [ofBuf_main_call3_v3]
  repeat rw [toBuf_main_call3_v3]
  repeat rw [ofBuf_main_call3_v4]
  repeat rw [toBuf_main_call3_v4]
  repeat rw [ofBuf_main_call3_v5]
  repeat rw [toBuf_main_call3_v5]
  repeat rw [ofBuf_main_call3_v6]
  repeat rw [toBuf_main_call3_v6]
  repeat rw [ofBuf_main_call3_cst_1]
  repeat rw [toBuf_main_call3_cst_1]
  repeat rw [ofBuf_main_call3_v7]
  repeat rw [toBuf_main_call3_v7]
  repeat rw [ofBuf_main_call3_v8]
  repeat rw [toBuf_main_call3_v8]
  repeat rw [ofBuf_main_call3_v9]
  repeat rw [toBuf_main_call3_v9]
  repeat rw [ofBuf_main_call3_v10]
  repeat rw [toBuf_main_call3_v10]
  repeat rw [toBufV_main_v73]
  repeat rw [ofBufV_main_v73]
  repeat rw [toBufV_main_v72]
  repeat rw [ofBufV_main_v72]
  repeat rw [toBufV_main_call3_cst]
  repeat rw [ofBufV_main_call3_cst]
  repeat rw [toBufV_main_call3_v0]
  repeat rw [ofBufV_main_call3_v0]
  repeat rw [toBufV_main_call3_cst_0]
  repeat rw [ofBufV_main_call3_cst_0]
  repeat rw [toBufV_main_call3_v1]
  repeat rw [ofBufV_main_call3_v1]
  repeat rw [toBufV_main_call3_v2]
  repeat rw [ofBufV_main_call3_v2]
  repeat rw [toBufV_main_call3_v3]
  repeat rw [ofBufV_main_call3_v3]
  repeat rw [toBufV_main_call3_v4]
  repeat rw [ofBufV_main_call3_v4]
  repeat rw [toBufV_main_call3_v5]
  repeat rw [ofBufV_main_call3_v5]
  repeat rw [toBufV_main_call3_v6]
  repeat rw [ofBufV_main_call3_v6]
  repeat rw [toBufV_main_call3_cst_1]
  repeat rw [ofBufV_main_call3_cst_1]
  repeat rw [toBufV_main_call3_v7]
  repeat rw [ofBufV_main_call3_v7]
  repeat rw [toBufV_main_call3_v8]
  repeat rw [ofBufV_main_call3_v8]
  repeat rw [toBufV_main_call3_v9]
  repeat rw [ofBufV_main_call3_v9]
  repeat rw [toBufV_main_call3_v10]
  repeat rw [ofBufV_main_call3_v10]
  rw [u3_v55, u3_arg1, u3_arg2, u3_arg3, u3_arg10, u3_arg11]
  unfold val_main_v73 val_main_call3_v10 val_main_call3_v9 val_main_call3_v8 val_main_call3_v7 val_main_call3_cst_1 val_main_call3_v6 val_main_call3_v5 val_main_call3_v4 val_main_call3_v3 val_main_call3_v2 val_main_call3_v1 val_main_call3_cst_0 val_main_call3_v0 val_main_call3_cst val_main_v72 val_main_v71 val_main_v70 val_main_v69 val_main_v68 val_main_v67 val_main_cst_9 val_main_v66 val_main_v65 val_main_v64 val_main_v63 val_main_v62 val_main_v61 val_main_v60 val_main_v59 val_main_c_8 val_main_v58 val_main_v57 val_main_c_7 val_main_v56
  first | with_reducible rfl | fail "the two terms differ"

/-- The fold of @main's operations at the result buffer is the last stage of the arguments' launch contents. -/
theorem after_out (c : Dev nD) : after (ops (F := Ideal)) (launchContents m c) (Proc.devRef .tc main_v73)
    = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [ops_split, after_append, after_append, after_append]
  exact u4_v73 m c

/-! ## No operation writes an argument -/

set_option maxHeartbeats 4000000 in
theorem after_arg0 (c : Dev nD) : after (ops (F := Ideal)) (launchContents m c) (Proc.devRef .tc main_arg0) = m ((c.tc : Thread nD τ).loc main_arg0) := by
  after_results_simp <;> rfl
set_option maxHeartbeats 4000000 in
theorem after_arg1 (c : Dev nD) : after (ops (F := Ideal)) (launchContents m c) (Proc.devRef .tc main_arg1) = m ((c.tc : Thread nD τ).loc main_arg1) := by
  after_results_simp <;> rfl
set_option maxHeartbeats 4000000 in
theorem after_arg2 (c : Dev nD) : after (ops (F := Ideal)) (launchContents m c) (Proc.devRef .tc main_arg2) = m ((c.tc : Thread nD τ).loc main_arg2) := by
  after_results_simp <;> rfl
set_option maxHeartbeats 4000000 in
theorem after_arg3 (c : Dev nD) : after (ops (F := Ideal)) (launchContents m c) (Proc.devRef .tc main_arg3) = m ((c.tc : Thread nD τ).loc main_arg3) := by
  after_results_simp <;> rfl
set_option maxHeartbeats 4000000 in
theorem after_arg4 (c : Dev nD) : after (ops (F := Ideal)) (launchContents m c) (Proc.devRef .tc main_arg4) = m ((c.tc : Thread nD τ).loc main_arg4) := by
  after_results_simp <;> rfl
set_option maxHeartbeats 4000000 in
theorem after_arg5 (c : Dev nD) : after (ops (F := Ideal)) (launchContents m c) (Proc.devRef .tc main_arg5) = m ((c.tc : Thread nD τ).loc main_arg5) := by
  after_results_simp <;> rfl
set_option maxHeartbeats 4000000 in
theorem after_arg6 (c : Dev nD) : after (ops (F := Ideal)) (launchContents m c) (Proc.devRef .tc main_arg6) = m ((c.tc : Thread nD τ).loc main_arg6) := by
  after_results_simp <;> rfl
set_option maxHeartbeats 4000000 in
theorem after_arg7 (c : Dev nD) : after (ops (F := Ideal)) (launchContents m c) (Proc.devRef .tc main_arg7) = m ((c.tc : Thread nD τ).loc main_arg7) := by
  after_results_simp <;> rfl
set_option maxHeartbeats 4000000 in
theorem after_arg8 (c : Dev nD) : after (ops (F := Ideal)) (launchContents m c) (Proc.devRef .tc main_arg8) = m ((c.tc : Thread nD τ).loc main_arg8) := by
  after_results_simp <;> rfl
set_option maxHeartbeats 4000000 in
theorem after_arg9 (c : Dev nD) : after (ops (F := Ideal)) (launchContents m c) (Proc.devRef .tc main_arg9) = m ((c.tc : Thread nD τ).loc main_arg9) := by
  after_results_simp <;> rfl
set_option maxHeartbeats 4000000 in
theorem after_arg10 (c : Dev nD) : after (ops (F := Ideal)) (launchContents m c) (Proc.devRef .tc main_arg10) = m ((c.tc : Thread nD τ).loc main_arg10) := by
  after_results_simp <;> rfl
set_option maxHeartbeats 4000000 in
theorem after_arg11 (c : Dev nD) : after (ops (F := Ideal)) (launchContents m c) (Proc.devRef .tc main_arg11) = m ((c.tc : Thread nD τ).loc main_arg11) := by
  after_results_simp <;> rfl

/-- Every weakly fair execution of the reference's @main terminates, nothing faulting, with the result at the last stage
    of the arguments and the arguments as launched. -/
theorem run : θ_run defs (onTc (τ := τ) (main (F := Ideal))) ⟨m, fun _ => 0, ρ⟩ fun r => ∀ c : Dev nD,
      r.2.mem ((c.tc : Thread nD τ).loc main_v73) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v73).trans (after_out m c),
      (h c main_arg0).trans (after_arg0 m c),
      (h c main_arg1).trans (after_arg1 m c),
      (h c main_arg2).trans (after_arg2 m c),
      (h c main_arg3).trans (after_arg3 m c),
      (h c main_arg4).trans (after_arg4 m c),
      (h c main_arg5).trans (after_arg5 m c),
      (h c main_arg6).trans (after_arg6 m c),
      (h c main_arg7).trans (after_arg7 m c),
      (h c main_arg8).trans (after_arg8 m c),
      (h c main_arg9).trans (after_arg9 m c),
      (h c main_arg10).trans (after_arg10 m c),
      (h c main_arg11).trans (after_arg11 m c)⟩)
    (run_seq scopedRefs_eq scopedSems_eq defs main (fun _ => ops) main_eq (fun _ => ops_sub) m ρ)

end Cert.ReferenceIdeal.Hand

end
-- ==== Proof.RefStages.lean ====
/-
  The idealized reference's dense stages read as whole-array functions: each dot_general is every row times the weight
  matrix (its entry is the sum over the one contracted coordinate); a bias is broadcast along the rows, the relu is a
  maximum with the zero splat, and a middle layer adds its input back.
-/
import proofs.«120379_j40956808135036_1_alg».proof.Proof.Patched.ReferenceIdeal.Read
import proofs.«120379_j40956808135036_1_alg».proof.Proof.Network
import proofs.«120379_j40956808135036_1_alg».proof.Proof.LibLayers

noncomputable section

open scoped BigOperators

namespace Cert.ReferenceIdeal.Hand

open Cert.ReferenceIdeal Cert.ReferenceIdeal.Gen Cert.ReferenceIdeal.ReadP
open Idealize.ShloMosaic Idealize.ShloMosaic.ValueIdx Idealize.ShloMosaic.TcCoe Idealize.SL.Sem

/-! ## The four products -/

/-- The reference's product is every row times the weight matrix. -/
theorem dense0 (x0 : (⟨S100000x128, .f32⟩ : BufTy).Contents (Elt Ideal)) (x4 : (⟨S128x64, .f32⟩ : BufTy).Contents (Elt Ideal)) :
    val_main_v0 (F := Ideal) x0 x4 = Spec.dense (R := 100000) (K := 128) (M := 64) (x0) x4 := by
  funext i
  refine (val_main_v0_apply x0 x4 i).trans ?_
  unfold Spec.dense
  exact Finset.sum_congr rfl fun k _ => congrArg₂ (· * ·)
    (congrArg (x0) (funext fun a => by match a with | ⟨0, _⟩ => rfl | ⟨1, _⟩ => rfl))
    (congrArg x4 (funext fun a => by match a with | ⟨0, _⟩ => rfl | ⟨1, _⟩ => rfl))

/-- The reference's product is every row times the weight matrix. -/
theorem dense1 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) :
    val_main_v18 (F := Ideal) x0 x1 x2 x3 x4 x5 x6 = Spec.dense (R := 100000) (K := 64) (M := 64) (val_main_v17 (F := Ideal) x0 x1 x2 x3 x4 x5) x6 := by
  funext i
  refine (val_main_v18_apply x0 x1 x2 x3 x4 x5 x6 i).trans ?_
  unfold Spec.dense
  exact Finset.sum_congr rfl fun k _ => congrArg₂ (· * ·)
    (congrArg (val_main_v17 (F := Ideal) x0 x1 x2 x3 x4 x5) (funext fun a => by match a with | ⟨0, _⟩ => rfl | ⟨1, _⟩ => rfl))
    (congrArg x6 (funext fun a => by match a with | ⟨0, _⟩ => rfl | ⟨1, _⟩ => rfl))

/-- The reference's product is every row times the weight matrix. -/
theorem dense2 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) :
    val_main_v37 (F := Ideal) x0 x1 x2 x3 x4 x5 x6 x7 x8 = Spec.dense (R := 100000) (K := 64) (M := 64) (val_main_v36 (F := Ideal) x0 x1 x2 x3 x4 x5 x6 x7) x8 := by
  funext i
  refine (val_main_v37_apply x0 x1 x2 x3 x4 x5 x6 x7 x8 i).trans ?_
  unfold Spec.dense
  exact Finset.sum_congr rfl fun k _ => congrArg₂ (· * ·)
    (congrArg (val_main_v36 (F := Ideal) x0 x1 x2 x3 x4 x5 x6 x7) (funext fun a => by match a with | ⟨0, _⟩ => rfl | ⟨1, _⟩ => rfl))
    (congrArg x8 (funext fun a => by match a with | ⟨0, _⟩ => rfl | ⟨1, _⟩ => rfl))

/-- The reference's product is every row times the weight matrix. -/
theorem dense3 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x40, .f32⟩ : BufTy).Contents (Elt Ideal)) :
    val_main_v56 (F := Ideal) x0 x1 x2 x3 x4 x5 x6 x7 x8 x9 x10 = Spec.dense (R := 100000) (K := 64) (M := 40) (val_main_v55 (F := Ideal) x0 x1 x2 x3 x4 x5 x6 x7 x8 x9) x10 := by
  funext i
  refine (val_main_v56_apply x0 x1 x2 x3 x4 x5 x6 x7 x8 x9 x10 i).trans ?_
  unfold Spec.dense
  exact Finset.sum_congr rfl fun k _ => congrArg₂ (· * ·)
    (congrArg (val_main_v55 (F := Ideal) x0 x1 x2 x3 x4 x5 x6 x7 x8 x9) (funext fun a => by match a with | ⟨0, _⟩ => rfl | ⟨1, _⟩ => rfl))
    (congrArg x10 (funext fun a => by match a with | ⟨0, _⟩ => rfl | ⟨1, _⟩ => rfl))

/-! ## Bias, cut at zero, and the earlier layer added back -/

/-- Layer 1's bias row repeated down the rows, at an entry: the bias at the entry's column. -/
theorem bias1_apply (b : (⟨S64, .f32⟩ : BufTy).Contents (Elt Ideal)) (i : S100000x64.Idx) : val_main_v15 (F := Ideal) b i = b (ix1 (Spec.col i)) :=
  (val_main_v15_apply b i).trans ((val_main_v14_apply b _).trans (congrArg b (funext fun a => by match a with | ⟨0, _⟩ => rfl)))

/-- Layer 2's bias row repeated down the rows, at an entry: the bias at the entry's column. -/
theorem bias2_apply (b : (⟨S64, .f32⟩ : BufTy).Contents (Elt Ideal)) (i : S100000x64.Idx) : val_main_v33 (F := Ideal) b i = b (ix1 (Spec.col i)) :=
  (val_main_v33_apply b i).trans ((val_main_v32_apply b _).trans (congrArg b (funext fun a => by match a with | ⟨0, _⟩ => rfl)))

/-- Layer 3's bias row repeated down the rows, at an entry: the bias at the entry's column. -/
theorem bias3_apply (b : (⟨S64, .f32⟩ : BufTy).Contents (Elt Ideal)) (i : S100000x64.Idx) : val_main_v52 (F := Ideal) b i = b (ix1 (Spec.col i)) :=
  (val_main_v52_apply b i).trans ((val_main_v51_apply b _).trans (congrArg b (funext fun a => by match a with | ⟨0, _⟩ => rfl)))

theorem relu1 (A : (⟨S100000x64, .f32⟩ : BufTy).Contents (Elt Ideal)) (b : (⟨S64, .f32⟩ : BufTy).Contents (Elt Ideal)) :
    maximumf (addf A (val_main_v15 (F := Ideal) b)) (val_main_call0_v0 (F := Ideal)) = Spec.biasRelu (R := 100000) (M := 64) A b :=
  funext fun i => congrArg₂ max (congrArg₂ (· + ·) rfl (bias1_apply b i)) ((val_main_call0_v0_apply i).trans rfl)

theorem res2 (A r : (⟨S100000x64, .f32⟩ : BufTy).Contents (Elt Ideal)) (b : (⟨S64, .f32⟩ : BufTy).Contents (Elt Ideal)) :
    addf (maximumf (addf A (val_main_v33 (F := Ideal) b)) (val_main_call1_v0 (F := Ideal))) r = Spec.biasReluRes (R := 100000) (M := 64) A b r :=
  funext fun i => congrArg₂ (· + ·) (congrArg₂ max (congrArg₂ (· + ·) rfl (bias2_apply b i)) ((val_main_call1_v0_apply i).trans rfl)) rfl

theorem res3 (A r : (⟨S100000x64, .f32⟩ : BufTy).Contents (Elt Ideal)) (b : (⟨S64, .f32⟩ : BufTy).Contents (Elt Ideal)) :
    addf (maximumf (addf A (val_main_v52 (F := Ideal) b)) (val_main_call2_v0 (F := Ideal))) r = Spec.biasReluRes (R := 100000) (M := 64) A b r :=
  funext fun i => congrArg₂ (· + ·) (congrArg₂ max (congrArg₂ (· + ·) rfl (bias3_apply b i)) ((val_main_call2_v0_apply i).trans rfl)) rfl

end Cert.ReferenceIdeal.Hand

end
-- ==== Proof.RefLayers.lean ====
/-
  The idealized reference's first three layers: the stage after each layer's relu (and residual) is the layer function of
  the stage before it; the gather, weighting and scatter-add between a product and the bias are the edge aggregation,
  taken whole.
-/
import proofs.«120379_j40956808135036_1_alg».proof.Proof.Patched.ReferenceIdeal.Read
import proofs.«120379_j40956808135036_1_alg».proof.Proof.Network
import proofs.«120379_j40956808135036_1_alg».proof.Proof.LibLayers
import proofs.«120379_j40956808135036_1_alg».proof.Proof.RefStages

noncomputable section

open scoped BigOperators

namespace Cert.ReferenceIdeal.Hand

open Cert.ReferenceIdeal Cert.ReferenceIdeal.Gen Cert.ReferenceIdeal.ReadP
open Idealize.ShloMosaic Idealize.ShloMosaic.ValueIdx Idealize.ShloMosaic.TcCoe Idealize.SL.Sem

/-! ## The layers -/

theorem layer1_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) : val_main_v17 (F := Ideal) x0 x1 x2 x3 x4 x5 = layer1 x0 x1 x2 x3 x4 x5 := by
  unfold val_main_v17 val_main_v16
  rw [relu1]
  unfold val_main_v13 val_main_v12 val_main_v11 val_main_cst val_main_v10 val_main_v9 val_main_v8 val_main_v7 val_main_v6 val_main_v5 val_main_v4 val_main_v3 val_main_c_0 val_main_v2 val_main_v1 val_main_c
  rw [dense0]
  rfl

theorem middle1_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) : val_main_v36 (F := Ideal) x0 x1 x2 x3 x4 x5 x6 x7 = middle (val_main_v17 (F := Ideal) x0 x1 x2 x3 x4 x5) x1 x2 x3 x6 x7 := by
  unfold val_main_v36 val_main_v35 val_main_v34
  rw [res2]
  unfold val_main_v31 val_main_v30 val_main_v29 val_main_cst_3 val_main_v28 val_main_v27 val_main_v26 val_main_v25 val_main_v24 val_main_v23 val_main_v22 val_main_v21 val_main_c_2 val_main_v20 val_main_v19 val_main_c_1
  rw [dense1]
  rfl

theorem middle2_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) : val_main_v55 (F := Ideal) x0 x1 x2 x3 x4 x5 x6 x7 x8 x9 = middle (val_main_v36 (F := Ideal) x0 x1 x2 x3 x4 x5 x6 x7) x1 x2 x3 x8 x9 := by
  unfold val_main_v55 val_main_v54 val_main_v53
  rw [res3]
  unfold val_main_v50 val_main_v49 val_main_v48 val_main_cst_6 val_main_v47 val_main_v46 val_main_v45 val_main_v44 val_main_v43 val_main_v42 val_main_v41 val_main_v40 val_main_c_5 val_main_v39 val_main_v38 val_main_c_4
  rw [dense2]
  rfl

end Cert.ReferenceIdeal.Hand

end
-- ==== Proof.RefSoftmax.lean ====
/-
  The idealized reference's log_softmax: the maximum with −∞ of the row's maximum from −∞ is the row's maximum; it is taken
  off, then exp, the row's sum from zero, log, taken off — the row-wise log-softmax of the biased aggregate.
-/
import proofs.«120379_j40956808135036_1_alg».proof.Proof.Patched.ReferenceIdeal.Read
import proofs.«120379_j40956808135036_1_alg».proof.Proof.LibLayers

noncomputable section

open scoped BigOperators

namespace Cert.ReferenceIdeal.Hand

open Cert.ReferenceIdeal Cert.ReferenceIdeal.Gen Cert.ReferenceIdeal.ReadP
open Idealize.ShloMosaic Idealize.ShloMosaic.ValueIdx Idealize.ShloMosaic.TcCoe Idealize.SL.Sem

/-- The last layer's bias row repeated down the rows, at an entry: the bias at the entry's column. -/
theorem bias4_apply (b : (⟨S40, .f32⟩ : BufTy).Contents (Elt Ideal)) (i : S100000x40.Idx) : val_main_v71 (F := Ideal) b i = b (ix1 (Spec.col i)) :=
  (val_main_v71_apply b i).trans ((val_main_v70_apply b _).trans (congrArg b (funext fun a => by match a with | ⟨0, _⟩ => rfl)))

/-- The stage before the log_softmax is the aggregate plus the bias row. -/
theorem biased4 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x40, .f32⟩ : BufTy).Contents (Elt Ideal)) (x11 : (⟨S40, .f32⟩ : BufTy).Contents (Elt Ideal)) : val_main_v72 (F := Ideal) x0 x1 x2 x3 x4 x5 x6 x7 x8 x9 x10 x11 = Spec.biased (R := 100000) (M := 40) (val_main_v69 (F := Ideal) x0 x1 x2 x3 x4 x5 x6 x7 x8 x9 x10) x11 :=
  funext fun i => (val_main_v72_apply x0 x1 x2 x3 x4 x5 x6 x7 x8 x9 x10 x11 i).trans (congrArg₂ (· + ·) rfl (bias4_apply x11 i))

/-- Rows of a [100000, 40] array are summed and folded along their 40 columns. -/
theorem hred : S100000x40.Reduces [1] S100000 := by decide

/-- A host reduction with the maximum from −∞ along the rows of any [100000, 40] array is the fold of max over the row. -/
theorem rowfold_any (Z : (⟨S100000x40, .f32⟩ : BufTy).Contents (Elt Ideal)) (j : S100000.Idx) :
    Host.reduce (FloatOps.maximumf (F := Ideal) (φ := .f32)) Z (val_main_call3_cst (F := Ideal)) reducesTo_S100000x40_S100000_d1 h_S_ j
      = Spec.rowMax (R := 100000) (M := 40) Z ⟨(j 0).val, (j 0).isLt⟩ := by
  refine (Host.reduce_eq_fold_single FloatOps.maximumf _ _ reducesTo_S100000x40_S100000_d1 hred h_S_ j).trans ?_
  unfold Spec.rowMax
  refine congrArg (fun f => Finset.fold max (Ideal.ofBits .f32 0xFF800000#32) f Finset.univ) (funext fun k => ?_)
  refine congrArg Z (funext fun a => Fin.ext ?_)
  rw [Shape.Reduces.lift_val]
  unfold Shape.Reduces.liftVal
  match a with
  | ⟨0, _⟩ =>
    split
    · next hc => exact absurd hc (show ¬ (0 : ℕ) = 1 from Nat.zero_ne_one)
    · split
      · rfl
      · next hlt => exact absurd (show (0 : ℕ) < 1 from Nat.zero_lt_one) hlt
  | ⟨1, _⟩ =>
    split
    · rfl
    · next hc => exact absurd rfl hc

/-- The reference's reduction from −∞ along a row is the fold of max over the row. -/
theorem rowfold4 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x40, .f32⟩ : BufTy).Contents (Elt Ideal)) (x11 : (⟨S40, .f32⟩ : BufTy).Contents (Elt Ideal)) (j : S100000.Idx) :
    val_main_call3_v0 (F := Ideal) x0 x1 x2 x3 x4 x5 x6 x7 x8 x9 x10 x11 j = Spec.rowMax (R := 100000) (M := 40) (val_main_v72 (F := Ideal) x0 x1 x2 x3 x4 x5 x6 x7 x8 x9 x10 x11) ⟨(j 0).val, (j 0).isLt⟩ := by
  unfold val_main_call3_v0
  exact rowfold_any _ j

/-- The maximum with the −∞ splat changes nothing. -/
theorem rowmax4 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x40, .f32⟩ : BufTy).Contents (Elt Ideal)) (x11 : (⟨S40, .f32⟩ : BufTy).Contents (Elt Ideal)) (j : S100000.Idx) :
    val_main_call3_v2 (F := Ideal) x0 x1 x2 x3 x4 x5 x6 x7 x8 x9 x10 x11 j = Spec.rowMax (R := 100000) (M := 40) (val_main_v72 (F := Ideal) x0 x1 x2 x3 x4 x5 x6 x7 x8 x9 x10 x11) ⟨(j 0).val, (j 0).isLt⟩ := by
  refine (val_main_call3_v2_apply x0 x1 x2 x3 x4 x5 x6 x7 x8 x9 x10 x11 j).trans ?_
  rw [val_main_call3_v1_apply, val_main_call3_cst_0_apply, rowfold4]
  generalize val_main_v72 (F := Ideal) x0 x1 x2 x3 x4 x5 x6 x7 x8 x9 x10 x11 = Z
  exact Spec.max_ninf _

/-- The entries with their row's maximum taken off. -/
theorem centred4 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x40, .f32⟩ : BufTy).Contents (Elt Ideal)) (x11 : (⟨S40, .f32⟩ : BufTy).Contents (Elt Ideal)) : val_main_call3_v5 (F := Ideal) x0 x1 x2 x3 x4 x5 x6 x7 x8 x9 x10 x11 = Spec.centred (R := 100000) (M := 40) (val_main_v72 (F := Ideal) x0 x1 x2 x3 x4 x5 x6 x7 x8 x9 x10 x11) :=
  funext fun i => by
    refine (val_main_call3_v5_apply x0 x1 x2 x3 x4 x5 x6 x7 x8 x9 x10 x11 i).trans ?_
    rw [val_main_call3_v4_apply, val_main_call3_v3_apply, rowmax4]
    generalize val_main_v72 (F := Ideal) x0 x1 x2 x3 x4 x5 x6 x7 x8 x9 x10 x11 = Z
    rfl

/-- The log of the row's sum of exponentials, at an entry's row. -/
theorem logsum4 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x40, .f32⟩ : BufTy).Contents (Elt Ideal)) (x11 : (⟨S40, .f32⟩ : BufTy).Contents (Elt Ideal)) (i : S100000x40.Idx) :
    val_main_call3_v10 (F := Ideal) x0 x1 x2 x3 x4 x5 x6 x7 x8 x9 x10 x11 i = Ideal.log (∑ k : Fin 40, Ideal.exp (val_main_call3_v5 (F := Ideal) x0 x1 x2 x3 x4 x5 x6 x7 x8 x9 x10 x11 (ix2 (Spec.row i) k))) := by
  rw [val_main_call3_v10_apply, val_main_call3_v9_apply, val_main_call3_v8_apply, val_main_call3_v7_apply, val_main_call3_cst_1_apply]
  rw [Ideal.hostUnary_log_def]
  refine congrArg Ideal.log ?_
  refine (congrArg (· + _) Ideal.ofBits_zero_f32).trans ((zero_add _).trans ?_)
  refine Finset.sum_congr rfl fun k _ => ?_
  rw [val_main_call3_v6_apply, Ideal.hostUnary_exp_def]
  generalize val_main_call3_v5 (F := Ideal) x0 x1 x2 x3 x4 x5 x6 x7 x8 x9 x10 x11 = y
  exact congrArg (fun j => Ideal.exp (y j)) (funext fun a => by match a with | ⟨0, _⟩ => rfl | ⟨1, _⟩ => rfl)

/-- The reference's log_softmax of the biased aggregate is the row-wise log-softmax. -/
theorem lsm4 (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x40, .f32⟩ : BufTy).Contents (Elt Ideal)) (x11 : (⟨S40, .f32⟩ : BufTy).Contents (Elt Ideal)) : val_main_v73 (F := Ideal) x0 x1 x2 x3 x4 x5 x6 x7 x8 x9 x10 x11 = Spec.biasLogSoftmax (R := 100000) (M := 40) (val_main_v69 (F := Ideal) x0 x1 x2 x3 x4 x5 x6 x7 x8 x9 x10) x11 :=
  funext fun i => by
    refine (val_main_v73_apply x0 x1 x2 x3 x4 x5 x6 x7 x8 x9 x10 x11 i).trans ?_
    rw [logsum4, centred4, biased4]
    generalize val_main_v69 (F := Ideal) x0 x1 x2 x3 x4 x5 x6 x7 x8 x9 x10 = A
    rfl

end Cert.ReferenceIdeal.Hand

end
-- ==== Proof.RefNetwork.lean ====
/-
  The idealized reference's last stage is the network function of the twelve arguments: the last layer's product and
  aggregation of the third layer's output, then the log-softmax.
-/
import proofs.«120379_j40956808135036_1_alg».proof.Proof.Patched.ReferenceIdeal.Read
import proofs.«120379_j40956808135036_1_alg».proof.Proof.Network
import proofs.«120379_j40956808135036_1_alg».proof.Proof.LibLayers
import proofs.«120379_j40956808135036_1_alg».proof.Proof.RefStages
import proofs.«120379_j40956808135036_1_alg».proof.Proof.RefLayers
import proofs.«120379_j40956808135036_1_alg».proof.Proof.RefSoftmax

noncomputable section

open scoped BigOperators

namespace Cert.ReferenceIdeal.Hand

open Cert.ReferenceIdeal Cert.ReferenceIdeal.Gen Cert.ReferenceIdeal.ReadP
open Idealize.ShloMosaic Idealize.ShloMosaic.ValueIdx Idealize.ShloMosaic.TcCoe Idealize.SL.Sem

/-! ## The network -/

/-- The reference's last stage is the network function of the twelve arguments. -/
theorem network_eq (x0 : (⟨S100000x128, .f32⟩ : BufTy).Contents (Elt Ideal)) (x1 : (⟨S1600000, .i32⟩ : BufTy).Contents (Elt Ideal)) (x2 : (⟨S1600000, .i32⟩ : BufTy).Contents (Elt Ideal)) (x3 : (⟨S1600000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x40, .f32⟩ : BufTy).Contents (Elt Ideal)) (x11 : (⟨S40, .f32⟩ : BufTy).Contents (Elt Ideal)) : val_main_v73 (F := Ideal) x0 x1 x2 x3 x4 x5 x6 x7 x8 x9 x10 x11 = network x0 x1 x2 x3 x4 x5 x6 x7 x8 x9 x10 x11 := by
  rw [lsm4]
  unfold val_main_v69 val_main_v68 val_main_v67 val_main_cst_9 val_main_v66 val_main_v65 val_main_v64 val_main_v63 val_main_v62 val_main_v61 val_main_v60 val_main_v59 val_main_c_8 val_main_v58 val_main_v57 val_main_c_7
  rw [dense3, middle2_eq, middle1_eq, layer1_eq]
  rfl

end Cert.ReferenceIdeal.Hand

end
-- ==== Proof.lean ====
/-
  The certificate's five claims.

  The word-level kernel program and its idealization run, terminate and leave their arguments alone: the frame of a
  program of eight kernel regions among host stretches, each region's body run on its staging buffers. The idealization
  rewrote nothing. Over the extended reals the idealized kernel program ends with its result at the network function of
  its arguments (region by region: rows times weights on the matrix unit is the reference's dot_general, a sum with no
  order left in it; the bias, the cut at zero, the residual and the log-softmax are the reference's own operations entry by
  entry; the edge aggregation between them is the same host operations on both sides), and the idealized reference ends
  with its result at the same function of its arguments; from memories agreeing on the arguments the two results are equal.
-/
import proofs.«120379_j40956808135036_1_alg».proof.Defs
import proofs.«120379_j40956808135036_1_alg».proof.Proof.Gen.Kernel
import proofs.«120379_j40956808135036_1_alg».proof.Proof.Gen.Kernel.Skeleton
import proofs.«120379_j40956808135036_1_alg».proof.Proof.Patched.Kernel.Launch
import proofs.«120379_j40956808135036_1_alg».proof.Proof.Gen.Kernel.Points
import proofs.«120379_j40956808135036_1_alg».proof.Proof.Patched.Kernel.Frame
import proofs.«120379_j40956808135036_1_alg».proof.Proof.Gen.KernelIdeal
import proofs.«120379_j40956808135036_1_alg».proof.Proof.Gen.KernelIdeal.Skeleton
import proofs.«120379_j40956808135036_1_alg».proof.Proof.Patched.KernelIdeal.Launch
import proofs.«120379_j40956808135036_1_alg».proof.Proof.Gen.KernelIdeal.Points
import proofs.«120379_j40956808135036_1_alg».proof.Proof.Patched.KernelIdeal.Frame
import proofs.«120379_j40956808135036_1_alg».proof.Proof.Gen.ReferenceIdeal
import proofs.«120379_j40956808135036_1_alg».proof.Proof.Patched.ReferenceIdeal.Run
import proofs.«120379_j40956808135036_1_alg».proof.Proof.Patched.ReferenceIdeal.Read
import proofs.«120379_j40956808135036_1_alg».proof.Proof.Gen.Pre_finite_inputs
import proofs.«120379_j40956808135036_1_alg».proof.Proof.KernelRun
import proofs.«120379_j40956808135036_1_alg».proof.Proof.KernelChain
import proofs.«120379_j40956808135036_1_alg».proof.Proof.RefRun
import proofs.«120379_j40956808135036_1_alg».proof.Proof.RefNetwork
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- Both idealized programs end at the network function of the arguments, which agree. -/
theorem algebraic : Cert.algebraic_KernelIdeal_ReferenceIdeal := by
  intro m ρ m' ρ' _ hagree
  refine ⟨fun c => Cert.ReferenceIdeal.Hand.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Chain.out_eq m ρ c), (h c).2⟩) (Cert.KernelIdeal.Hand.run_out m ρ)
  · refine (θ_run Cert.ReferenceIdeal.defs _ _).mono (fun _ h c => ⟨(h c).1.trans ?_, (h c).2⟩) (Cert.ReferenceIdeal.Hand.run m' ρ')
    rw [Cert.ReferenceIdeal.Hand.network_eq]
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
